-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S2048x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 24
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S4x2048x1024, .f32⟩
  | .hbm, ⟨22, _⟩ => ⟨S4x2048x1024, .bf16⟩
  | .hbm, ⟨23, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x2048x1024, .f32⟩
  | .local _ .vmem, ⟨15, _⟩ => ⟨S1x2048x1024, .bf16⟩
  | .local _ .vmem, ⟨16, _⟩ => ⟨S1024x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S2048x1024, .bf16⟩
  | .local _ .vmem, ⟨21, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x1024.size a
  hwx0_7 : ∀ i : grid0.Coords, EltTy.bits .f32 = 32 ∨ (Rect.block (s := S8192x1024) S1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x1024.size a
  hwx0_8 : ∀ i : grid0.Coords, EltTy.bits .bf16 = 32 ∨ (Rect.block (s := S8192x1024) S1024x1024.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .f32 = 32 ∨ (Rect.block (s := S4x2048x1024) S1x2048x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KData.lean ====
/-
  The proof data of the two pipelines of `Kernel`'s @main, stated at a parameter `V` (the TensorCore's buffer
  contents when a region is entered).

  Region 0 (eight row tiles of 1024 rows of y): every window's block at a point, and what the body leaves in its
  two output buffers as functions of the input blocks — the K̂ tile `kfTile` and the V tile `vTile`.

  Region 1 (batch b, query tile qi; point t = 4·b + qi): the two scratch buffers hold, from the first point of
  a batch on, the two bf16 pieces `scrHi`, `scrLo` of that batch's K̂ block; the block does not move while qi
  runs, so after EVERY point t the scratch holds the pieces of the K̂ block of point t, and the output tile is one
  function `oTile` of the point's input blocks.  The invariant `Phi1` carries the scratch between points.
-/
import proofs.«145122_j68564857914100_2_alg».proof.Proof.Gen.Kernel.Launch
import proofs.«145122_j68564857914100_2_alg».proof.Proof.Gen.Kernel.Skeleton
import proofs.«145122_j68564857914100_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.R

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the bodies load and store through -/

abbrev rM : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rQ : Rect S1x512x1024 := Rect.unit (s := S1x512x1024) ![0, 0, 0] S1x512x1024.size inb_S1x512x1024_S1x512x1024_0_0_0
abbrev rK : Rect S1x2048x1024 := Rect.unit (s := S1x2048x1024) ![0, 0, 0] S1x2048x1024.size inb_S1x2048x1024_S1x2048x1024_0_0_0
abbrev rS : Rect S2048x1024 := Rect.unit (s := S2048x1024) ![0, 0] S2048x1024.size inb_S2048x1024_S2048x1024_0_0

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The K̂ tile the body stores: cos ((y·Wk + bk)·Wr + br) of the row tile `x0` of y. -/
def kfTile (x0 : Vec F S1024x1024 .f32) (x1 : Vec F S1024x1024 .bf16) (x2 : Vec F S1x1024 .f32)
    (x5 : Vec F S1024x1024 .bf16) (x6 : Vec F S1x1024 .f32) : Vec F S1024x1024 .f32 :=
  View.canon [⟨rM, k0_pay2 (View.ld x0 rM) (View.ld x1 rM) (View.ld x2 rB) (View.ld x5 rM) (View.ld x6 rB)⟩]

/-- The V tile the body stores: y·Wv + bv of the row tile. -/
def vTile (x0 : Vec F S1024x1024 .f32) (x3 : Vec F S1024x1024 .bf16) (x4 : Vec F S1x1024 .f32) : Vec F S1024x1024 .bf16 :=
  View.canon [⟨rM, k0_pay3 (View.ld x0 rM) (View.ld x3 rM) (View.ld x4 rB)⟩]

/-- Region 0's proof data on core `c`: the arrays as entered; each input's buffer at its block after the body, each
    output's at its tile; the invariant the class's (scoped rest and generator register, untouched). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => kfTile (iblk0 V c 0 t) (iblk0 V c 1 t) (iblk0 V c 2 t) (iblk0 V c 5 t) (iblk0 V c 6 t)
    | ⟨8, _⟩ => vTile (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = kfTile (iblk0 V c 0 t) (iblk0 V c 1 t) (iblk0 V c 2 t) (iblk0 V c 5 t) (iblk0 V c 6 t) := by dsimp only [dat0]
theorem after0_8 (c : Dev nD) (t : Fin cfg0.N) : (dat0 V c).after 8 t
    = vTile (iblk0 V c 0 t) (iblk0 V c 3 t) (iblk0 V c 4 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers as the body names them. -/
abbrev scr0 : Memref sig .tc .vmem S2048x1024 .bf16 := Memref.whole cc1_scratch0
abbrev scr1 : Memref sig .tc .vmem S2048x1024 .bf16 := Memref.whole cc1_scratch1

/-- The leading piece of the K̂ block `x1` (its rounding to bf16), as stored into the first scratch buffer. -/
def scrHi (x1 : Vec F S1x2048x1024 .f32) : Vec F S2048x1024 .bf16 :=
  View.canon [⟨rS, k1_pay4 (View.ld x1 rK)⟩]
/-- The remainder piece (the block less its leading piece, rounded), as stored into the second scratch buffer. -/
def scrLo (x1 : Vec F S1x2048x1024 .f32) : Vec F S2048x1024 .bf16 :=
  View.canon [⟨rS, k1_pay5 (View.ld x1 rK)⟩]

/-- The output tile of a point: softmax (Q·K̂ᵀ)·V of the query tile `x0`, the K̂ block `x1` (through its two scratch
    pieces), the V block `x2`, the weight `x3` and bias `x4` of the query projection. -/
def oTile (x0 : Vec F S1x512x1024 .f32) (x1 : Vec F S1x2048x1024 .f32) (x2 : Vec F S1x2048x1024 .bf16)
    (x3 : Vec F S1024x1024 .bf16) (x4 : Vec F S1x1024 .f32) : Vec F S1x512x1024 .f32 :=
  View.canon [⟨rQ, k1_pay1 (k1_pay6 (View.ld x0 rQ) (View.ld x3 rM) (View.ld x4 rB) (View.ld (scrHi x1) rS) (View.ld (scrLo x1) rS) (View.ld (scrHi x1) rS)) (View.ld x2 rK)⟩]

/-- Region 0's staging buffers: scoped buffers region 1 never touches, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f))

/-- Region 1's invariant before point `j` (after point `j − 1`): the untouched scoped buffers, the generator
    register, and the two scratch buffers whole at contents that, once a point has run, are the two pieces of that
    point's K̂ block. -/
def Phi1 (c : Dev nD) (j : Fin (cfg1.N + 1)) : sProp 𝕄 :=
  iprop(others1 (F := F) c ∗ (∃ r, prngReg c r)
    ∗ ∃ (d0 : Vec F S2048x1024 .bf16) (d1 : Vec F S2048x1024 .bf16),
        owns (c : Thread nD τ) scr0 fullShare d0 ∗ owns (c : Thread nD τ) scr1 fullShare d1
        ∗ ⌜∀ t : Fin cfg1.N, j = t.succ → d0 = scrHi (iblk1 V c 1 t) ∧ d1 = scrLo (iblk1 V c 1 t)⌝)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oTile (iblk1 V c 0 t) (iblk1 V c 1 t) (iblk1 V c 2 t) (iblk1 V c 3 t) (iblk1 V c 4 t)
  Φ j := Phi1 V c j
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = oTile (iblk1 V c 0 t) (iblk1 V c 1 t) (iblk1 V c 2 t) (iblk1 V c 3 t) (iblk1 V c 4 t) := by dsimp only [dat1]
theorem Phi1_eq (c : Dev nD) (j : Fin (cfg1.N + 1)) : (dat1 V c).Φ j = Phi1 V c j := by dsimp only [dat1]

end Cert.Kernel.R

end
-- ==== Proof.KBody0.lean ====
/-
  Region 0's body obligation: region 0 walks the eight row tiles of y.  At a point the seven input
  buffers hold their blocks (the row tile of y, and the three weight matrices with their bias rows, which never
  move); the body reads all seven, then fills the first output buffer with the K̂ tile
  cos ((y·Wk + bk)·Wr + br) and the second with the V tile y·Wv + bv, each by ONE store over the whole buffer.
  So after the body the inputs' buffers are as found and the two outputs' hold `kfTile` and `vTile` of the
  input blocks, whatever they held before.
-/
import proofs.«145122_j68564857914100_2_alg».proof.Proof.KData

set_option maxRecDepth 16384

noncomputable section

namespace Cert.Kernel.R

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input buffer holds when the body starts

An input window's buffer holds the window's block at EVERY point: at a point where the pipeline fetched it, the
fetch put the block there; at a point where it did not, the block index has not moved since the last fetch and
the body left the buffer as it found it.  The row tile of y (window 0) is fetched at every point; the weights
Wk, Wv, Wr (windows 1, 3, 5) and the bias rows bk, bv, br (windows 2, 4, 6) at the first point only.  No window
of this region is cut or ever idle, so the three side conditions of the library's lemma hold by computation. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## One whole-buffer store covers the buffer

Each output buffer is written by a single store through the rectangle of the whole 1024 × 1024 buffer, so every
coordinate of the buffer lies in that one piece: the buffer's contents after the body do not depend on what it
held before. -/

theorem cover_f32 (p : rM.shape.Idx → Elt F .f32) (y : S1024x1024.Idx) :
    ∃ pc ∈ ([⟨rM, p⟩] : List (View.Piece (Elt F) S1024x1024 .f32)), y ∈ pc.1.set :=
  View.cover_of_tiled [⟨rM, p⟩] S1024x1024.size (by rfl) y

theorem cover_bf16 (p : rM.shape.Idx → Elt F .bf16) (y : S1024x1024.Idx) :
    ∃ pc ∈ ([⟨rM, p⟩] : List (View.Piece (Elt F) S1024x1024 .bf16)), y ∈ pc.1.set :=
  View.cover_of_tiled [⟨rM, p⟩] S1024x1024.size (by rfl) y

/-! ## The body's triple

On whole buffers — the seven inputs' at contents `x0 … x6` (y's row tile, Wk, bk, Wv, bv, Wr, br), the two
outputs' at anything — the body runs to a continuation holding the inputs' buffers as they were, the first
output's at the K̂ tile `kfTile x0 x1 x2 x5 x6` and the second's at the V tile `vTile x0 x3 x4`.  The body is
its skeleton of nine loads (the seven inputs, and each output buffer once, a value nothing reads) and two whole
stores; each stored payload is a function of the loaded inputs only. -/

set_option maxHeartbeats 4000000 in
theorem sound_kernel0 (c : Dev nD) (E : Set ℕ) (i : grid0.Coords)
    (a0 : Memref sig .tc .vmem S1024x1024 .f32) (h0 : a0.IsWhole)
    (a1 : Memref sig .tc .vmem S1024x1024 .bf16) (h1 : a1.IsWhole)
    (a2 : Memref sig .tc .vmem S1x1024 .f32) (h2 : a2.IsWhole)
    (a3 : Memref sig .tc .vmem S1024x1024 .bf16) (h3 : a3.IsWhole)
    (a4 : Memref sig .tc .vmem S1x1024 .f32) (h4 : a4.IsWhole)
    (a5 : Memref sig .tc .vmem S1024x1024 .bf16) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (x0 : Vec F S1024x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (kfTile x0 x1 x2 x5 x6)
            ∗ owns (c : Thread nD τ) a8 fullShare (vTile x0 x3 x4)) -∗ K ⟨⟩))
      ⊢ wp frame (wpE (defs₀ (F := F)) Variants.none c none) E (cc0__kv_kernel i a0 h0 a1 h1 a2 h2 a3 h3 a4 h4 a5 h5 a6 h6 a7 h7 a8 h8) K := by
  simp only [cc0__kv_kernel_eq_skeleton]; unfold cc0__kv_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, ⟨%d8, %f8, -, H8⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_f32 _)
  iexists _; isplitr
  swap; · iexact H8
  ipureintro
  exact View.read_writes_eq_canon _ _ _ (cover_bf16 _)

/-! ## The body obligation, at a generic point -/

/-- What the body is called with at point `t`: the region's invariant, the core's dues, and each window's
    current buffer whole at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns: the same invariant and dues, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the seven inputs' buffers hold their blocks (`before0_0 … before0_6`), the outputs'
    hold anything, so the body's triple applies at the blocks; the invariant and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R

end
-- ==== Proof.KBody1.lean ====
/-
  Region 1's body obligation and the two ends of its invariant, for the word-level program `Kernel` (the same
  argument as for the idealized program: only the payloads' names differ).

  Region 1 runs the grid (batch b, query tile qi), point t = 4·b + qi. Its body, at qi = 0, splits the batch's K̂ block
  into two bf16 pieces and keeps them in two scratch buffers; at every point it forms the scores of the query tile
  against those pieces, the softmax weights, and the weighted sum of the V block, which it stores in the output tile.

  Here: every input window holds its block at every point; the K̂ block of a point that is not the first of its batch
  is the block of the point before; the body's run in each of the two cases of its branch; hence the obligation
  "from the invariant before t the body reaches the invariant after t with the output buffer at the tile of t's blocks";
  and the invariant before the first point and after the last is the plain ownership of the scoped buffers.
-/
import proofs.«145122_j68564857914100_2_alg».proof.Proof.KData

set_option maxRecDepth 16384

noncomputable section

namespace Cert.Kernel.R

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point

An input's buffer is refilled only when its block index moves; between refills the body leaves it as found, so at
every point it holds the block of that point, refilled there or not. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The K̂ block does not move while the query tile runs

Window 1's block index depends on the batch alone: it is refilled exactly at the points t ≡ 0 (mod 4), and at any
other point its block is the block of the point before. -/

/-- What a refill of window 1 at point `t` puts in its buffer is the block there. -/
theorem fetched1_1 (c : Dev nD) (t : Fin cfg1.N) (d) : (dat1 V c).fetched 1 t d = iblk1 V c 1 t := by
  unfold Dat.fetched Dat.blockOf iblk1; rw [A_eq1]; try rfl

/-- At a point that is not the first of its batch, the K̂ block is the previous point's. -/
theorem iblk1_1_prev (c : Dev nD) (t : Fin cfg1.N) (h : t.val % 4 ≠ 0) :
    iblk1 V c 1 t = iblk1 V c 1 ⟨t.val - 1, Nat.lt_of_le_of_lt (Nat.sub_le _ _) t.isLt⟩ := by
  have hf : (cfg1.win 1).fetch t = false := by
    rw [← Bool.not_eq_true]; exact fun e => h ((fetch1_1 t).mp e)
  obtain ⟨_, hix⟩ := (cfg1.win 1).index_eq_of_fetch rfl t hf
  have d : (cfg1.win 1).block.Idx → Elt F (cfg1.win 1).elt := iblk1 V c 1 t
  have h2 := (dat1 V c).fetched_congr 1 hix rfl d
  rw [fetched1_1, fetched1_1] at h2
  exact h2

/-! ## The body's branch: "is this the first query tile of the batch?" -/

/-- The condition of the body's one branch, from the grid coordinates: coordinate 1 (the query tile) is 0. -/
abbrev cond1 (i : grid1.Coords) : Prop := (Scalar.cmpi .ne (Scalar.extui (Scalar.cmpi .eq (BitVec.ofNat 32 (i 1).val) 0#32)) 0#32) = 1#1
/-- It holds exactly at the points t ≡ 0 (mod 4): decided over the sixteen points. -/
theorem hcond1 : ∀ t : Fin cfg1.N, cond1 (grid1.coords t) ↔ t.val % 4 = 0 :=
  (by decide +kernel : ∀ t : Fin grid1.N, cond1 (grid1.coords t) ↔ t.val % 4 = 0)

/-! ## Whole-buffer stores, and the output tile from the scratch as found -/

/-- A single piece whose rectangle is the whole shape covers it. -/
theorem cover_unit1 {S : Shape} {e : EltTy} {off : Fin S.rank → ℕ} (hz : off = fun _ => 0)
    (inb : ∀ a, off a + S.size a ≤ S.size a) (w : (Rect.unit (s := S) off S.size inb).shape.Idx → Elt F e) (y : S.Idx) :
    ∃ pc ∈ ([⟨Rect.unit (s := S) off S.size inb, w⟩] : List (View.Piece (Elt F) S e)), y ∈ pc.1.set := by
  subst hz
  exact ⟨_, List.mem_singleton_self _, by show y ∈ (Rect.whole S).set; rw [Rect.set_whole]; exact Finset.mem_univ y⟩

theorem off2_zero1 : (![0, 0] : Fin 2 → ℕ) = fun _ => 0 := by funext a; fin_cases a <;> rfl
theorem off3_zero1 : (![0, 0, 0] : Fin 3 → ℕ) = fun _ => 0 := by funext a; fin_cases a <;> rfl

/-- The output tile from the two scratch pieces as found (whatever put them there). -/
def oTileS (x0 : Vec F S1x512x1024 .f32) (x2 : Vec F S1x2048x1024 .bf16) (x3 : Vec F S1024x1024 .bf16) (x4 : Vec F S1x1024 .f32)
    (s0 s1 : Vec F S2048x1024 .bf16) : Vec F S1x512x1024 .f32 :=
  View.canon [⟨rQ, k1_pay1 (k1_pay6 (View.ld x0 rQ) (View.ld x3 rM) (View.ld x4 rB) (View.ld s0 rS) (View.ld s1 rS) (View.ld s0 rS)) (View.ld x2 rK)⟩]

theorem oTile_eq_oTileS (x0 : Vec F S1x512x1024 .f32) (x1 : Vec F S1x2048x1024 .f32) (x2 : Vec F S1x2048x1024 .bf16)
    (x3 : Vec F S1024x1024 .bf16) (x4 : Vec F S1x1024 .f32) :
    oTile x0 x1 x2 x3 x4 = oTileS x0 x2 x3 x4 (scrHi x1) (scrLo x1) := by
  unfold oTile oTileS; rfl
set_option maxHeartbeats 1000000 in
/-- The body at the FIRST query tile of a batch (the branch taken): whatever the scratch buffers held, they end at the
    two pieces of the K̂ block, and the output buffer at the tile computed from those pieces. -/
theorem sound_kernel1_first (c : Dev nD) (E : Set ℕ) (i : grid1.Coords) (hc : cond1 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (arg8 : Memref sig .tc .vmem S2048x1024 .bf16) (harg8 : arg8.IsWhole) (arg9 : Memref sig .tc .vmem S2048x1024 .bf16) (harg9 : arg9.IsWhole)
    (x0 : Vec F S1x512x1024 .f32) (x1 : Vec F S1x2048x1024 .f32) (x2 : Vec F S1x2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (oTile x0 x1 x2 x3 x4) ∗ owns (c : Thread nD τ) arg8 fullShare (scrHi x1)
            ∗ owns (c : Thread nD τ) arg9 fullShare (scrLo x1)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_unit1 off3_zero1 _ _), oTile_eq_oTileS]
    unfold oTileS scrHi scrLo
    sl_unfold_run_names
    rw [View.readCov_eq_canon', View.readCov_eq_canon']
    rfl
  isplitl [H6]
  · iexists _; isplitr
    swap; · iexact H6
    ipureintro
    unfold scrHi
    sl_unfold_run_names
    rw [View.read_writes_eq_canon _ _ _ (cover_unit1 off2_zero1 _ _)]
    rfl
  iexists _; isplitr
  swap; · iexact H7
  ipureintro
  unfold scrLo
  sl_unfold_run_names
  rw [View.read_writes_eq_canon _ _ _ (cover_unit1 off2_zero1 _ _)]
  rfl

set_option maxHeartbeats 1000000 in
/-- The body at a LATER query tile of a batch (the branch not taken): the scratch buffers are read, not written; from
    scratch contents `s0`, `s1` the output buffer ends at `oTileS` of the inputs and those contents. -/
theorem sound_kernel1_rest (c : Dev nD) (E : Set ℕ) (i : grid1.Coords) (hc : ¬ cond1 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (arg8 : Memref sig .tc .vmem S2048x1024 .bf16) (harg8 : arg8.IsWhole) (arg9 : Memref sig .tc .vmem S2048x1024 .bf16) (harg9 : arg9.IsWhole)
    (x0 : Vec F S1x512x1024 .f32) (x1 : Vec F S1x2048x1024 .f32) (x2 : Vec F S1x2048x1024 .bf16) (x3 : Vec F S1024x1024 .bf16) (x4 : Vec F S1x1024 .f32)
    (s0 s1 : Vec F S2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (oTileS x0 x2 x3 x4 s0 s1) ∗ owns (c : Thread nD τ) arg8 fullShare s0
            ∗ owns (c : Thread nD τ) arg9 fullShare s1) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_unit1 off3_zero1 _ _)]
    unfold oTileS
    sl_unfold_run_names
    rfl
  isplitl [H6]
  · iexists f6; isplitr; · ipureintro; rfl
    iexact H6
  iexists f7; isplitr; · ipureintro; rfl
  iexact H7

/-! ## The body obligation -/

/-- What the body is called with at point `t`: the invariant before it, the core's debts, every window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the invariant after it, the same debts, every buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- A point that is not the first of its batch comes right after the point before it. -/
theorem castSucc_eq_succ_pred1 (t : Fin cfg1.N) (h : t.val % 4 ≠ 0) :
    t.castSucc = (⟨t.val - 1, Nat.lt_of_le_of_lt (Nat.sub_le _ _) t.isLt⟩ : Fin cfg1.N).succ := by
  apply Fin.ext
  simp only [Fin.coe_castSucc, Fin.val_succ]
  omega

set_option maxHeartbeats 1000000 in
/-- The body at any point `t`. At the first query tile of a batch it fills the scratch with the pieces of the K̂ block
    of `t`. At a later one the invariant says the scratch holds the pieces of the block of `t − 1`, which is the block
    of `t` (the block does not move inside a batch). Either way the scratch ends at the pieces of the block of `t` and
    the output buffer at the tile of `t`'s blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, Phi1_eq, Phi1_eq]
  unfold Phi1
  have hpost : ∀ t' : Fin cfg1.N, t.succ = t'.succ →
      scrHi (iblk1 V c 1 t) = scrHi (iblk1 V c 1 t') ∧ scrLo (iblk1 V c 1 t) = scrLo (iblk1 V c 1 t') := by
    intro t' ht'
    obtain rfl := Fin.succ_injective _ ht'
    exact ⟨rfl, rfl⟩
  by_cases h0 : t.val % 4 = 0
  · iintro ⟨⟨Hoth, Hp, ⟨%d0, %d1, HS0, HS1, -⟩⟩, Ho, ⟨%e0, H0⟩, ⟨%e1, H1⟩, ⟨%e2, H2⟩, ⟨%e3, H3⟩, ⟨%e4, H4⟩, ⟨%e5, H5⟩⟩
    iapply (sound_kernel1_first c Set.univ (grid1.coords t) ((hcond1 t).mpr h0) _ _ _ _ _ _ _ _ _ _ _ _ _ _ _ _
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, H5, HS0, HS1⟩
    isplitl [Hoth Hp HS0 HS1]
    · isplitl [Hoth]; · iexact Hoth
      isplitl [Hp]; · iexact Hp
      iexists _, _
      isplitl [HS0]; · iexact HS0
      isplitl [HS1]; · iexact HS1
      ipureintro
      exact hpost
    isplitl [Ho]; · iexact Ho
    isplitl [H0]; · iexact H0
    isplitl [H1]; · iexact H1
    isplitl [H2]; · iexact H2
    isplitl [H3]; · iexact H3
    isplitl [H4]; · iexact H4
    iexact H5
  · iintro ⟨⟨Hoth, Hp, ⟨%d0, %d1, HS0, HS1, %hd⟩⟩, Ho, ⟨%e0, H0⟩, ⟨%e1, H1⟩, ⟨%e2, H2⟩, ⟨%e3, H3⟩, ⟨%e4, H4⟩, ⟨%e5, H5⟩⟩
    have hd' := hd _ (castSucc_eq_succ_pred1 t h0)
    rw [← iblk1_1_prev V c t h0] at hd'
    obtain ⟨rfl, rfl⟩ := hd'
    rw [oTile_eq_oTileS]
    iapply (sound_kernel1_rest c Set.univ (grid1.coords t) (fun h => h0 ((hcond1 t).mp h)) _ _ _ _ _ _ _ _ _ _ _ _ _ _ _ _
      (iblk1 V c 0 t) (iblk1 V c 1 t) (iblk1 V c 2 t) (iblk1 V c 3 t) (iblk1 V c 4 t)
      (scrHi (iblk1 V c 1 t)) (scrLo (iblk1 V c 1 t)) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [Hoth Hp HS0 HS1]
    · isplitl [Hoth]; · iexact Hoth
      isplitl [Hp]; · iexact Hp
      iexists _, _
      isplitl [HS0]; · iexact HS0
      isplitl [HS1]; · iexact HS1
      ipureintro
      exact hpost
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/
/-- What region 1 is entered with — the generator register and every scoped buffer that is no staging buffer of its
    own, each at some contents — is the invariant before the first point: no point has run, so the two scratch
    buffers may hold anything. -/
theorem phi1_in (c : Dev nD) : (iprop((∃ r, prngReg c r) ∗ Pipeline.scopedRest (Ix := Unit) (Name := ℕ) (U := UR sig nD τ) (Lvl := ℕ) (Val := Elt F) spec1 c) : sProp 𝕄) ⊢ Phi1 V c 0 := by
  rw [scopedRest1_eq]; unfold Phi1 others1
  simp only [scr0, scr1, owns_whole]
  iintro ⟨Hp, A0, A1, A2, A3, A4, A5, A6, A7, A8, A9, A10, A11, ⟨%g0, HS0⟩, ⟨%g1, HS1⟩⟩
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [Hp]; · iexact Hp
  iexists g0, g1
  isplitl [HS0]; · iexact HS0
  isplitl [HS1]; · iexact HS1
  ipureintro
  intro t ht
  exact absurd ht.symm (Fin.succ_ne_zero t)

/-- After the last point the invariant gives the same back: what the scratch buffers hold is forgotten. -/
theorem phi1_out (c : Dev nD) : Phi1 V c (Fin.last cfg1.N) ⊢ (iprop((∃ r, prngReg c r) ∗ Pipeline.scopedRest (Ix := Unit) (Name := ℕ) (U := UR sig nD τ) (Lvl := ℕ) (Val := Elt F) spec1 c) : sProp 𝕄) := by
  rw [scopedRest1_eq]; unfold Phi1 others1
  simp only [scr0, scr1, owns_whole]
  iintro ⟨⟨A0, A1, A2, A3, A4, A5, A6, A7, A8, A9, A10, A11⟩, Hp, ⟨%g0, %g1, HS0, HS1, -⟩⟩
  isplitl [Hp]; · iexact Hp
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [HS0]; · iexists g0; iexact HS0
  iexists g1; iexact HS1

end Cert.Kernel.R

end
-- ==== Proof.KRun.lean ====
/-
  The run of `Kernel`'s @main as four segments — nine host operations, the K̂/V pipeline, two reshapes, the attention
  pipeline — and what every unscoped buffer holds when it ends.

  Between two segments core `c` holds every unscoped buffer at the boundary's contents: the launch memory, then the
  host operations applied (`StableHlo.after`), then a pipeline's arrays replaced by what its write-backs leave
  (`Dat.arrAt … N`, every other buffer as entered).  Each pipeline is entered by splitting its arrays out of the
  unscoped buffers and left by putting them back; the generator register rides through; region 1's invariant takes
  the scratch buffers out of the scoped rest at its first point and returns them after its last.
  `run_all` reads every unscoped buffer of the final memory off the last boundary; from it the argument arrays are
  read back to their launch contents (`args_kept`) and the result array to the attention pipeline's write-backs.
-/
import proofs.«145122_j68564857914100_2_alg».proof.Proof.KData
import proofs.«145122_j68564857914100_2_alg».proof.Proof.KBody0
import proofs.«145122_j68564857914100_2_alg».proof.Proof.KBody1
import proofs.«145122_j68564857914100_2_alg».proof.Proof.Gen.Kernel.Regions

noncomputable section

namespace Cert.Kernel.R

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the nine host operations (region 0's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the two reshapes (region 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem exit1_arr (c : Dev nD) (w : Fin cfg1.W) : (dat1 (E3 m) c).arrAt w cfg1.N = E4 m c (Pipeline.arrRef spec1 w) :=
  (W4_arr m c w).symm
theorem exit1_rest (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The proof data family and the thread state -/

abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => dat0 (E1 m) c
  | ⟨1, _⟩ => fun c => dat1 (E3 m) c
abbrev 𝒱n : Variants := Variants.none
abbrev Ln : GSem nD τ sig → Finset Unit := fun _ => ∅
abbrev lvn : GSem nD τ sig → Unit → ℕ := fun _ _ => 0
/-- What rides beside the buffers: the generator register at some state, and the core owing nothing. -/
abbrev Ride (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The two pipelines as segments -/

set_option backward.isDefEq.respectTransparency.types false in
/-- The K̂/V pipeline: entered from every unscoped buffer at `W1`, left at `W2`. -/
def reg0 : Pipeline.RegionSeg (pcfgs (F := F)) noTables (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Ln lvn 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention pipeline: entered from every unscoped buffer at `W3`, left at `W4`; its invariant takes the scoped
    rest (the scratch buffers among it) and the generator register in, and gives them back. -/
def reg1 : Pipeline.RegionSeg (pcfgs (F := F)) noTables (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Ln lvn 1 fun _ _ => rfl
  pre c := iprop(StableHlo.held (c : Thread nD τ) (Pipeline.ucRefs τ sig) (W3 m c) ∗ Ride c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (E3 m) c 0 from rfl]
    iintro ⟨Hp, -, Hr⟩
    iapply (phi1_in (E3 m) c)
    isplitl [Hp]; · iexact Hp
    iexact Hr
  hout c := by
    rw [Pipeline.ownSems0_none, show (pdats m 1 c).Φ (Fin.last _) = Phi1 (E3 m) c (Fin.last cfg1.N) from rfl]
    iintro H
    ihave H' := (phi1_out (E3 m) c) $$ H
    icases H' with ⟨Hp, Hr⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four segments, and the launch -/

abbrev mainSegs : List (Pipeline.Seg (pcfgs (F := F)) noTables (pdats m) () defs₀ 𝒱n Ln lvn) :=
  [ .host (hostSeg hostOps0 hostOps0_sub hostOps0_fresh (W0 m)),
    .region (reg0 m),
    .host (hostSeg hostOps1 hostOps1_sub hostOps1_fresh (W2 m)),
    .region (reg1 m) ]
theorem main_is_segs (c : Dev nD) : main (F := F) c = Pipeline.Seg.run (mainSegs m) := (main_chain c).trans (by chain_rfl)

variable (ρ : Dev nD → PrngReg)

set_option backward.isDefEq.respectTransparency.types false in
/-- From any memory with zero counters every weakly fair execution of @main terminates without a fault, and every
    unscoped buffer of the final memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (pdats m) () cellOf_inj emb₁ defs₀ 𝒱n Ln lvn m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tend m)
    (hch := ⟨fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.R

end
-- ==== Proof.KEnds.lean ====
/-
  What the last boundary's contents are at the buffers the claims speak of: every argument array is its launch
  contents (no host operation writes one, and the one argument a pipeline stages — x, the attention pipeline's first
  input — is only read); the result array is what the attention pipeline's write-backs leave; and the entry contents
  of each pipeline's arrays, read back through the host operations to the launch memory and to the K̂/V pipeline's
  results.
-/
import proofs.«145122_j68564857914100_2_alg».proof.Proof.KRun

noncomputable section

namespace Cert.Kernel.R

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer no host operation writes and no pipeline stages keeps its contents -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h

/-- An argument other than x. -/
theorem arg_kept (c : Dev nD) (r : Ref sig .tc) (h0 : r ∉ hostOps0_W) (h1 : r ∉ hostOps1_W)
    (hp0 : ∀ w, Pipeline.arrRef spec0 w ≠ r) (hp1 : ∀ w, Pipeline.arrRef spec1 w ≠ r) :
    W4 m c (Proc.devRef .tc r) = m ((c : Thread nD τ).loc r) :=
  (W4_of_ne m c r hp1).trans <| (W3_keep m c r h1).trans <| (W2_of_ne m c r hp0).trans <| (W1_keep m c r h0).trans rfl

theorem arg0_kept (c : Dev nD) : W4 m c (Proc.devRef .tc main_arg0) = m ((c : Thread nD τ).loc main_arg0) :=
  (W4_arr m c 0).trans <| ((dat1 (E3 m) c).arrAt_in 0 rfl _).trans <| (A_eq1 (E3 m) c 0).trans <|
    (W3_keep m c main_arg0 (by decide)).trans <| (W2_of_ne m c main_arg0 (by decide)).trans <| (W1_keep m c main_arg0 (by decide)).trans rfl
theorem arg1_kept (c : Dev nD) : W4 m c (Proc.devRef .tc main_arg1) = m ((c : Thread nD τ).loc main_arg1) :=
  arg_kept m c main_arg1 (by decide) (by decide) (by decide) (by decide)
theorem arg2_kept (c : Dev nD) : W4 m c (Proc.devRef .tc main_arg2) = m ((c : Thread nD τ).loc main_arg2) :=
  arg_kept m c main_arg2 (by decide) (by decide) (by decide) (by decide)
theorem arg3_kept (c : Dev nD) : W4 m c (Proc.devRef .tc main_arg3) = m ((c : Thread nD τ).loc main_arg3) :=
  arg_kept m c main_arg3 (by decide) (by decide) (by decide) (by decide)
theorem arg4_kept (c : Dev nD) : W4 m c (Proc.devRef .tc main_arg4) = m ((c : Thread nD τ).loc main_arg4) :=
  arg_kept m c main_arg4 (by decide) (by decide) (by decide) (by decide)
theorem arg5_kept (c : Dev nD) : W4 m c (Proc.devRef .tc main_arg5) = m ((c : Thread nD τ).loc main_arg5) :=
  arg_kept m c main_arg5 (by decide) (by decide) (by decide) (by decide)
theorem arg6_kept (c : Dev nD) : W4 m c (Proc.devRef .tc main_arg6) = m ((c : Thread nD τ).loc main_arg6) :=
  arg_kept m c main_arg6 (by decide) (by decide) (by decide) (by decide)
theorem arg7_kept (c : Dev nD) : W4 m c (Proc.devRef .tc main_arg7) = m ((c : Thread nD τ).loc main_arg7) :=
  arg_kept m c main_arg7 (by decide) (by decide) (by decide) (by decide)
theorem arg8_kept (c : Dev nD) : W4 m c (Proc.devRef .tc main_arg8) = m ((c : Thread nD τ).loc main_arg8) :=
  arg_kept m c main_arg8 (by decide) (by decide) (by decide) (by decide)
theorem arg9_kept (c : Dev nD) : W4 m c (Proc.devRef .tc main_arg9) = m ((c : Thread nD τ).loc main_arg9) :=
  arg_kept m c main_arg9 (by decide) (by decide) (by decide) (by decide)

/-- The result array is what the attention pipeline's write-backs leave. -/
theorem result_eq (c : Dev nD) : W4 m c (Proc.devRef .tc main_v12) = (dat1 (E3 m) c).arrAt 5 cfg1.N := W4_arr m c 5

variable (ρ : Dev nD → PrngReg)

/-- The frame: every weakly fair execution terminates without a fault and the ten argument arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (arg0_kept m c),
     (h c _ (mem_uc main_arg1 (by decide))).trans (arg1_kept m c),
     (h c _ (mem_uc main_arg2 (by decide))).trans (arg2_kept m c),
     (h c _ (mem_uc main_arg3 (by decide))).trans (arg3_kept m c),
     (h c _ (mem_uc main_arg4 (by decide))).trans (arg4_kept m c),
     (h c _ (mem_uc main_arg5 (by decide))).trans (arg5_kept m c),
     (h c _ (mem_uc main_arg6 (by decide))).trans (arg6_kept m c),
     (h c _ (mem_uc main_arg7 (by decide))).trans (arg7_kept m c),
     (h c _ (mem_uc main_arg8 (by decide))).trans (arg8_kept m c),
     (h c _ (mem_uc main_arg9 (by decide))).trans (arg9_kept m c)⟩) (run_all m ρ)

end Cert.Kernel.R

end
-- ==== Proof.KiData.lean ====
/-
  The proof data of the two pipelines of `KernelIdeal`'s @main, stated at a parameter `V` (the TensorCore's buffer
  contents when a region is entered).

  Region 0 (eight row tiles of 1024 rows of y): every window's block at a point, and what the body leaves in its
  two output buffers as functions of the input blocks — the K̂ tile `kfTile` and the V tile `vTile`.

  Region 1 (batch b, query tile qi; point t = 4·b + qi): the two scratch buffers hold, from the first point of
  a batch on, the two bf16 pieces `scrHi`, `scrLo` of that batch's K̂ block; the block does not move while qi
  runs, so after EVERY point t the scratch holds the pieces of the K̂ block of point t, and the output tile is one
  function `oTile` of the point's input blocks.  The invariant `Phi1` carries the scratch between points.
-/
import proofs.«145122_j68564857914100_2_alg».proof.Proof.Gen.KernelIdeal.Launch
import proofs.«145122_j68564857914100_2_alg».proof.Proof.Gen.KernelIdeal.Skeleton
import proofs.«145122_j68564857914100_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the bodies load and store through -/

abbrev rM : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rQ : Rect S1x512x1024 := Rect.unit (s := S1x512x1024) ![0, 0, 0] S1x512x1024.size inb_S1x512x1024_S1x512x1024_0_0_0
abbrev rK : Rect S1x2048x1024 := Rect.unit (s := S1x2048x1024) ![0, 0, 0] S1x2048x1024.size inb_S1x2048x1024_S1x2048x1024_0_0_0
abbrev rS : Rect S2048x1024 := Rect.unit (s := S2048x1024) ![0, 0] S2048x1024.size inb_S2048x1024_S2048x1024_0_0

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The K̂ tile the body stores: cos ((y·Wk + bk)·Wr + br) of the row tile `x0` of y. -/
def kfTile (x0 : Vec F S1024x1024 .f32) (x1 : Vec F S1024x1024 .bf16) (x2 : Vec F S1x1024 .f32)
    (x5 : Vec F S1024x1024 .bf16) (x6 : Vec F S1x1024 .f32) : Vec F S1024x1024 .f32 :=
  View.canon [⟨rM, k0_pay2 (View.ld x0 rM) (View.ld x1 rM) (View.ld x2 rB) (View.ld x5 rM) (View.ld x6 rB)⟩]

/-- The V tile the body stores: y·Wv + bv of the row tile. -/
def vTile (x0 : Vec F S1024x1024 .f32) (x3 : Vec F S1024x1024 .bf16) (x4 : Vec F S1x1024 .f32) : Vec F S1024x1024 .bf16 :=
  View.canon [⟨rM, k0_pay3 (View.ld x0 rM) (View.ld x3 rM) (View.ld x4 rB)⟩]

/-- Region 0's proof data on core `c`: the arrays as entered; each input's buffer at its block after the body, each
    output's at its tile; the invariant the class's (scoped rest and generator register, untouched). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => kfTile (iblk0 V c 0 t) (iblk0 V c 1 t) (iblk0 V c 2 t) (iblk0 V c 5 t) (iblk0 V c 6 t)
    | ⟨8, _⟩ => vTile (iblk0 V c 0 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = kfTile (iblk0 V c 0 t) (iblk0 V c 1 t) (iblk0 V c 2 t) (iblk0 V c 5 t) (iblk0 V c 6 t) := by dsimp only [dat0]
theorem after0_8 (c : Dev nD) (t : Fin cfg0.N) : (dat0 V c).after 8 t
    = vTile (iblk0 V c 0 t) (iblk0 V c 3 t) (iblk0 V c 4 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers as the body names them. -/
abbrev scr0 : Memref sig .tc .vmem S2048x1024 .bf16 := Memref.whole cc1_scratch0
abbrev scr1 : Memref sig .tc .vmem S2048x1024 .bf16 := Memref.whole cc1_scratch1

/-- The leading piece of the K̂ block `x1` (its rounding to bf16), as stored into the first scratch buffer. -/
def scrHi (x1 : Vec F S1x2048x1024 .f32) : Vec F S2048x1024 .bf16 :=
  View.canon [⟨rS, k1_pay3 (View.ld x1 rK)⟩]
/-- The remainder piece (the block less its leading piece, rounded), as stored into the second scratch buffer. -/
def scrLo (x1 : Vec F S1x2048x1024 .f32) : Vec F S2048x1024 .bf16 :=
  View.canon [⟨rS, k1_pay4 (View.ld x1 rK)⟩]

/-- The output tile of a point: softmax (Q·K̂ᵀ)·V of the query tile `x0`, the K̂ block `x1` (through its two scratch
    pieces), the V block `x2`, the weight `x3` and bias `x4` of the query projection. -/
def oTile (x0 : Vec F S1x512x1024 .f32) (x1 : Vec F S1x2048x1024 .f32) (x2 : Vec F S1x2048x1024 .bf16)
    (x3 : Vec F S1024x1024 .bf16) (x4 : Vec F S1x1024 .f32) : Vec F S1x512x1024 .f32 :=
  View.canon [⟨rQ, k1_pay1 (k1_pay5 (View.ld x0 rQ) (View.ld x3 rM) (View.ld x4 rB) (View.ld (scrHi x1) rS) (View.ld (scrLo x1) rS) (View.ld (scrHi x1) rS)) (View.ld x2 rK)⟩]

/-- Region 0's staging buffers: scoped buffers region 1 never touches, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f))

/-- Region 1's invariant before point `j` (after point `j − 1`): the untouched scoped buffers, the generator
    register, and the two scratch buffers whole at contents that, once a point has run, are the two pieces of that
    point's K̂ block. -/
def Phi1 (c : Dev nD) (j : Fin (cfg1.N + 1)) : sProp 𝕄 :=
  iprop(others1 (F := F) c ∗ (∃ r, prngReg c r)
    ∗ ∃ (d0 : Vec F S2048x1024 .bf16) (d1 : Vec F S2048x1024 .bf16),
        owns (c : Thread nD τ) scr0 fullShare d0 ∗ owns (c : Thread nD τ) scr1 fullShare d1
        ∗ ⌜∀ t : Fin cfg1.N, j = t.succ → d0 = scrHi (iblk1 V c 1 t) ∧ d1 = scrLo (iblk1 V c 1 t)⌝)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oTile (iblk1 V c 0 t) (iblk1 V c 1 t) (iblk1 V c 2 t) (iblk1 V c 3 t) (iblk1 V c 4 t)
  Φ j := Phi1 V c j
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = oTile (iblk1 V c 0 t) (iblk1 V c 1 t) (iblk1 V c 2 t) (iblk1 V c 3 t) (iblk1 V c 4 t) := by dsimp only [dat1]
theorem Phi1_eq (c : Dev nD) (j : Fin (cfg1.N + 1)) : (dat1 V c).Φ j = Phi1 V c j := by dsimp only [dat1]

end Cert.KernelIdeal.R

end
-- ==== Proof.KiBody0.lean ====
/-
  Region 0's body obligation: region 0 walks the eight row tiles of y.  At a point the seven input
  buffers hold their blocks (the row tile of y, and the three weight matrices with their bias rows, which never
  move); the body reads all seven, then fills the first output buffer with the K̂ tile
  cos ((y·Wk + bk)·Wr + br) and the second with the V tile y·Wv + bv, each by ONE store over the whole buffer.
  So after the body the inputs' buffers are as found and the two outputs' hold `kfTile` and `vTile` of the
  input blocks, whatever they held before.
-/
import proofs.«145122_j68564857914100_2_alg».proof.Proof.KiData

set_option maxRecDepth 16384

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input buffer holds when the body starts

An input window's buffer holds the window's block at EVERY point: at a point where the pipeline fetched it, the
fetch put the block there; at a point where it did not, the block index has not moved since the last fetch and
the body left the buffer as it found it.  The row tile of y (window 0) is fetched at every point; the weights
Wk, Wv, Wr (windows 1, 3, 5) and the bias rows bk, bv, br (windows 2, 4, 6) at the first point only.  No window
of this region is cut or ever idle, so the three side conditions of the library's lemma hold by computation. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## One whole-buffer store covers the buffer

Each output buffer is written by a single store through the rectangle of the whole 1024 × 1024 buffer, so every
coordinate of the buffer lies in that one piece: the buffer's contents after the body do not depend on what it
held before. -/

theorem cover_f32 (p : rM.shape.Idx → Elt F .f32) (y : S1024x1024.Idx) :
    ∃ pc ∈ ([⟨rM, p⟩] : List (View.Piece (Elt F) S1024x1024 .f32)), y ∈ pc.1.set :=
  View.cover_of_tiled [⟨rM, p⟩] S1024x1024.size (by rfl) y

theorem cover_bf16 (p : rM.shape.Idx → Elt F .bf16) (y : S1024x1024.Idx) :
    ∃ pc ∈ ([⟨rM, p⟩] : List (View.Piece (Elt F) S1024x1024 .bf16)), y ∈ pc.1.set :=
  View.cover_of_tiled [⟨rM, p⟩] S1024x1024.size (by rfl) y

/-! ## The body's triple

On whole buffers — the seven inputs' at contents `x0 … x6` (y's row tile, Wk, bk, Wv, bv, Wr, br), the two
outputs' at anything — the body runs to a continuation holding the inputs' buffers as they were, the first
output's at the K̂ tile `kfTile x0 x1 x2 x5 x6` and the second's at the V tile `vTile x0 x3 x4`.  The body is
its skeleton of nine loads (the seven inputs, and each output buffer once, a value nothing reads) and two whole
stores; each stored payload is a function of the loaded inputs only. -/

set_option maxHeartbeats 4000000 in
theorem sound_kernel0 (c : Dev nD) (E : Set ℕ) (i : grid0.Coords)
    (a0 : Memref sig .tc .vmem S1024x1024 .f32) (h0 : a0.IsWhole)
    (a1 : Memref sig .tc .vmem S1024x1024 .bf16) (h1 : a1.IsWhole)
    (a2 : Memref sig .tc .vmem S1x1024 .f32) (h2 : a2.IsWhole)
    (a3 : Memref sig .tc .vmem S1024x1024 .bf16) (h3 : a3.IsWhole)
    (a4 : Memref sig .tc .vmem S1x1024 .f32) (h4 : a4.IsWhole)
    (a5 : Memref sig .tc .vmem S1024x1024 .bf16) (h5 : a5.IsWhole)
    (a6 : Memref sig .tc .vmem S1x1024 .f32) (h6 : a6.IsWhole)
    (a7 : Memref sig .tc .vmem S1024x1024 .f32) (h7 : a7.IsWhole)
    (a8 : Memref sig .tc .vmem S1024x1024 .bf16) (h8 : a8.IsWhole)
    (x0 : Vec F S1024x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d) ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (kfTile x0 x1 x2 x5 x6)
            ∗ owns (c : Thread nD τ) a8 fullShare (vTile x0 x3 x4)) -∗ K ⟨⟩))
      ⊢ wp frame (wpE (defs₀ (F := F)) Variants.none c none) E (cc0__kv_kernel i a0 h0 a1 h1 a2 h2 a3 h3 a4 h4 a5 h5 a6 h6 a7 h7 a8 h8) K := by
  simp only [cc0__kv_kernel_eq_skeleton]; unfold cc0__kv_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, ⟨%d8, %f8, -, H8⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_f32 _)
  iexists _; isplitr
  swap; · iexact H8
  ipureintro
  exact View.read_writes_eq_canon _ _ _ (cover_bf16 _)

/-! ## The body obligation, at a generic point -/

/-- What the body is called with at point `t`: the region's invariant, the core's dues, and each window's
    current buffer whole at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What it returns: the same invariant and dues, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the seven inputs' buffers hold their blocks (`before0_0 … before0_6`), the outputs'
    hold anything, so the body's triple applies at the blocks; the invariant and the dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R

end
-- ==== Proof.KiBody1.lean ====
/-
  Region 1's body obligation and the two ends of its invariant, for the idealized program `KernelIdeal`.

  Region 1 runs the grid (batch b, query tile qi), point t = 4·b + qi. Its body, at qi = 0, splits the batch's K̂ block
  into two bf16 pieces and keeps them in two scratch buffers; at every point it forms the scores of the query tile
  against those pieces, the softmax weights, and the weighted sum of the V block, which it stores in the output tile.

  Here: every input window holds its block at every point; the K̂ block of a point that is not the first of its batch
  is the block of the point before; the body's run in each of the two cases of its branch; hence the obligation
  "from the invariant before t the body reaches the invariant after t with the output buffer at the tile of t's blocks";
  and the invariant before the first point and after the last is the plain ownership of the scoped buffers.
-/
import proofs.«145122_j68564857914100_2_alg».proof.Proof.KiData

set_option maxRecDepth 16384

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point

An input's buffer is refilled only when its block index moves; between refills the body leaves it as found, so at
every point it holds the block of that point, refilled there or not. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The K̂ block does not move while the query tile runs

Window 1's block index depends on the batch alone: it is refilled exactly at the points t ≡ 0 (mod 4), and at any
other point its block is the block of the point before. -/

/-- What a refill of window 1 at point `t` puts in its buffer is the block there. -/
theorem fetched1_1 (c : Dev nD) (t : Fin cfg1.N) (d) : (dat1 V c).fetched 1 t d = iblk1 V c 1 t := by
  unfold Dat.fetched Dat.blockOf iblk1; rw [A_eq1]; try rfl

/-- At a point that is not the first of its batch, the K̂ block is the previous point's. -/
theorem iblk1_1_prev (c : Dev nD) (t : Fin cfg1.N) (h : t.val % 4 ≠ 0) :
    iblk1 V c 1 t = iblk1 V c 1 ⟨t.val - 1, Nat.lt_of_le_of_lt (Nat.sub_le _ _) t.isLt⟩ := by
  have hf : (cfg1.win 1).fetch t = false := by
    rw [← Bool.not_eq_true]; exact fun e => h ((fetch1_1 t).mp e)
  obtain ⟨_, hix⟩ := (cfg1.win 1).index_eq_of_fetch rfl t hf
  have d : (cfg1.win 1).block.Idx → Elt F (cfg1.win 1).elt := iblk1 V c 1 t
  have h2 := (dat1 V c).fetched_congr 1 hix rfl d
  rw [fetched1_1, fetched1_1] at h2
  exact h2

/-! ## The body's branch: "is this the first query tile of the batch?" -/

/-- The condition of the body's one branch, from the grid coordinates: coordinate 1 (the query tile) is 0. -/
abbrev cond1 (i : grid1.Coords) : Prop := (Scalar.cmpi .ne (Scalar.extui (Scalar.cmpi .eq (BitVec.ofNat 32 (i 1).val) 0#32)) 0#32) = 1#1
/-- It holds exactly at the points t ≡ 0 (mod 4): decided over the sixteen points. -/
theorem hcond1 : ∀ t : Fin cfg1.N, cond1 (grid1.coords t) ↔ t.val % 4 = 0 :=
  (by decide +kernel : ∀ t : Fin grid1.N, cond1 (grid1.coords t) ↔ t.val % 4 = 0)

/-! ## Whole-buffer stores, and the output tile from the scratch as found -/

/-- A single piece whose rectangle is the whole shape covers it. -/
theorem cover_unit1 {S : Shape} {e : EltTy} {off : Fin S.rank → ℕ} (hz : off = fun _ => 0)
    (inb : ∀ a, off a + S.size a ≤ S.size a) (w : (Rect.unit (s := S) off S.size inb).shape.Idx → Elt F e) (y : S.Idx) :
    ∃ pc ∈ ([⟨Rect.unit (s := S) off S.size inb, w⟩] : List (View.Piece (Elt F) S e)), y ∈ pc.1.set := by
  subst hz
  exact ⟨_, List.mem_singleton_self _, by show y ∈ (Rect.whole S).set; rw [Rect.set_whole]; exact Finset.mem_univ y⟩

theorem off2_zero1 : (![0, 0] : Fin 2 → ℕ) = fun _ => 0 := by funext a; fin_cases a <;> rfl
theorem off3_zero1 : (![0, 0, 0] : Fin 3 → ℕ) = fun _ => 0 := by funext a; fin_cases a <;> rfl

/-- The output tile from the two scratch pieces as found (whatever put them there). -/
def oTileS (x0 : Vec F S1x512x1024 .f32) (x2 : Vec F S1x2048x1024 .bf16) (x3 : Vec F S1024x1024 .bf16) (x4 : Vec F S1x1024 .f32)
    (s0 s1 : Vec F S2048x1024 .bf16) : Vec F S1x512x1024 .f32 :=
  View.canon [⟨rQ, k1_pay1 (k1_pay5 (View.ld x0 rQ) (View.ld x3 rM) (View.ld x4 rB) (View.ld s0 rS) (View.ld s1 rS) (View.ld s0 rS)) (View.ld x2 rK)⟩]

theorem oTile_eq_oTileS (x0 : Vec F S1x512x1024 .f32) (x1 : Vec F S1x2048x1024 .f32) (x2 : Vec F S1x2048x1024 .bf16)
    (x3 : Vec F S1024x1024 .bf16) (x4 : Vec F S1x1024 .f32) :
    oTile x0 x1 x2 x3 x4 = oTileS x0 x2 x3 x4 (scrHi x1) (scrLo x1) := by
  unfold oTile oTileS; rfl
set_option maxHeartbeats 1000000 in
/-- The body at the FIRST query tile of a batch (the branch taken): whatever the scratch buffers held, they end at the
    two pieces of the K̂ block, and the output buffer at the tile computed from those pieces. -/
theorem sound_kernel1_first (c : Dev nD) (E : Set ℕ) (i : grid1.Coords) (hc : cond1 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (arg8 : Memref sig .tc .vmem S2048x1024 .bf16) (harg8 : arg8.IsWhole) (arg9 : Memref sig .tc .vmem S2048x1024 .bf16) (harg9 : arg9.IsWhole)
    (x0 : Vec F S1x512x1024 .f32) (x1 : Vec F S1x2048x1024 .f32) (x2 : Vec F S1x2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (oTile x0 x1 x2 x3 x4) ∗ owns (c : Thread nD τ) arg8 fullShare (scrHi x1)
            ∗ owns (c : Thread nD τ) arg9 fullShare (scrLo x1)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_unit1 off3_zero1 _ _), oTile_eq_oTileS]
    unfold oTileS scrHi scrLo
    sl_unfold_run_names
    rw [View.readCov_eq_canon', View.readCov_eq_canon']
    rfl
  isplitl [H6]
  · iexists _; isplitr
    swap; · iexact H6
    ipureintro
    unfold scrHi
    sl_unfold_run_names
    rw [View.read_writes_eq_canon _ _ _ (cover_unit1 off2_zero1 _ _)]
    rfl
  iexists _; isplitr
  swap; · iexact H7
  ipureintro
  unfold scrLo
  sl_unfold_run_names
  rw [View.read_writes_eq_canon _ _ _ (cover_unit1 off2_zero1 _ _)]
  rfl

set_option maxHeartbeats 1000000 in
/-- The body at a LATER query tile of a batch (the branch not taken): the scratch buffers are read, not written; from
    scratch contents `s0`, `s1` the output buffer ends at `oTileS` of the inputs and those contents. -/
theorem sound_kernel1_rest (c : Dev nD) (E : Set ℕ) (i : grid1.Coords) (hc : ¬ cond1 i)
    (arg2 : Memref sig .tc .vmem S1x512x1024 .f32) (harg2 : arg2.IsWhole) (arg3 : Memref sig .tc .vmem S1x2048x1024 .f32) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x512x1024 .f32) (harg7 : arg7.IsWhole)
    (arg8 : Memref sig .tc .vmem S2048x1024 .bf16) (harg8 : arg8.IsWhole) (arg9 : Memref sig .tc .vmem S2048x1024 .bf16) (harg9 : arg9.IsWhole)
    (x0 : Vec F S1x512x1024 .f32) (x1 : Vec F S1x2048x1024 .f32) (x2 : Vec F S1x2048x1024 .bf16) (x3 : Vec F S1024x1024 .bf16) (x4 : Vec F S1x1024 .f32)
    (s0 s1 : Vec F S2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare s0 ∗ owns (c : Thread nD τ) arg9 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (oTileS x0 x2 x3 x4 s0 s1) ∗ owns (c : Thread nD τ) arg8 fullShare s0
            ∗ owns (c : Thread nD τ) arg9 fullShare s1) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0 hf1 hf2 hf3 hf4 hf6 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_unit1 off3_zero1 _ _)]
    unfold oTileS
    sl_unfold_run_names
    rfl
  isplitl [H6]
  · iexists f6; isplitr; · ipureintro; rfl
    iexact H6
  iexists f7; isplitr; · ipureintro; rfl
  iexact H7

/-! ## The body obligation -/

/-- What the body is called with at point `t`: the invariant before it, the core's debts, every window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the invariant after it, the same debts, every buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- A point that is not the first of its batch comes right after the point before it. -/
theorem castSucc_eq_succ_pred1 (t : Fin cfg1.N) (h : t.val % 4 ≠ 0) :
    t.castSucc = (⟨t.val - 1, Nat.lt_of_le_of_lt (Nat.sub_le _ _) t.isLt⟩ : Fin cfg1.N).succ := by
  apply Fin.ext
  simp only [Fin.coe_castSucc, Fin.val_succ]
  omega

set_option maxHeartbeats 1000000 in
/-- The body at any point `t`. At the first query tile of a batch it fills the scratch with the pieces of the K̂ block
    of `t`. At a later one the invariant says the scratch holds the pieces of the block of `t − 1`, which is the block
    of `t` (the block does not move inside a batch). Either way the scratch ends at the pieces of the block of `t` and
    the output buffer at the tile of `t`'s blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl,
    after1_0, after1_1, after1_2, after1_3, after1_4, after1_5, Phi1_eq, Phi1_eq]
  unfold Phi1
  have hpost : ∀ t' : Fin cfg1.N, t.succ = t'.succ →
      scrHi (iblk1 V c 1 t) = scrHi (iblk1 V c 1 t') ∧ scrLo (iblk1 V c 1 t) = scrLo (iblk1 V c 1 t') := by
    intro t' ht'
    obtain rfl := Fin.succ_injective _ ht'
    exact ⟨rfl, rfl⟩
  by_cases h0 : t.val % 4 = 0
  · iintro ⟨⟨Hoth, Hp, ⟨%d0, %d1, HS0, HS1, -⟩⟩, Ho, ⟨%e0, H0⟩, ⟨%e1, H1⟩, ⟨%e2, H2⟩, ⟨%e3, H3⟩, ⟨%e4, H4⟩, ⟨%e5, H5⟩⟩
    iapply (sound_kernel1_first c Set.univ (grid1.coords t) ((hcond1 t).mpr h0) _ _ _ _ _ _ _ _ _ _ _ _ _ _ _ _
      (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    isplitl [HS1]; · iexists _; iexact HS1
    iintro ⟨H0, H1, H2, H3, H4, H5, HS0, HS1⟩
    isplitl [Hoth Hp HS0 HS1]
    · isplitl [Hoth]; · iexact Hoth
      isplitl [Hp]; · iexact Hp
      iexists _, _
      isplitl [HS0]; · iexact HS0
      isplitl [HS1]; · iexact HS1
      ipureintro
      exact hpost
    isplitl [Ho]; · iexact Ho
    isplitl [H0]; · iexact H0
    isplitl [H1]; · iexact H1
    isplitl [H2]; · iexact H2
    isplitl [H3]; · iexact H3
    isplitl [H4]; · iexact H4
    iexact H5
  · iintro ⟨⟨Hoth, Hp, ⟨%d0, %d1, HS0, HS1, %hd⟩⟩, Ho, ⟨%e0, H0⟩, ⟨%e1, H1⟩, ⟨%e2, H2⟩, ⟨%e3, H3⟩, ⟨%e4, H4⟩, ⟨%e5, H5⟩⟩
    have hd' := hd _ (castSucc_eq_succ_pred1 t h0)
    rw [← iblk1_1_prev V c t h0] at hd'
    obtain ⟨rfl, rfl⟩ := hd'
    rw [oTile_eq_oTileS]
    iapply (sound_kernel1_rest c Set.univ (grid1.coords t) (fun h => h0 ((hcond1 t).mp h)) _ _ _ _ _ _ _ _ _ _ _ _ _ _ _ _
      (iblk1 V c 0 t) (iblk1 V c 1 t) (iblk1 V c 2 t) (iblk1 V c 3 t) (iblk1 V c 4 t)
      (scrHi (iblk1 V c 1 t)) (scrLo (iblk1 V c 1 t)) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [Hoth Hp HS0 HS1]
    · isplitl [Hoth]; · iexact Hoth
      isplitl [Hp]; · iexact Hp
      iexists _, _
      isplitl [HS0]; · iexact HS0
      isplitl [HS1]; · iexact HS1
      ipureintro
      exact hpost
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/
/-- What region 1 is entered with — the generator register and every scoped buffer that is no staging buffer of its
    own, each at some contents — is the invariant before the first point: no point has run, so the two scratch
    buffers may hold anything. -/
theorem phi1_in (c : Dev nD) : (iprop((∃ r, prngReg c r) ∗ Pipeline.scopedRest (Ix := Unit) (Name := ℕ) (U := UR sig nD τ) (Lvl := ℕ) (Val := Elt F) spec1 c) : sProp 𝕄) ⊢ Phi1 V c 0 := by
  rw [scopedRest1_eq]; unfold Phi1 others1
  simp only [scr0, scr1, owns_whole]
  iintro ⟨Hp, A0, A1, A2, A3, A4, A5, A6, A7, A8, A9, A10, A11, ⟨%g0, HS0⟩, ⟨%g1, HS1⟩⟩
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [Hp]; · iexact Hp
  iexists g0, g1
  isplitl [HS0]; · iexact HS0
  isplitl [HS1]; · iexact HS1
  ipureintro
  intro t ht
  exact absurd ht.symm (Fin.succ_ne_zero t)

/-- After the last point the invariant gives the same back: what the scratch buffers hold is forgotten. -/
theorem phi1_out (c : Dev nD) : Phi1 V c (Fin.last cfg1.N) ⊢ (iprop((∃ r, prngReg c r) ∗ Pipeline.scopedRest (Ix := Unit) (Name := ℕ) (U := UR sig nD τ) (Lvl := ℕ) (Val := Elt F) spec1 c) : sProp 𝕄) := by
  rw [scopedRest1_eq]; unfold Phi1 others1
  simp only [scr0, scr1, owns_whole]
  iintro ⟨⟨A0, A1, A2, A3, A4, A5, A6, A7, A8, A9, A10, A11⟩, Hp, ⟨%g0, %g1, HS0, HS1, -⟩⟩
  isplitl [Hp]; · iexact Hp
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [HS0]; · iexists g0; iexact HS0
  iexists g1; iexact HS1

end Cert.KernelIdeal.R

end
-- ==== Proof.KiRun.lean ====
/-
  The run of `KernelIdeal`'s @main as four segments — nine host operations, the K̂/V pipeline, two reshapes, the attention
  pipeline — and what every unscoped buffer holds when it ends.

  Between two segments core `c` holds every unscoped buffer at the boundary's contents: the launch memory, then the
  host operations applied (`StableHlo.after`), then a pipeline's arrays replaced by what its write-backs leave
  (`Dat.arrAt … N`, every other buffer as entered).  Each pipeline is entered by splitting its arrays out of the
  unscoped buffers and left by putting them back; the generator register rides through; region 1's invariant takes
  the scratch buffers out of the scoped rest at its first point and returns them after its last.
  `run_all` reads every unscoped buffer of the final memory off the last boundary; from it the argument arrays are
  read back to their launch contents (`args_kept`) and the result array to the attention pipeline's write-backs.
-/
import proofs.«145122_j68564857914100_2_alg».proof.Proof.KiData
import proofs.«145122_j68564857914100_2_alg».proof.Proof.KiBody0
import proofs.«145122_j68564857914100_2_alg».proof.Proof.KiBody1
import proofs.«145122_j68564857914100_2_alg».proof.Proof.Gen.KernelIdeal.Regions

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the nine host operations (region 0's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem exit0_arr (c : Dev nD) (w : Fin cfg0.W) : (dat0 (E1 m) c).arrAt w cfg0.N = E2 m c (Pipeline.arrRef spec0 w) :=
  (W2_arr m c w).symm
theorem exit0_rest (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the two reshapes (region 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem exit1_arr (c : Dev nD) (w : Fin cfg1.W) : (dat1 (E3 m) c).arrAt w cfg1.N = E4 m c (Pipeline.arrRef spec1 w) :=
  (W4_arr m c w).symm
theorem exit1_rest (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The proof data family and the thread state -/

abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => dat0 (E1 m) c
  | ⟨1, _⟩ => fun c => dat1 (E3 m) c
abbrev 𝒱n : Variants := Variants.none
abbrev Ln : GSem nD τ sig → Finset Unit := fun _ => ∅
abbrev lvn : GSem nD τ sig → Unit → ℕ := fun _ _ => 0
/-- What rides beside the buffers: the generator register at some state, and the core owing nothing. -/
abbrev Ride (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The two pipelines as segments -/

set_option backward.isDefEq.respectTransparency.types false in
/-- The K̂/V pipeline: entered from every unscoped buffer at `W1`, left at `W2`. -/
def reg0 : Pipeline.RegionSeg (pcfgs (F := F)) noTables (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Ln lvn 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention pipeline: entered from every unscoped buffer at `W3`, left at `W4`; its invariant takes the scoped
    rest (the scratch buffers among it) and the generator register in, and gives them back. -/
def reg1 : Pipeline.RegionSeg (pcfgs (F := F)) noTables (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ Ln lvn 1 fun _ _ => rfl
  pre c := iprop(StableHlo.held (c : Thread nD τ) (Pipeline.ucRefs τ sig) (W3 m c) ∗ Ride c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) noTables (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Phi1 (E3 m) c 0 from rfl]
    iintro ⟨Hp, -, Hr⟩
    iapply (phi1_in (E3 m) c)
    isplitl [Hp]; · iexact Hp
    iexact Hr
  hout c := by
    rw [Pipeline.ownSems0_none, show (pdats m 1 c).Φ (Fin.last _) = Phi1 (E3 m) c (Fin.last cfg1.N) from rfl]
    iintro H
    ihave H' := (phi1_out (E3 m) c) $$ H
    icases H' with ⟨Hp, Hr⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four segments, and the launch -/

abbrev mainSegs : List (Pipeline.Seg (pcfgs (F := F)) noTables (pdats m) () defs₀ 𝒱n Ln lvn) :=
  [ .host (hostSeg hostOps0 hostOps0_sub hostOps0_fresh (W0 m)),
    .region (reg0 m),
    .host (hostSeg hostOps1 hostOps1_sub hostOps1_fresh (W2 m)),
    .region (reg1 m) ]
theorem main_is_segs (c : Dev nD) : main (F := F) c = Pipeline.Seg.run (mainSegs m) := (main_chain c).trans (by chain_rfl)

variable (ρ : Dev nD → PrngReg)

set_option backward.isDefEq.respectTransparency.types false in
/-- From any memory with zero counters every weakly fair execution of @main terminates without a fault, and every
    unscoped buffer of the final memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) noTables (pdats m) () cellOf_inj emb₁ defs₀ 𝒱n Ln lvn m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tend m)
    (hch := ⟨fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.R

end
-- ==== Proof.KiEnds.lean ====
/-
  What the last boundary's contents are at the buffers the claims speak of: every argument array is its launch
  contents (no host operation writes one, and the one argument a pipeline stages — x, the attention pipeline's first
  input — is only read); the result array is what the attention pipeline's write-backs leave; and the entry contents
  of each pipeline's arrays, read back through the host operations to the launch memory and to the K̂/V pipeline's
  results.
-/
import proofs.«145122_j68564857914100_2_alg».proof.Proof.KiRun

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## A buffer no host operation writes and no pipeline stages keeps its contents -/

theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h

/-- An argument other than x. -/
theorem arg_kept (c : Dev nD) (r : Ref sig .tc) (h0 : r ∉ hostOps0_W) (h1 : r ∉ hostOps1_W)
    (hp0 : ∀ w, Pipeline.arrRef spec0 w ≠ r) (hp1 : ∀ w, Pipeline.arrRef spec1 w ≠ r) :
    W4 m c (Proc.devRef .tc r) = m ((c : Thread nD τ).loc r) :=
  (W4_of_ne m c r hp1).trans <| (W3_keep m c r h1).trans <| (W2_of_ne m c r hp0).trans <| (W1_keep m c r h0).trans rfl

theorem arg0_kept (c : Dev nD) : W4 m c (Proc.devRef .tc main_arg0) = m ((c : Thread nD τ).loc main_arg0) :=
  (W4_arr m c 0).trans <| ((dat1 (E3 m) c).arrAt_in 0 rfl _).trans <| (A_eq1 (E3 m) c 0).trans <|
    (W3_keep m c main_arg0 (by decide)).trans <| (W2_of_ne m c main_arg0 (by decide)).trans <| (W1_keep m c main_arg0 (by decide)).trans rfl
theorem arg1_kept (c : Dev nD) : W4 m c (Proc.devRef .tc main_arg1) = m ((c : Thread nD τ).loc main_arg1) :=
  arg_kept m c main_arg1 (by decide) (by decide) (by decide) (by decide)
theorem arg2_kept (c : Dev nD) : W4 m c (Proc.devRef .tc main_arg2) = m ((c : Thread nD τ).loc main_arg2) :=
  arg_kept m c main_arg2 (by decide) (by decide) (by decide) (by decide)
theorem arg3_kept (c : Dev nD) : W4 m c (Proc.devRef .tc main_arg3) = m ((c : Thread nD τ).loc main_arg3) :=
  arg_kept m c main_arg3 (by decide) (by decide) (by decide) (by decide)
theorem arg4_kept (c : Dev nD) : W4 m c (Proc.devRef .tc main_arg4) = m ((c : Thread nD τ).loc main_arg4) :=
  arg_kept m c main_arg4 (by decide) (by decide) (by decide) (by decide)
theorem arg5_kept (c : Dev nD) : W4 m c (Proc.devRef .tc main_arg5) = m ((c : Thread nD τ).loc main_arg5) :=
  arg_kept m c main_arg5 (by decide) (by decide) (by decide) (by decide)
theorem arg6_kept (c : Dev nD) : W4 m c (Proc.devRef .tc main_arg6) = m ((c : Thread nD τ).loc main_arg6) :=
  arg_kept m c main_arg6 (by decide) (by decide) (by decide) (by decide)
theorem arg7_kept (c : Dev nD) : W4 m c (Proc.devRef .tc main_arg7) = m ((c : Thread nD τ).loc main_arg7) :=
  arg_kept m c main_arg7 (by decide) (by decide) (by decide) (by decide)
theorem arg8_kept (c : Dev nD) : W4 m c (Proc.devRef .tc main_arg8) = m ((c : Thread nD τ).loc main_arg8) :=
  arg_kept m c main_arg8 (by decide) (by decide) (by decide) (by decide)
theorem arg9_kept (c : Dev nD) : W4 m c (Proc.devRef .tc main_arg9) = m ((c : Thread nD τ).loc main_arg9) :=
  arg_kept m c main_arg9 (by decide) (by decide) (by decide) (by decide)

/-- The result array is what the attention pipeline's write-backs leave. -/
theorem result_eq (c : Dev nD) : W4 m c (Proc.devRef .tc main_v12) = (dat1 (E3 m) c).arrAt 5 cfg1.N := W4_arr m c 5

variable (ρ : Dev nD → PrngReg)

/-- The frame: every weakly fair execution terminates without a fault and the ten argument arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (arg0_kept m c),
     (h c _ (mem_uc main_arg1 (by decide))).trans (arg1_kept m c),
     (h c _ (mem_uc main_arg2 (by decide))).trans (arg2_kept m c),
     (h c _ (mem_uc main_arg3 (by decide))).trans (arg3_kept m c),
     (h c _ (mem_uc main_arg4 (by decide))).trans (arg4_kept m c),
     (h c _ (mem_uc main_arg5 (by decide))).trans (arg5_kept m c),
     (h c _ (mem_uc main_arg6 (by decide))).trans (arg6_kept m c),
     (h c _ (mem_uc main_arg7 (by decide))).trans (arg7_kept m c),
     (h c _ (mem_uc main_arg8 (by decide))).trans (arg8_kept m c),
     (h c _ (mem_uc main_arg9 (by decide))).trans (arg9_kept m c)⟩) (run_all m ρ)

end Cert.KernelIdeal.R

end
-- ==== Proof.KiGlue.lean ====
/-
  The entry contents of each pipeline's arrays, read back through the host operations: the K̂/V pipeline finds y as
  8192 rows, the three weights rounded to bf16 and the three biases as one-row matrices; the attention pipeline finds
  x as launched, the K̂/V pipeline's two results reshaped to [4, 2048, 1024], the query weight rounded and the query
  bias as a one-row matrix.
-/
import proofs.«145122_j68564857914100_2_alg».proof.Proof.KiEnds

noncomputable section

namespace Cert.KernelIdeal.R

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem E1_v0 (c : Dev nD) : E1 m c main_v0 = shapeCast S8192x1024 (m ((c : Thread nD τ).loc main_arg1)) shapeCasts_S4x2048x1024_S8192x1024 := by
  show StableHlo.after hostOps0 (W0 m c) (Proc.devRef .tc main_v0) = _
  after_results
  try rfl
theorem E1_v1 (c : Dev nD) : E1 m c main_v1 = truncf .bf16 (m ((c : Thread nD τ).loc main_arg2)) bitsLt_bf16_f32 := by
  show StableHlo.after hostOps0 (W0 m c) (Proc.devRef .tc main_v1) = _
  after_results
  try rfl
theorem E1_v2 (c : Dev nD) : E1 m c main_v2 = truncf .bf16 (m ((c : Thread nD τ).loc main_arg4)) bitsLt_bf16_f32 := by
  show StableHlo.after hostOps0 (W0 m c) (Proc.devRef .tc main_v2) = _
  after_results
  try rfl
theorem E1_v3 (c : Dev nD) : E1 m c main_v3 = truncf .bf16 (m ((c : Thread nD τ).loc main_arg6)) bitsLt_bf16_f32 := by
  show StableHlo.after hostOps0 (W0 m c) (Proc.devRef .tc main_v3) = _
  after_results
  try rfl
theorem E1_v4 (c : Dev nD) : E1 m c main_v4 = truncf .bf16 (m ((c : Thread nD τ).loc main_arg8)) bitsLt_bf16_f32 := by
  show StableHlo.after hostOps0 (W0 m c) (Proc.devRef .tc main_v4) = _
  after_results
  try rfl
theorem E1_v5 (c : Dev nD) : E1 m c main_v5 = shapeCast S1x1024 (m ((c : Thread nD τ).loc main_arg3)) shapeCasts_S1024_S1x1024 := by
  show StableHlo.after hostOps0 (W0 m c) (Proc.devRef .tc main_v5) = _
  after_results
  try rfl
theorem E1_v6 (c : Dev nD) : E1 m c main_v6 = shapeCast S1x1024 (m ((c : Thread nD τ).loc main_arg5)) shapeCasts_S1024_S1x1024 := by
  show StableHlo.after hostOps0 (W0 m c) (Proc.devRef .tc main_v6) = _
  after_results
  try rfl
theorem E1_v7 (c : Dev nD) : E1 m c main_v7 = shapeCast S1x1024 (m ((c : Thread nD τ).loc main_arg7)) shapeCasts_S1024_S1x1024 := by
  show StableHlo.after hostOps0 (W0 m c) (Proc.devRef .tc main_v7) = _
  after_results
  try rfl
theorem E1_v8 (c : Dev nD) : E1 m c main_v8 = shapeCast S1x1024 (m ((c : Thread nD τ).loc main_arg9)) shapeCasts_S1024_S1x1024 := by
  show StableHlo.after hostOps0 (W0 m c) (Proc.devRef .tc main_v8) = _
  after_results
  try rfl

theorem E3_v10 (c : Dev nD) : E3 m c main_v10 = shapeCast S4x2048x1024 ((dat0 (E1 m) c).arrAt 7 cfg0.N) shapeCasts_S8192x1024_S4x2048x1024 := by
  show StableHlo.after hostOps1 (W2 m c) (Proc.devRef .tc main_v10) = _
  after_results
  rw [W2_arr m c 7]
  try rfl
theorem E3_v11 (c : Dev nD) : E3 m c main_v11 = shapeCast S4x2048x1024 ((dat0 (E1 m) c).arrAt 8 cfg0.N) shapeCasts_S8192x1024_S4x2048x1024 := by
  show StableHlo.after hostOps1 (W2 m c) (Proc.devRef .tc main_v11) = _
  after_results
  rw [W2_arr m c 8]
  try rfl
theorem E3_arg0 (c : Dev nD) : E3 m c main_arg0 = m ((c : Thread nD τ).loc main_arg0) :=
  (W3_keep m c main_arg0 (by decide)).trans <| (W2_of_ne m c main_arg0 (by decide)).trans <| (W1_keep m c main_arg0 (by decide)).trans rfl
theorem E3_v1 (c : Dev nD) : E3 m c main_v1 = truncf .bf16 (m ((c : Thread nD τ).loc main_arg2)) bitsLt_bf16_f32 :=
  (W3_keep m c main_v1 (by decide)).trans <| (W2_of_ne m c main_v1 (by decide)).trans (E1_v1 m c)
theorem E3_v5 (c : Dev nD) : E3 m c main_v5 = shapeCast S1x1024 (m ((c : Thread nD τ).loc main_arg3)) shapeCasts_S1024_S1x1024 :=
  (W3_keep m c main_v5 (by decide)).trans <| (W2_of_ne m c main_v5 (by decide)).trans (E1_v5 m c)

end Cert.KernelIdeal.R

end
-- ==== Proof.Spec.lean ====
/-
  The mathematics both programs compute, as one function of the ten argument arrays, index by index over
  the extended reals.  For a batch i, a query row q and an output column d:

    Q  = x·Wq + bq,   K = y·Wk + bk,   V = y·Wv + bv          (rows of 1024 entries)
    K̂  = cos (K·Wr + br)
    S(k) = ∑ r, Q[i,q,r] · K̂[i,k,r]                            (the scores of query q against every key k)
    out[i,q,d] = ∑ k, ( exp (S k − max S) / ∑ k', exp (S k' − max S) ) · V[i,k,d]

  Nothing here mentions a program: the two bridges (kernel side, reference side) each show their program's
  result is `out` of the arguments.
-/
import Idealize.ShloMosaic.PureOps.Ideal
import Idealize.ShloMosaic.Lib.ValueIdx

noncomputable section

namespace Cert.Spec

open Idealize.ShloMosaic Idealize.ShloMosaic.ValueIdx

/-- The shapes of the arguments: a batch of 4 sequences of 2048 rows of 1024 entries; a square weight; a bias. -/
abbrev T3 : Shape := ⟨3, ![4, 2048, 1024]⟩
abbrev M2 : Shape := ⟨2, ![1024, 1024]⟩
abbrev V1 : Shape := ⟨1, ![1024]⟩

/-- A dense projection of row (i, s): entry e of x[i,s,:]·W + b. -/
def proj (x : T3.Idx → EReal) (W : M2.Idx → EReal) (b : V1.Idx → EReal) (i : Fin 4) (s : Fin 2048) (e : Fin 1024) : EReal :=
  (∑ d : Fin 1024, x (ix3 i s d) * W (ix2 d e)) + b (ix1 e)

/-- The cosine feature map of the keys: entry r of cos (K[i,s,:]·Wr + br). -/
def khat (y : T3.Idx → EReal) (Wk : M2.Idx → EReal) (bk : V1.Idx → EReal) (Wr : M2.Idx → EReal) (br : V1.Idx → EReal)
    (i : Fin 4) (s : Fin 2048) (r : Fin 1024) : EReal :=
  Ideal.cos ((∑ d : Fin 1024, proj y Wk bk i s d * Wr (ix2 d r)) + br (ix1 r))

/-- The score of query row q against key row k in batch i. -/
def score (x : T3.Idx → EReal) (Wq : M2.Idx → EReal) (bq : V1.Idx → EReal)
    (y : T3.Idx → EReal) (Wk : M2.Idx → EReal) (bk : V1.Idx → EReal) (Wr : M2.Idx → EReal) (br : V1.Idx → EReal)
    (i : Fin 4) (q k : Fin 2048) : EReal :=
  ∑ r : Fin 1024, proj x Wq bq i q r * khat y Wk bk Wr br i k r

/-- The largest entry of a row of scores (−∞ is the neutral element of max on the extended reals). -/
def rowmax (S : Fin 2048 → EReal) : EReal := (Finset.univ : Finset (Fin 2048)).fold max ⊥ S

/-- Softmax of a row of scores, then the weighted sum of a column of values. -/
def attend (S : Fin 2048 → EReal) (Vc : Fin 2048 → EReal) : EReal :=
  ∑ k : Fin 2048, Ideal.div (Ideal.exp (S k - rowmax S)) (∑ k' : Fin 2048, Ideal.exp (S k' - rowmax S)) * Vc k

/-- The attention output at batch i, query row q, column d. -/
def outAt (x y : T3.Idx → EReal) (Wq : M2.Idx → EReal) (bq : V1.Idx → EReal) (Wk : M2.Idx → EReal) (bk : V1.Idx → EReal)
    (Wv : M2.Idx → EReal) (bv : V1.Idx → EReal) (Wr : M2.Idx → EReal) (br : V1.Idx → EReal)
    (i : Fin 4) (q : Fin 2048) (d : Fin 1024) : EReal :=
  attend (fun k => score x Wq bq y Wk bk Wr br i q k) (fun k => proj y Wv bv i k d)

/-- The whole result array. -/
def out (x y : T3.Idx → EReal) (Wq : M2.Idx → EReal) (bq : V1.Idx → EReal) (Wk : M2.Idx → EReal) (bk : V1.Idx → EReal)
    (Wv : M2.Idx → EReal) (bv : V1.Idx → EReal) (Wr : M2.Idx → EReal) (br : V1.Idx → EReal) : T3.Idx → EReal :=
  fun j => outAt x y Wq bq Wk bk Wv bv Wr br (j 0) (j 1) (j 2)

/-- Every entry of an array is a real number (neither infinity). -/
def IsReal {S : Shape} (a : S.Idx → EReal) : Prop := ∀ j, ∃ r : ℝ, a j = (r : EReal)

end Cert.Spec

end
-- ==== Proof.RealLemmas.lean ====
/-
  Closure of "is a real number" (an extended real that is neither infinity) under the operations the projections
  use: sums, products, finite sums, the cosine; hence every entry of a dense projection of real arrays, and of the
  cosine feature map, is real.  This is what licenses a − a = 0 on the extended reals, where ⊤ − ⊤ is not 0.
-/
import proofs.«145122_j68564857914100_2_alg».proof.Proof.Spec

noncomputable section

namespace Cert.Spec

open Idealize.ShloMosaic Idealize.ShloMosaic.ValueIdx

/-- An extended real that is a real number. -/
def Rl (a : EReal) : Prop := ∃ r : ℝ, a = (r : EReal)

theorem Rl.add {a b : EReal} (ha : Rl a) (hb : Rl b) : Rl (a + b) := by
  obtain ⟨r, rfl⟩ := ha; obtain ⟨s, rfl⟩ := hb; exact ⟨r + s, (EReal.coe_add r s).symm⟩

theorem Rl.mul {a b : EReal} (ha : Rl a) (hb : Rl b) : Rl (a * b) := by
  obtain ⟨r, rfl⟩ := ha; obtain ⟨s, rfl⟩ := hb; exact ⟨r * s, (EReal.coe_mul r s).symm⟩

theorem Rl.sum {ι : Type} (s : Finset ι) (f : ι → EReal) (h : ∀ i ∈ s, Rl (f i)) : Rl (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

theorem Rl.cos {a : EReal} (ha : Rl a) : Rl (Ideal.cos a) := by
  obtain ⟨r, rfl⟩ := ha; exact ⟨Real.cos r, rfl⟩

/-- a − a = 0 for a real a. -/
theorem Rl.sub_self {a : EReal} (ha : Rl a) : a - a = 0 := by
  obtain ⟨r, rfl⟩ := ha
  rw [← EReal.coe_sub, _root_.sub_self, EReal.coe_zero]

theorem IsReal.rl {S : Shape} {a : S.Idx → EReal} (h : IsReal a) (j : S.Idx) : Rl (a j) := h j

/-- Every entry of a dense projection of real arrays is real. -/
theorem proj_real {x : T3.Idx → EReal} {W : M2.Idx → EReal} {b : V1.Idx → EReal} (hx : IsReal x) (hW : IsReal W) (hb : IsReal b)
    (i : Fin 4) (s : Fin 2048) (e : Fin 1024) : Rl (proj x W b i s e) :=
  Rl.add (Rl.sum _ _ fun d _ => Rl.mul (hx _) (hW _)) (hb _)

/-- Every entry of the cosine feature map of real arrays is real. -/
theorem khat_real {y : T3.Idx → EReal} {Wk : M2.Idx → EReal} {bk : V1.Idx → EReal} {Wr : M2.Idx → EReal} {br : V1.Idx → EReal}
    (hy : IsReal y) (hWk : IsReal Wk) (hbk : IsReal bk) (hWr : IsReal Wr) (hbr : IsReal br)
    (i : Fin 4) (s : Fin 2048) (r : Fin 1024) : Rl (khat y Wk bk Wr br i s r) :=
  (Rl.add (Rl.sum _ _ fun d _ => Rl.mul (proj_real hy hWk hbk i s d) (hWr _)) (hbr _)).cos

end Cert.Spec

end
-- ==== Proof.KiReshape.lean ====
/-
  Reshapes read at an index: the 8192 rows of the K̂/V pipeline are the 4 × 2048 rows of the batch, row 2048·i + k
  of the flat array being row k of batch i; a bias [1024] as a one-row matrix.
-/
import proofs.«145122_j68564857914100_2_alg».proof.Proof.KiGlue
import proofs.«145122_j68564857914100_2_alg».proof.Proof.RealLemmas
import Idealize.ShloMosaic.Lib.Pipeline.Value
import Idealize.ShloMosaic.Lib.ValueLayout

noncomputable section

namespace Cert.KernelIdeal.R

open Cert.KernelIdeal Cert.KernelIdeal.Gen
open Idealize.ShloMosaic Idealize.ShloMosaic.ValueIdx

/-- Row n = 2048·i + k of the flattened array is row (i, k) of the batch. -/
theorem flat_row {α : Type} (y : S4x2048x1024.Idx → α) (i : Fin 4) (k : Fin 2048) (a : Fin 1024) (n : Fin 8192)
    (hn : n.val = 2048 * i.val + k.val) :
    shapeCast S8192x1024 y shapeCasts_S4x2048x1024_S8192x1024 (ix2 n a) = y (ix3 i k a) :=
  shapeCast_apply y _ _ _ (by
    rw [Shape.rowMajor_val_three, Shape.rowMajor_val_two]
    show (i.val * 2048 + k.val) * 1024 + a.val = n.val * 1024 + a.val
    rw [hn]; omega)

/-- Row (i, k) of the batch view of a flat array is its row 2048·i + k. -/
theorem batch_row {α : Type} (A : S8192x1024.Idx → α) (i : Fin 4) (k : Fin 2048) (r : Fin 1024) (n : Fin 8192)
    (hn : n.val = 2048 * i.val + k.val) :
    shapeCast S4x2048x1024 A shapeCasts_S8192x1024_S4x2048x1024 (ix3 i k r) = A (ix2 n r) :=
  shapeCast_apply A _ _ _ (by
    rw [Shape.rowMajor_val_three, Shape.rowMajor_val_two]
    show n.val * 1024 + r.val = (i.val * 2048 + k.val) * 1024 + r.val
    rw [hn]; omega)

/-- The flat row of (i, k). -/
def rowOf (i : Fin 4) (k : Fin 2048) : Fin 8192 := ⟨2048 * i.val + k.val, by omega⟩

/-- A bias as a one-row matrix, read at (0, d). -/
theorem bias_row {α : Type} (b : S1024.Idx → α) (d : Fin 1024) :
    shapeCast S1x1024 b shapeCasts_S1024_S1x1024 (ix2 (0 : Fin 1) d) = b (ix1 d) :=
  shapeCast_a_1a_apply b _ 0 d

end Cert.KernelIdeal.R

end
-- ==== Proof.KiBridge.lean ====
/-
  The bridge between the arrays the two pipelines leave and the specification.

  The K̂/V pipeline works on y flattened to 8192 rows (row 2048·i + k of the flat array is row k of batch i), on the
  weights rounded to bf16 (no change of value over the extended reals) and on the biases as one-row matrices; its two
  results, reshaped back to [4, 2048, 1024], are read by the attention pipeline.  Index by index these closed forms
  are the specification's K̂, V and output: the proof only renames indices, so nothing is assumed of the arguments.
  The last three statements say the arrays a pipeline finds are real whenever the arguments are.
-/
import proofs.«145122_j68564857914100_2_alg».proof.Proof.KiReshape

noncomputable section

namespace Cert.KernelIdeal.R

open Cert.KernelIdeal Cert.KernelIdeal.Gen
open Idealize.ShloMosaic Idealize.ShloMosaic.ValueIdx Cert.Spec

/-! ## The closed forms -/

/-- What the K̂/V pipeline leaves in its first result: row n, column r of cos ((y2·Wk' + bk')·Wr' + br'). -/
def kfFlat (y2 : FVec Ideal S8192x1024 .f32) (Wk' : FVec Ideal S1024x1024 .bf16) (bk' : FVec Ideal S1x1024 .f32)
    (Wr' : FVec Ideal S1024x1024 .bf16) (br' : FVec Ideal S1x1024 .f32) : S8192x1024.Idx → EReal :=
  fun j => Ideal.cos ((∑ d : Fin 1024, ((∑ a : Fin 1024, y2 (ix2 (j 0) a) * Wk' (ix2 a d)) + bk' (ix2 0 d)) * Wr' (ix2 d (j 1))) + br' (ix2 0 (j 1)))

/-- What it leaves in its second result: row n, column e of y2·Wv' + bv'. -/
def vFlat (y2 : FVec Ideal S8192x1024 .f32) (Wv' : FVec Ideal S1024x1024 .bf16) (bv' : FVec Ideal S1x1024 .f32) : S8192x1024.Idx → EReal :=
  fun j => (∑ a : Fin 1024, y2 (ix2 (j 0) a) * Wv' (ix2 a (j 1))) + bv' (ix2 0 (j 1))

/-- What the attention pipeline leaves: at (i, q, d), the softmax of the scores of query row q of x·Wq' + bq' against
    every key row of `Kf` in batch i, applied to column d of `Vv` in batch i. -/
def oOf (x Kf : FVec Ideal S4x2048x1024 .f32) (Vv : FVec Ideal S4x2048x1024 .bf16) (Wq' : FVec Ideal S1024x1024 .bf16)
    (bq' : FVec Ideal S1x1024 .f32) : S4x2048x1024.Idx → EReal :=
  fun j => Cert.Spec.attend
    (fun k : Fin 2048 => ∑ r : Fin 1024, ((∑ a : Fin 1024, x (ix3 (j 0) (j 1) a) * Wq' (ix2 a r)) + bq' (ix2 0 r)) * Kf (ix3 (j 0) k r))
    (fun k => Vv (ix3 (j 0) k (j 2)))

/-- The closed forms at explicit coordinates. -/
theorem kfFlat_apply (y2 : FVec Ideal S8192x1024 .f32) (Wk' : FVec Ideal S1024x1024 .bf16) (bk' : FVec Ideal S1x1024 .f32)
    (Wr' : FVec Ideal S1024x1024 .bf16) (br' : FVec Ideal S1x1024 .f32) (n : Fin 8192) (r : Fin 1024) :
    kfFlat y2 Wk' bk' Wr' br' (ix2 n r)
      = Ideal.cos ((∑ d : Fin 1024, ((∑ a : Fin 1024, y2 (ix2 n a) * Wk' (ix2 a d)) + bk' (ix2 0 d)) * Wr' (ix2 d r)) + br' (ix2 0 r)) := rfl

theorem vFlat_apply (y2 : FVec Ideal S8192x1024 .f32) (Wv' : FVec Ideal S1024x1024 .bf16) (bv' : FVec Ideal S1x1024 .f32)
    (n : Fin 8192) (e : Fin 1024) :
    vFlat y2 Wv' bv' (ix2 n e) = (∑ a : Fin 1024, y2 (ix2 n a) * Wv' (ix2 a e)) + bv' (ix2 0 e) := rfl

theorem oOf_apply (x Kf : FVec Ideal S4x2048x1024 .f32) (Vv : FVec Ideal S4x2048x1024 .bf16) (Wq' : FVec Ideal S1024x1024 .bf16)
    (bq' : FVec Ideal S1x1024 .f32) (i : Fin 4) (q : Fin 2048) (d : Fin 1024) :
    oOf x Kf Vv Wq' bq' (ix3 i q d)
      = Cert.Spec.attend
          (fun k : Fin 2048 => ∑ r : Fin 1024, ((∑ a : Fin 1024, x (ix3 i q a) * Wq' (ix2 a r)) + bq' (ix2 0 r)) * Kf (ix3 i k r))
          (fun k => Vv (ix3 i k d)) := rfl

/-! ## The pipelines' arrays are the specification's -/

section
variable (x y : FVec Ideal S4x2048x1024 .f32) (Wq Wk Wv Wr : FVec Ideal S1024x1024 .f32) (bq bk bv br : FVec Ideal S1024 .f32)

/-- A rounded weight and a one-row bias give the same dense projection of a row. -/
theorem proj_at (W : FVec Ideal S1024x1024 .f32) (b : FVec Ideal S1024 .f32) (i : Fin 4) (s : Fin 2048) (e : Fin 1024) :
    (∑ a : Fin 1024, x (ix3 i s a) * (truncf .bf16 W bitsLt_bf16_f32) (ix2 a e)) + (shapeCast S1x1024 b shapeCasts_S1024_S1x1024) (ix2 0 e) = proj x W b i s e := by
  simp only [truncf_apply, bias_row]
  rfl

/-- The reshaped first result at (i, k, r) is K̂ there. -/
theorem kf_at (i : Fin 4) (k : Fin 2048) (r : Fin 1024) :
    (shapeCast S4x2048x1024 (kfFlat (shapeCast S8192x1024 y shapeCasts_S4x2048x1024_S8192x1024) (truncf .bf16 Wk bitsLt_bf16_f32) (shapeCast S1x1024 bk shapeCasts_S1024_S1x1024) (truncf .bf16 Wr bitsLt_bf16_f32) (shapeCast S1x1024 br shapeCasts_S1024_S1x1024)) shapeCasts_S8192x1024_S4x2048x1024) (ix3 i k r) = khat y Wk bk Wr br i k r := by
  rw [batch_row _ i k r (rowOf i k) rfl, kfFlat_apply]
  simp only [fun a => flat_row y i k a (rowOf i k) rfl, truncf_apply, bias_row]
  rfl

/-- The reshaped second result at (i, k, e) is V there. -/
theorem vv_at (i : Fin 4) (k : Fin 2048) (e : Fin 1024) :
    (shapeCast S4x2048x1024 (vFlat (shapeCast S8192x1024 y shapeCasts_S4x2048x1024_S8192x1024) (truncf .bf16 Wv bitsLt_bf16_f32) (shapeCast S1x1024 bv shapeCasts_S1024_S1x1024)) shapeCasts_S8192x1024_S4x2048x1024) (ix3 i k e) = proj y Wv bv i k e := by
  rw [batch_row _ i k e (rowOf i k) rfl, vFlat_apply]
  simp only [fun a => flat_row y i k a (rowOf i k) rfl, truncf_apply, bias_row]
  rfl

/-- The attention pipeline's closed form over the K̂/V pipeline's reshaped results is the specification. -/
theorem bridge :
    oOf x (shapeCast S4x2048x1024 (kfFlat (shapeCast S8192x1024 y shapeCasts_S4x2048x1024_S8192x1024) (truncf .bf16 Wk bitsLt_bf16_f32) (shapeCast S1x1024 bk shapeCasts_S1024_S1x1024) (truncf .bf16 Wr bitsLt_bf16_f32) (shapeCast S1x1024 br shapeCasts_S1024_S1x1024)) shapeCasts_S8192x1024_S4x2048x1024)
      (shapeCast S4x2048x1024 (vFlat (shapeCast S8192x1024 y shapeCasts_S4x2048x1024_S8192x1024) (truncf .bf16 Wv bitsLt_bf16_f32) (shapeCast S1x1024 bv shapeCasts_S1024_S1x1024)) shapeCasts_S8192x1024_S4x2048x1024)
      (truncf .bf16 Wq bitsLt_bf16_f32) (shapeCast S1x1024 bq shapeCasts_S1024_S1x1024)
      = Cert.Spec.out x y Wq bq Wk bk Wv bv Wr br := by
  funext j
  obtain ⟨i, q, d, rfl⟩ : ∃ (i : Fin 4) (q : Fin 2048) (d : Fin 1024), j = ix3 i q d := ⟨j 0, j 1, j 2, eq_ix3 j⟩
  rw [oOf_apply]
  simp only [kf_at, vv_at, proj_at]
  rfl

/-! ## Real arguments give real arrays -/

/-- K̂ as the attention pipeline finds it is real when the arguments are. -/
theorem kf_isReal (hy : IsReal y) (hWk : IsReal Wk) (hbk : IsReal bk) (hWr : IsReal Wr) (hbr : IsReal br) :
    IsReal (shapeCast S4x2048x1024 (kfFlat (shapeCast S8192x1024 y shapeCasts_S4x2048x1024_S8192x1024) (truncf .bf16 Wk bitsLt_bf16_f32) (shapeCast S1x1024 bk shapeCasts_S1024_S1x1024) (truncf .bf16 Wr bitsLt_bf16_f32) (shapeCast S1x1024 br shapeCasts_S1024_S1x1024)) shapeCasts_S8192x1024_S4x2048x1024) := by
  intro j
  obtain ⟨i, k, r, rfl⟩ : ∃ (i : Fin 4) (k : Fin 2048) (r : Fin 1024), j = ix3 i k r := ⟨j 0, j 1, j 2, eq_ix3 j⟩
  rw [kf_at]
  exact khat_real hy hWk hbk hWr hbr i k r

end

/-- Rounding to bf16 changes no value over the extended reals. -/
theorem trunc_isReal {S : Shape} (W : FVec Ideal S .f32) (h : FTy.bits .bf16 < FTy.bits .f32) (hW : IsReal W) :
    IsReal (truncf .bf16 W h) := fun j => hW j

/-- A bias as a one-row matrix has the bias's entries. -/
theorem biasRow_isReal (b : FVec Ideal S1024 .f32) (hb : IsReal b) : IsReal (shapeCast S1x1024 b shapeCasts_S1024_S1x1024) := by
  intro j
  obtain ⟨z, d, rfl⟩ : ∃ (z : Fin 1) (d : Fin 1024), j = ix2 z d := ⟨j 0, j 1, eq_ix2 j⟩
  obtain rfl : z = 0 := Subsingleton.elim _ _
  rw [bias_row]
  exact hb _

end Cert.KernelIdeal.R

end
-- ==== Proof.KiValue0.lean ====
/-
  The values region 0 leaves, over the extended reals.

  Region 0 walks the 8192 rows of y in eight tiles of 1024 rows.  At a tile it computes, for a row n and a column e,

      K[n,d]  = (∑ a, y[n,a] · Wk[a,d]) + bk[d]
      K̂[n,e]  = cos ((∑ d, K[n,d] · Wr[d,e]) + br[e])
      V[n,e]  = (∑ a, y[n,a] · Wv[a,e]) + bv[e]

  (a change of float format is the identity on extended reals) and stores K̂ and V at the tile's rows of the two
  output arrays.  First the two stored tiles are read at an index (p, q) of a tile: each matrix product into the
  zero accumulator is the sum over the one contracted axis, the bias row is broadcast over the rows.  Then the
  tiles are assembled: tile t of an output array sits at rows 1024·t … 1024·t + 1023, the weights and biases are
  whole at every tile, the tile of y read at tile t is the same rows; every row n lies in tile n / 1024, so after
  the eight tiles each output array is the whole-array function.
-/
import proofs.«145122_j68564857914100_2_alg».proof.Proof.KiData
import proofs.«145122_j68564857914100_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.V0

open Cert.KernelIdeal Cert.KernelIdeal.Gen Cert.KernelIdeal.R
open Idealize.ShloMosaic Idealize.ShloMosaic.TcCoe Idealize.SL.Sem Idealize.ShloMosaic.ValueIdx
open Idealize.ShloMosaic.Pipeline (Dat)

/-! ## The whole-array functions -/

/-- Entry e of row n of y·W + b: a dense layer applied to one of the 8192 rows. -/
def lin2 (y : FVec Ideal S8192x1024 .f32) (W : FVec Ideal S1024x1024 .bf16) (b : FVec Ideal S1x1024 .f32)
    (n : Fin 8192) (e : Fin 1024) : EReal :=
  (∑ a : Fin 1024, y (ix2 n a) * W (ix2 a e)) + b (ix2 (0 : Fin 1) e)

/-- Entry e of row n of the cosine features of the keys: cos ((y·Wk + bk)·Wr + br). -/
def kf2 (y : FVec Ideal S8192x1024 .f32) (Wk : FVec Ideal S1024x1024 .bf16) (bk : FVec Ideal S1x1024 .f32)
    (Wr : FVec Ideal S1024x1024 .bf16) (br : FVec Ideal S1x1024 .f32) (n : Fin 8192) (e : Fin 1024) : EReal :=
  Ideal.cos ((∑ d : Fin 1024, lin2 y Wk bk n d * Wr (ix2 d e)) + br (ix2 (0 : Fin 1) e))

theorem lin2_def (y : FVec Ideal S8192x1024 .f32) (W : FVec Ideal S1024x1024 .bf16) (b : FVec Ideal S1x1024 .f32)
    (n : Fin 8192) (e : Fin 1024) :
    lin2 y W b n e = (∑ a : Fin 1024, y (ix2 n a) * W (ix2 a e)) + b (ix2 (0 : Fin 1) e) := rfl

theorem kf2_def (y : FVec Ideal S8192x1024 .f32) (Wk : FVec Ideal S1024x1024 .bf16) (bk : FVec Ideal S1x1024 .f32)
    (Wr : FVec Ideal S1024x1024 .bf16) (br : FVec Ideal S1x1024 .f32) (n : Fin 8192) (e : Fin 1024) :
    kf2 y Wk bk Wr br n e
      = Ideal.cos ((∑ d : Fin 1024, ((∑ a : Fin 1024, y (ix2 n a) * Wk (ix2 a d)) + bk (ix2 (0 : Fin 1) d)) * Wr (ix2 d e))
          + br (ix2 (0 : Fin 1) e)) := rfl

/-! ## The stored tiles at an index -/

/-- The left operand's index of the 1024×1024 by 1024×1024 product at output (p, q) and contraction position k is (p, k). -/
theorem lhs_at (p q : Fin 1024) (k : Fin 1024) :
    dot_S1024x1024_S1024x1024_S1024x1024_1_0_0_1_n_n.lhsIdx (ix2 p q)
        ((contrEquiv1 dot_S1024x1024_S1024x1024_S1024x1024_1_0_0_1_n_n 1024 rfl rfl).symm k) = ix2 p k := by
  have hk := contrEquiv1_symm_val dot_S1024x1024_S1024x1024_S1024x1024_1_0_0_1_n_n 1024 rfl rfl k
  funext a
  refine Fin.ext ?_
  match a with
  | ⟨0, _⟩ =>
    show (dot_S1024x1024_S1024x1024_S1024x1024_1_0_0_1_n_n.lhsIdx (ix2 p q) _ 0).val = p.val
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  | ⟨1, _⟩ =>
    exact (dot_S1024x1024_S1024x1024_S1024x1024_1_0_0_1_n_n.lhsIdx_val_of_single (cl := 1) rfl (ix2 p q) _).trans hk

/-- The right operand's index there is (k, q). -/
theorem rhs_at (p q : Fin 1024) (k : Fin 1024) :
    dot_S1024x1024_S1024x1024_S1024x1024_1_0_0_1_n_n.rhsIdx (ix2 p q)
        ((contrEquiv1 dot_S1024x1024_S1024x1024_S1024x1024_1_0_0_1_n_n 1024 rfl rfl).symm k) = ix2 k q := by
  have hk := contrEquiv1_symm_val dot_S1024x1024_S1024x1024_S1024x1024_1_0_0_1_n_n 1024 rfl rfl k
  funext a
  refine Fin.ext ?_
  match a with
  | ⟨0, _⟩ =>
    exact (dot_S1024x1024_S1024x1024_S1024x1024_1_0_0_1_n_n.rhsIdx_val_of_single (cr := 0) rfl (ix2 p q) _).trans hk
  | ⟨1, _⟩ =>
    show (dot_S1024x1024_S1024x1024_S1024x1024_1_0_0_1_n_n.rhsIdx (ix2 p q) _ 1).val = q.val
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- A product of two 1024×1024 matrices into the zero accumulator, at (p, q): the sum over the contracted axis. -/
theorem mm_at (A B : FVec Ideal S1024x1024 .bf16) (p q : Fin 1024) :
    matmul (F := Ideal) dot_S1024x1024_S1024x1024_S1024x1024_1_0_0_1_n_n none A B
        (constant (F := Ideal) S1024x1024 .f32 0x00000000#32) (ix2 p q)
      = ∑ k : Fin 1024, A (ix2 p k) * B (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  rw [lhs_at, rhs_at]

/-- A dense layer of a tile at (p, q): the matrix product plus the bias row broadcast over the rows. -/
theorem dense_at (A B : FVec Ideal S1024x1024 .bf16) (b : FVec Ideal S1x1024 .f32) (p q : Fin 1024) :
    addf (matmul (F := Ideal) dot_S1024x1024_S1024x1024_S1024x1024_1_0_0_1_n_n none A B
          (constant (F := Ideal) S1024x1024 .f32 0x00000000#32))
        (broadcastTo S1024x1024 b broadcasts_S1x1024_S1024x1024) (ix2 p q)
      = (∑ k : Fin 1024, A (ix2 p k) * B (ix2 k q)) + b (ix2 (0 : Fin 1) q) := by
  rw [addf_apply, mm_at, broadcastTo_1b_ab_apply]

/-- The stored V tile at (p, q). -/
theorem pay3_at (x0 : Vec Ideal S1024x1024 .f32) (x3 : Vec Ideal S1024x1024 .bf16) (x4 : Vec Ideal S1x1024 .f32)
    (p q : Fin 1024) :
    k0_pay3 (F := Ideal) x0 x3 x4 (ix2 p q) = (∑ k : Fin 1024, x0 (ix2 p k) * x3 (ix2 k q)) + x4 (ix2 (0 : Fin 1) q) := by
  unfold k0_pay3 k0_pay1
  simp only [shapeCast_self]
  rw [truncf_apply]
  exact dense_at _ _ _ p q

/-- The stored K̂ tile at (p, q). -/
theorem pay2_at (x0 : Vec Ideal S1024x1024 .f32) (x1 : Vec Ideal S1024x1024 .bf16) (x2 : Vec Ideal S1x1024 .f32)
    (x5 : Vec Ideal S1024x1024 .bf16) (x6 : Vec Ideal S1x1024 .f32) (p q : Fin 1024) :
    k0_pay2 (F := Ideal) x0 x1 x2 x5 x6 (ix2 p q)
      = Ideal.cos ((∑ d : Fin 1024, ((∑ a : Fin 1024, x0 (ix2 p a) * x1 (ix2 a d)) + x2 (ix2 (0 : Fin 1) d)) * x5 (ix2 d q))
          + x6 (ix2 (0 : Fin 1) q)) := by
  unfold k0_pay2 k0_pay1
  simp only [shapeCast_self]
  show Ideal.cos (addf (F := Ideal) (s := S1024x1024) (φ := .f32) _ _ (ix2 p q)) = _
  rw [dense_at]
  refine congrArg (fun s => Ideal.cos (s + x6 (ix2 (0 : Fin 1) q))) (Finset.sum_congr rfl fun d _ => ?_)
  rw [truncf_apply, dense_at]
  rfl

/-! ## From the tiles to the arrays -/

variable (V : (c : Dev nD) → (b : Ref sig .tc) → Buf (Elt Ideal) ((c : Thread nD τ).loc b))

theorem hz : (![0, 0] : Fin 2 → Nat) = fun _ => 0 := funext fun a => by fin_cases a <;> rfl

/-- Row p of tile t is row 1024·t + p of the array. -/
def row (t : Fin cfg0.N) (p : Fin 1024) : Fin 8192 :=
  ⟨1024 * t.val + p.val, by have := lt_of_lt_of_eq t.isLt N_0; have := p.isLt; omega⟩

theorem row_val (t : Fin cfg0.N) (p : Fin 1024) : (row t p).val = 1024 * t.val + p.val := rfl

/-- The block indices, decided over the eight tiles: the tile of y and the two output tiles are at block row t,
    column 0; each weight and bias is its one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

section Blocks

variable (c : Dev nD) (t : Fin cfg0.N)
variable {y2 : FVec Ideal S8192x1024 .f32} {Wk' Wv' Wr' : FVec Ideal S1024x1024 .bf16} {bk' bv' br' : FVec Ideal S1x1024 .f32}

/-- The tile of y read at tile t, at (p, a): row 1024·t + p of y. -/
theorem blk0_at (hy : V c main_v0 = y2) (p a : Fin 1024) :
    iblk0 (F := Ideal) V c 0 t (ix2 p a) = y2 (ix2 (row t p) a) := by
  obtain ⟨e0, e1, -⟩ := idx_facts t
  show V c main_v0 (((cfg0.win 0).blk t).view.emb (ix2 p a)) = _
  rw [hy]
  refine congrArg y2 (funext fun b => Fin.ext ?_)
  match b with
  | ⟨0, _⟩ => show win0_0.index t (0 : Fin 2) * 1024 + 1 * p.val = 1024 * t.val + p.val; omega
  | ⟨1, _⟩ => show win0_0.index t (1 : Fin 2) * 1024 + 1 * a.val = a.val; omega

/-- The key projection's weight is whole at every tile. -/
theorem blk1_eq (hWk : V c main_v2 = Wk') : iblk0 (F := Ideal) V c 1 t = Wk' := by
  obtain ⟨-, -, e0, e1, -⟩ := idx_facts t
  funext x
  show V c main_v2 (((cfg0.win 1).blk t).view.emb x) = Wk' x
  rw [hWk]
  refine congrArg Wk' (funext fun b => Fin.ext ?_)
  match b with
  | ⟨0, _⟩ => show win0_1.index t (0 : Fin 2) * 1024 + 1 * (x 0).val = (x 0).val; omega
  | ⟨1, _⟩ => show win0_1.index t (1 : Fin 2) * 1024 + 1 * (x 1).val = (x 1).val; omega

/-- Its bias row likewise. -/
theorem blk2_eq (hbk : V c main_v6 = bk') : iblk0 (F := Ideal) V c 2 t = bk' := by
  obtain ⟨-, -, -, -, e0, e1, -⟩ := idx_facts t
  funext x
  show V c main_v6 (((cfg0.win 2).blk t).view.emb x) = bk' x
  rw [hbk]
  refine congrArg bk' (funext fun b => Fin.ext ?_)
  match b with
  | ⟨0, _⟩ => show win0_2.index t (0 : Fin 2) * 1 + 1 * (x 0).val = (x 0).val; omega
  | ⟨1, _⟩ => show win0_2.index t (1 : Fin 2) * 1024 + 1 * (x 1).val = (x 1).val; omega

/-- The value projection's weight. -/
theorem blk3_eq (hWv : V c main_v3 = Wv') : iblk0 (F := Ideal) V c 3 t = Wv' := by
  obtain ⟨-, -, -, -, -, -, e0, e1, -⟩ := idx_facts t
  funext x
  show V c main_v3 (((cfg0.win 3).blk t).view.emb x) = Wv' x
  rw [hWv]
  refine congrArg Wv' (funext fun b => Fin.ext ?_)
  match b with
  | ⟨0, _⟩ => show win0_3.index t (0 : Fin 2) * 1024 + 1 * (x 0).val = (x 0).val; omega
  | ⟨1, _⟩ => show win0_3.index t (1 : Fin 2) * 1024 + 1 * (x 1).val = (x 1).val; omega

/-- Its bias row. -/
theorem blk4_eq (hbv : V c main_v7 = bv') : iblk0 (F := Ideal) V c 4 t = bv' := by
  obtain ⟨-, -, -, -, -, -, -, -, e0, e1, -⟩ := idx_facts t
  funext x
  show V c main_v7 (((cfg0.win 4).blk t).view.emb x) = bv' x
  rw [hbv]
  refine congrArg bv' (funext fun b => Fin.ext ?_)
  match b with
  | ⟨0, _⟩ => show win0_4.index t (0 : Fin 2) * 1 + 1 * (x 0).val = (x 0).val; omega
  | ⟨1, _⟩ => show win0_4.index t (1 : Fin 2) * 1024 + 1 * (x 1).val = (x 1).val; omega

/-- The feature map's weight. -/
theorem blk5_eq (hWr : V c main_v4 = Wr') : iblk0 (F := Ideal) V c 5 t = Wr' := by
  obtain ⟨-, -, -, -, -, -, -, -, -, -, e0, e1, -⟩ := idx_facts t
  funext x
  show V c main_v4 (((cfg0.win 5).blk t).view.emb x) = Wr' x
  rw [hWr]
  refine congrArg Wr' (funext fun b => Fin.ext ?_)
  match b with
  | ⟨0, _⟩ => show win0_5.index t (0 : Fin 2) * 1024 + 1 * (x 0).val = (x 0).val; omega
  | ⟨1, _⟩ => show win0_5.index t (1 : Fin 2) * 1024 + 1 * (x 1).val = (x 1).val; omega

/-- Its bias row. -/
theorem blk6_eq (hbr : V c main_v8 = br') : iblk0 (F := Ideal) V c 6 t = br' := by
  obtain ⟨-, -, -, -, -, -, -, -, -, -, -, -, e0, e1, -⟩ := idx_facts t
  funext x
  show V c main_v8 (((cfg0.win 6).blk t).view.emb x) = br' x
  rw [hbr]
  refine congrArg br' (funext fun b => Fin.ext ?_)
  match b with
  | ⟨0, _⟩ => show win0_6.index t (0 : Fin 2) * 1 + 1 * (x 0).val = (x 0).val; omega
  | ⟨1, _⟩ => show win0_6.index t (1 : Fin 2) * 1024 + 1 * (x 1).val = (x 1).val; omega

end Blocks

/-! ## A tile whose rows are rows of y computes those rows of the whole-array functions -/

theorem kf2_congr (y2 : FVec Ideal S8192x1024 .f32) (Wk' : FVec Ideal S1024x1024 .bf16) (bk' : FVec Ideal S1x1024 .f32)
    (Wr' : FVec Ideal S1024x1024 .bf16) (br' : FVec Ideal S1x1024 .f32) {n n' : Fin 8192} {e e' : Fin 1024}
    (hn : n.val = n'.val) (he : e.val = e'.val) : kf2 y2 Wk' bk' Wr' br' n e = kf2 y2 Wk' bk' Wr' br' n' e' := by
  rw [Fin.ext hn, Fin.ext he]

theorem lin2_congr (y2 : FVec Ideal S8192x1024 .f32) (W : FVec Ideal S1024x1024 .bf16) (b : FVec Ideal S1x1024 .f32)
    {n n' : Fin 8192} {e e' : Fin 1024} (hn : n.val = n'.val) (he : e.val = e'.val) : lin2 y2 W b n e = lin2 y2 W b n' e' := by
  rw [Fin.ext hn, Fin.ext he]

/-- The K̂ tile of a tile x0 of y whose row p is row n p of y, at (p, q): entry q of row n p of the cosine features. -/
theorem kf_tile (y2 : FVec Ideal S8192x1024 .f32) (Wk' : FVec Ideal S1024x1024 .bf16) (bk' : FVec Ideal S1x1024 .f32)
    (Wr' : FVec Ideal S1024x1024 .bf16) (br' : FVec Ideal S1x1024 .f32) (x0 : Vec Ideal S1024x1024 .f32)
    (n : Fin 1024 → Fin 8192) (h0 : ∀ p a : Fin 1024, x0 (ix2 p a) = y2 (ix2 (n p) a)) (p q : Fin 1024) :
    k0_pay2 (F := Ideal) x0 Wk' bk' Wr' br' (ix2 p q) = kf2 y2 Wk' bk' Wr' br' (n p) q := by
  rw [pay2_at, kf2_def]
  simp only [h0]

/-- The V tile likewise. -/
theorem v_tile (y2 : FVec Ideal S8192x1024 .f32) (Wv' : FVec Ideal S1024x1024 .bf16) (bv' : FVec Ideal S1x1024 .f32)
    (x0 : Vec Ideal S1024x1024 .f32)
    (n : Fin 1024 → Fin 8192) (h0 : ∀ p a : Fin 1024, x0 (ix2 p a) = y2 (ix2 (n p) a)) (p q : Fin 1024) :
    k0_pay3 (F := Ideal) x0 Wv' bv' (ix2 p q) = lin2 y2 Wv' bv' (n p) q := by
  rw [pay3_at, lin2_def]
  simp only [h0]

section Arrays

variable (c : Dev nD)
variable {y2 : FVec Ideal S8192x1024 .f32} {Wk' Wv' Wr' : FVec Ideal S1024x1024 .bf16} {bk' bv' br' : FVec Ideal S1x1024 .f32}

/-- What tile t writes back to the K̂ array is tile t of the whole-array function. -/
theorem kf_flushed (t : Fin cfg0.N) (hy : V c main_v0 = y2) (hWk : V c main_v2 = Wk') (hbk : V c main_v6 = bk')
    (hWr : V c main_v4 = Wr') (hbr : V c main_v8 = br') :
    (dat0 (F := Ideal) V c).flushed 7 t
      = ((cfg0.win 7).blk t).view.read (Elt Ideal) (fun j : S8192x1024.Idx => kf2 y2 Wk' bk' Wr' br' (j 0) (j 1)) := by
  show (cfg0.win 7).cut (grid0.coords t) ((dat0 (F := Ideal) V c).after 7 t) = _
  rw [after0_7]
  unfold kfTile
  rw [View.canon_unit_zero hz]
  simp only [View.ld_unit_zero (S := S1024x1024) hz, View.ld_unit_zero (S := S1x1024) hz]
  rw [blk1_eq V c t hWk, blk2_eq V c t hbk, blk5_eq V c t hWr, blk6_eq V c t hbr]
  obtain ⟨-, -, -, -, -, -, -, -, -, -, -, -, -, -, e0, e1, -⟩ := idx_facts t
  funext j
  have hj : j = ix2 (j 0) (j 1) := eq_ix2 (n0 := 1024) (n1 := 1024) j
  show k0_pay2 (F := Ideal) (iblk0 (F := Ideal) V c 0 t) Wk' bk' Wr' br' j
    = kf2 y2 Wk' bk' Wr' br' ((((cfg0.win 7).blk t).view.emb j) 0) ((((cfg0.win 7).blk t).view.emb j) 1)
  refine (congrArg (k0_pay2 (F := Ideal) (iblk0 (F := Ideal) V c 0 t) Wk' bk' Wr' br') hj).trans ?_
  refine (kf_tile y2 Wk' bk' Wr' br' (iblk0 (F := Ideal) V c 0 t) (row t) (fun p a => blk0_at V c t hy p a) (j 0) (j 1)).trans ?_
  refine kf2_congr y2 Wk' bk' Wr' br' ?_ ?_
  · show 1024 * t.val + (j 0).val = win0_7.index t (0 : Fin 2) * 1024 + 1 * (j 0).val; omega
  · show (j 1).val = win0_7.index t (1 : Fin 2) * 1024 + 1 * (j 1).val; omega

/-- What tile t writes back to the V array is tile t of the whole-array function. -/
theorem v_flushed (t : Fin cfg0.N) (hy : V c main_v0 = y2) (hWv : V c main_v3 = Wv') (hbv : V c main_v7 = bv') :
    (dat0 (F := Ideal) V c).flushed 8 t
      = ((cfg0.win 8).blk t).view.read (Elt Ideal) (fun j : S8192x1024.Idx => lin2 y2 Wv' bv' (j 0) (j 1)) := by
  show (cfg0.win 8).cut (grid0.coords t) ((dat0 (F := Ideal) V c).after 8 t) = _
  rw [after0_8]
  unfold vTile
  rw [View.canon_unit_zero hz]
  simp only [View.ld_unit_zero (S := S1024x1024) hz, View.ld_unit_zero (S := S1x1024) hz]
  rw [blk3_eq V c t hWv, blk4_eq V c t hbv]
  obtain ⟨-, -, -, -, -, -, -, -, -, -, -, -, -, -, -, -, e0, e1⟩ := idx_facts t
  funext j
  have hj : j = ix2 (j 0) (j 1) := eq_ix2 (n0 := 1024) (n1 := 1024) j
  show k0_pay3 (F := Ideal) (iblk0 (F := Ideal) V c 0 t) Wv' bv' j
    = lin2 y2 Wv' bv' ((((cfg0.win 8).blk t).view.emb j) 0) ((((cfg0.win 8).blk t).view.emb j) 1)
  refine (congrArg (k0_pay3 (F := Ideal) (iblk0 (F := Ideal) V c 0 t) Wv' bv') hj).trans ?_
  refine (v_tile y2 Wv' bv' (iblk0 (F := Ideal) V c 0 t) (row t) (fun p a => blk0_at V c t hy p a) (j 0) (j 1)).trans ?_
  refine lin2_congr y2 Wv' bv' ?_ ?_
  · show 1024 * t.val + (j 0).val = win0_8.index t (0 : Fin 2) * 1024 + 1 * (j 0).val; omega
  · show (j 1).val = win0_8.index t (1 : Fin 2) * 1024 + 1 * (j 1).val; omega

/-- An index of the K̂ array is in tile t iff each coordinate is in the tile's range on its axis. -/
theorem mem_blk7 (t : Fin cfg0.N) (i : S8192x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v9_0).slice (win0_7.rect t)).set ↔ _
  rw [View.set_slice_whole, Rect.mem_set_unit]
  exact Iff.rfl

/-- The same for the V array. -/
theorem mem_blk8 (t : Fin cfg0.N) (i : S8192x1024.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v9_1).slice (win0_8.rect t)).set ↔ _
  rw [View.set_slice_whole, Rect.mem_set_unit]
  exact Iff.rfl

/-- Row n of the K̂ array lies in tile n / 1024: the eight tiles cover the array. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 1024 ≤ (i 1).val ∧ (i 1).val < win0_7.index t (1 : Fin 2) * 1024 + 1024
    omega

/-- The same for the V array. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, -, -, -, -, e0, e1⟩ := idx_facts t
  refine ⟨t, flush0_8 t, ?_⟩
  rw [mem_blk8]
  intro a
  match a with
  | ⟨0, _⟩ =>
    show win0_8.index t (0 : Fin 2) * 1024 ≤ (i 0).val ∧ (i 0).val < win0_8.index t (0 : Fin 2) * 1024 + 1024
    omega
  | ⟨1, _⟩ =>
    show win0_8.index t (1 : Fin 2) * 1024 ≤ (i 1).val ∧ (i 1).val < win0_8.index t (1 : Fin 2) * 1024 + 1024
    omega

/-- THE K̂ ARRAY after the eight tiles: the cosine features of every row of y. -/
theorem kf_final (hy : V c main_v0 = y2) (hWk : V c main_v2 = Wk') (hbk : V c main_v6 = bk')
    (hWr : V c main_v4 = Wr') (hbr : V c main_v8 = br') :
    (dat0 (F := Ideal) V c).arrAt 7 cfg0.N = fun j : S8192x1024.Idx => kf2 y2 Wk' bk' Wr' br' (j 0) (j 1) :=
  (dat0 (F := Ideal) V c).arrAt_eq_of_cover 7 (fun j : S8192x1024.Idx => kf2 y2 Wk' bk' Wr' br' (j 0) (j 1))
    (fun t _ => kf_flushed V c t hy hWk hbk hWr hbr) cover7

/-- THE V ARRAY after the eight tiles: the value projection of every row of y. -/
theorem v_final (hy : V c main_v0 = y2) (hWv : V c main_v3 = Wv') (hbv : V c main_v7 = bv') :
    (dat0 (F := Ideal) V c).arrAt 8 cfg0.N = fun j : S8192x1024.Idx => lin2 y2 Wv' bv' (j 0) (j 1) :=
  (dat0 (F := Ideal) V c).arrAt_eq_of_cover 8 (fun j : S8192x1024.Idx => lin2 y2 Wv' bv' (j 0) (j 1))
    (fun t _ => v_flushed V c t hy hWv hbv) cover8

end Arrays

end Cert.KernelIdeal.V0

end
-- ==== Proof.KiValue1.lean ====
/-
  The array region 1 leaves, over the extended reals.

  Region 1 walks the batch b = 0 … 3 and, inside a batch, the four tiles qi = 0 … 3 of 512 query rows; its point
  t = 4·b + qi reads the query tile (rows 512·qi … 512·qi + 511 of batch b of x), the whole K̂ and V blocks of batch b
  and the whole query weight and bias, and writes the output tile at rows 512·qi … of batch b.  A tile whose rows are
  rows of x and whose K̂ and V blocks are batch b's computes, at (p, d), the attention output of batch b, query row
  512·qi + p, column d:

      S(k)       = ∑ r, ((∑ a, x[b,s,a] · Wq[a,r]) + bq[r]) · K̂[b,k,r]
      out[b,s,d] = ∑ k, ( exp (S k − max S) / ∑ k', exp (S k' − max S) ) · V[b,k,d]

  Every index (b, s, d) of the output array lies in the tile of point 4·b + s / 512, so after the sixteen points the
  array is that function of the five input arrays.
-/
import proofs.«145122_j68564857914100_2_alg».proof.Proof.KiData
import proofs.«145122_j68564857914100_2_alg».proof.Proof.Spec
import Idealize.ShloMosaic.Lib.ValueIdx
import Idealize.ShloMosaic.Lib.Pipeline.Value

noncomputable section

namespace Cert.KernelIdeal.V1

open Cert.KernelIdeal Cert.KernelIdeal.Gen Cert.KernelIdeal.R
open Idealize.ShloMosaic Idealize.ShloMosaic.TcCoe Idealize.SL.Sem Idealize.ShloMosaic.ValueIdx
open Idealize.ShloMosaic.Pipeline (Dat)

/-! ## The whole-array function -/

/-- The attention output at batch i, query row s, column d, from the queries' input x, the cosine features Kf of the
    keys, the values Vv and the query projection's weight and bias row. -/
def oAt (x Kf : FVec Ideal S4x2048x1024 .f32) (Vv : FVec Ideal S4x2048x1024 .bf16) (Wq : FVec Ideal S1024x1024 .bf16)
    (bq : FVec Ideal S1x1024 .f32) (i : Fin 4) (s : Fin 2048) (d : Fin 1024) : EReal :=
  Cert.Spec.attend
    (fun k : Fin 2048 => ∑ r : Fin 1024, ((∑ a : Fin 1024, x (ix3 i s a) * Wq (ix2 a r)) + bq (ix2 (0 : Fin 1) r)) * Kf (ix3 i k r))
    (fun k => Vv (ix3 i k d))

theorem oAt_def (x Kf : FVec Ideal S4x2048x1024 .f32) (Vv : FVec Ideal S4x2048x1024 .bf16) (Wq : FVec Ideal S1024x1024 .bf16)
    (bq : FVec Ideal S1x1024 .f32) (i : Fin 4) (s : Fin 2048) (d : Fin 1024) :
    oAt x Kf Vv Wq bq i s d = Cert.Spec.attend
      (fun k : Fin 2048 => ∑ r : Fin 1024, ((∑ a : Fin 1024, x (ix3 i s a) * Wq (ix2 a r)) + bq (ix2 (0 : Fin 1) r)) * Kf (ix3 i k r))
      (fun k => Vv (ix3 i k d)) := rfl

theorem oAt_congr (x Kf : FVec Ideal S4x2048x1024 .f32) (Vv : FVec Ideal S4x2048x1024 .bf16) (Wq : FVec Ideal S1024x1024 .bf16)
    (bq : FVec Ideal S1x1024 .f32) {i i' : Fin 4} {s s' : Fin 2048} {d d' : Fin 1024}
    (hi : i.val = i'.val) (hs : s.val = s'.val) (hd : d.val = d'.val) :
    oAt x Kf Vv Wq bq i s d = oAt x Kf Vv Wq bq i' s' d' := by
  rw [Fin.ext hi, Fin.ext hs, Fin.ext hd]

/-- What is asked of the output tile of a point read at (u, p, d): the attention of the tile's query row p against the
    point's whole K̂ block, weighted over the point's V block. -/
def OTileAt : Prop :=
  ∀ (x0 : Vec Ideal S1x512x1024 .f32) (x1 : Vec Ideal S1x2048x1024 .f32) (x2 : Vec Ideal S1x2048x1024 .bf16)
    (x3 : Vec Ideal S1024x1024 .bf16) (x4 : Vec Ideal S1x1024 .f32)
    (r0 : Cert.Spec.IsReal x0) (r1 : Cert.Spec.IsReal x1) (r3 : Cert.Spec.IsReal x3) (r4 : Cert.Spec.IsReal x4)
    (u : Fin 1) (p : Fin 512) (dd : Fin 1024),
    oTile (F := Ideal) x0 x1 x2 x3 x4 (ix3 u p dd)
      = Cert.Spec.attend
          (fun k : Fin 2048 => ∑ r : Fin 1024, ((∑ a : Fin 1024, x0 (ix3 (0 : Fin 1) p a) * x3 (ix2 a r)) + x4 (ix2 (0 : Fin 1) r)) * x1 (ix3 (0 : Fin 1) k r))
          (fun k => x2 (ix3 (0 : Fin 1) k dd))

/-- A tile whose query rows are rows n p of batch i of x, and whose K̂ and V blocks are batch i's, computes those rows
    of the whole-array function. -/
theorem o_tile (H : OTileAt) (x Kf : FVec Ideal S4x2048x1024 .f32) (Vv : FVec Ideal S4x2048x1024 .bf16)
    (Wq : FVec Ideal S1024x1024 .bf16) (bq : FVec Ideal S1x1024 .f32)
    (x0 : Vec Ideal S1x512x1024 .f32) (x1 : Vec Ideal S1x2048x1024 .f32) (x2 : Vec Ideal S1x2048x1024 .bf16)
    (r0 : Cert.Spec.IsReal x0) (r1 : Cert.Spec.IsReal x1) (rW : Cert.Spec.IsReal Wq) (rb : Cert.Spec.IsReal bq)
    (i : Fin 4) (n : Fin 512 → Fin 2048)
    (h0 : ∀ (u : Fin 1) (p : Fin 512) (a : Fin 1024), x0 (ix3 u p a) = x (ix3 i (n p) a))
    (h1 : ∀ (u : Fin 1) (k : Fin 2048) (r : Fin 1024), x1 (ix3 u k r) = Kf (ix3 i k r))
    (h2 : ∀ (u : Fin 1) (k : Fin 2048) (d : Fin 1024), x2 (ix3 u k d) = Vv (ix3 i k d))
    (u : Fin 1) (p : Fin 512) (dd : Fin 1024) :
    oTile (F := Ideal) x0 x1 x2 Wq bq (ix3 u p dd) = oAt x Kf Vv Wq bq i (n p) dd := by
  rw [H x0 x1 x2 Wq bq r0 r1 rW rb u p dd, oAt_def]
  simp only [h0, h1, h2]

/-! ## From the tiles to the array -/

variable (V : (c : Dev nD) → (b : Ref sig .tc) → Buf (Elt Ideal) ((c : Thread nD τ).loc b))

/-- The batch of point t. -/
def bat (t : Fin cfg1.N) : Fin 4 := ⟨t.val / 4, by have := lt_of_lt_of_eq t.isLt N_1; omega⟩

/-- Row p of the query tile of point t is row 512·(t mod 4) + p of its batch. -/
def qrow (t : Fin cfg1.N) (p : Fin 512) : Fin 2048 := ⟨512 * (t.val % 4) + p.val, by have := p.isLt; omega⟩

theorem bat_val (t : Fin cfg1.N) : (bat t).val = t.val / 4 := rfl
theorem qrow_val (t : Fin cfg1.N) (p : Fin 512) : (qrow t p).val = 512 * (t.val % 4) + p.val := rfl

/-- The block indices, decided over the sixteen points: the query tile and the output tile are at block
    (t / 4, t mod 4, 0); the K̂ and V blocks at (t / 4, 0, 0); the weight and the bias are one whole block each. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 4 ∧ win1_5.index t (1 : Fin 3) = t.val % 4 ∧ win1_5.index t (2 : Fin 3) = 0 :=
  (by decide +kernel : ∀ t : Fin grid1.N, _)

section Blocks

variable (c : Dev nD) (t : Fin cfg1.N)
variable {x Kf : FVec Ideal S4x2048x1024 .f32} {Vv : FVec Ideal S4x2048x1024 .bf16}
  {Wq' : FVec Ideal S1024x1024 .bf16} {bq' : FVec Ideal S1x1024 .f32}

/-- The query tile of point t at (u, p, a): row 512·(t mod 4) + p of batch t / 4 of x. -/
theorem blk0_at (hx : V c main_arg0 = x) (u : Fin 1) (p : Fin 512) (a : Fin 1024) :
    iblk1 (F := Ideal) V c 0 t (ix3 u p a) = x (ix3 (bat t) (qrow t p) a) := by
  obtain ⟨e0, e1, e2, -⟩ := idx_facts t
  have hu := u.isLt
  show V c main_arg0 (((cfg1.win 0).blk t).view.emb (ix3 u p a)) = _
  rw [hx]
  refine congrArg x (funext fun b => Fin.ext ?_)
  match b with
  | ⟨0, _⟩ => show win1_0.index t (0 : Fin 3) * 1 + 1 * u.val = t.val / 4; omega
  | ⟨1, _⟩ => show win1_0.index t (1 : Fin 3) * 512 + 1 * p.val = 512 * (t.val % 4) + p.val; omega
  | ⟨2, _⟩ => show win1_0.index t (2 : Fin 3) * 1024 + 1 * a.val = a.val; omega

/-- The K̂ block of point t is batch t / 4 of the K̂ array. -/
theorem blk1_at (hK : V c main_v10 = Kf) (u : Fin 1) (k : Fin 2048) (r : Fin 1024) :
    iblk1 (F := Ideal) V c 1 t (ix3 u k r) = Kf (ix3 (bat t) k r) := by
  obtain ⟨-, -, -, e0, e1, e2, -⟩ := idx_facts t
  have hu := u.isLt
  show V c main_v10 (((cfg1.win 1).blk t).view.emb (ix3 u k r)) = _
  rw [hK]
  refine congrArg Kf (funext fun b => Fin.ext ?_)
  match b with
  | ⟨0, _⟩ => show win1_1.index t (0 : Fin 3) * 1 + 1 * u.val = t.val / 4; omega
  | ⟨1, _⟩ => show win1_1.index t (1 : Fin 3) * 2048 + 1 * k.val = k.val; omega
  | ⟨2, _⟩ => show win1_1.index t (2 : Fin 3) * 1024 + 1 * r.val = r.val; omega

/-- The V block of point t is batch t / 4 of the V array. -/
theorem blk2_at (hV : V c main_v11 = Vv) (u : Fin 1) (k : Fin 2048) (d : Fin 1024) :
    iblk1 (F := Ideal) V c 2 t (ix3 u k d) = Vv (ix3 (bat t) k d) := by
  obtain ⟨-, -, -, -, -, -, e0, e1, e2, -⟩ := idx_facts t
  have hu := u.isLt
  show V c main_v11 (((cfg1.win 2).blk t).view.emb (ix3 u k d)) = _
  rw [hV]
  refine congrArg Vv (funext fun b => Fin.ext ?_)
  match b with
  | ⟨0, _⟩ => show win1_2.index t (0 : Fin 3) * 1 + 1 * u.val = t.val / 4; omega
  | ⟨1, _⟩ => show win1_2.index t (1 : Fin 3) * 2048 + 1 * k.val = k.val; omega
  | ⟨2, _⟩ => show win1_2.index t (2 : Fin 3) * 1024 + 1 * d.val = d.val; omega

/-- The query projection's weight is whole at every point. -/
theorem blk3_eq (hWq : V c main_v1 = Wq') : iblk1 (F := Ideal) V c 3 t = Wq' := by
  obtain ⟨-, -, -, -, -, -, -, -, -, e0, e1, -⟩ := idx_facts t
  funext y
  show V c main_v1 (((cfg1.win 3).blk t).view.emb y) = Wq' y
  rw [hWq]
  refine congrArg Wq' (funext fun b => Fin.ext ?_)
  match b with
  | ⟨0, _⟩ => show win1_3.index t (0 : Fin 2) * 1024 + 1 * (y 0).val = (y 0).val; omega
  | ⟨1, _⟩ => show win1_3.index t (1 : Fin 2) * 1024 + 1 * (y 1).val = (y 1).val; omega

/-- Its bias row likewise. -/
theorem blk4_eq (hbq : V c main_v5 = bq') : iblk1 (F := Ideal) V c 4 t = bq' := by
  obtain ⟨-, -, -, -, -, -, -, -, -, -, -, e0, e1, -⟩ := idx_facts t
  funext y
  show V c main_v5 (((cfg1.win 4).blk t).view.emb y) = bq' y
  rw [hbq]
  refine congrArg bq' (funext fun b => Fin.ext ?_)
  match b with
  | ⟨0, _⟩ => show win1_4.index t (0 : Fin 2) * 1 + 1 * (y 0).val = (y 0).val; omega
  | ⟨1, _⟩ => show win1_4.index t (1 : Fin 2) * 1024 + 1 * (y 1).val = (y 1).val; omega

/-- An entry of the query tile is an entry of x: real when x is. -/
theorem blk0_real (hx : V c main_arg0 = x) (rx : Cert.Spec.IsReal x) :
    Cert.Spec.IsReal (S := S1x512x1024) (iblk1 (F := Ideal) V c 0 t) := fun j => by
  show ∃ r : ℝ, V c main_arg0 (((cfg1.win 0).blk t).view.emb j) = (r : EReal)
  rw [hx]
  exact rx _

/-- An entry of the K̂ block is an entry of the K̂ array: real when that is. -/
theorem blk1_real (hK : V c main_v10 = Kf) (rK : Cert.Spec.IsReal Kf) :
    Cert.Spec.IsReal (S := S1x2048x1024) (iblk1 (F := Ideal) V c 1 t) := fun j => by
  show ∃ r : ℝ, V c main_v10 (((cfg1.win 1).blk t).view.emb j) = (r : EReal)
  rw [hK]
  exact rK _

end Blocks

section Arrays

variable (c : Dev nD)
variable {x Kf : FVec Ideal S4x2048x1024 .f32} {Vv : FVec Ideal S4x2048x1024 .bf16}
  {Wq' : FVec Ideal S1024x1024 .bf16} {bq' : FVec Ideal S1x1024 .f32}

/-- What point t writes back to the output array is tile t of the whole-array function. -/
theorem o_flushed (H : OTileAt) (t : Fin cfg1.N) (hx : V c main_arg0 = x) (hK : V c main_v10 = Kf) (hV : V c main_v11 = Vv)
    (hWq : V c main_v1 = Wq') (hbq : V c main_v5 = bq')
    (rx : Cert.Spec.IsReal x) (rW : Cert.Spec.IsReal Wq') (rb : Cert.Spec.IsReal bq') (rK : Cert.Spec.IsReal Kf) :
    (dat1 (F := Ideal) V c).flushed 5 t
      = ((cfg1.win 5).blk t).view.read (Elt Ideal) (fun j : S4x2048x1024.Idx => oAt x Kf Vv Wq' bq' (j 0) (j 1) (j 2)) := by
  show (cfg1.win 5).cut (grid1.coords t) ((dat1 (F := Ideal) V c).after 5 t) = _
  rw [after1_5, blk3_eq V c t hWq, blk4_eq V c t hbq]
  obtain ⟨-, -, -, -, -, -, -, -, -, -, -, -, -, e0, e1, e2⟩ := idx_facts t
  funext j
  have hj : j = ix3 (j 0) (j 1) (j 2) := eq_ix3 (n0 := 1) (n1 := 512) (n2 := 1024) j
  have hu : (j 0).val < 1 := (j 0).isLt
  show oTile (F := Ideal) (iblk1 (F := Ideal) V c 0 t) (iblk1 (F := Ideal) V c 1 t) (iblk1 (F := Ideal) V c 2 t) Wq' bq' j
    = oAt x Kf Vv Wq' bq' ((((cfg1.win 5).blk t).view.emb j) 0) ((((cfg1.win 5).blk t).view.emb j) 1) ((((cfg1.win 5).blk t).view.emb j) 2)
  refine (congrArg (oTile (F := Ideal) (iblk1 (F := Ideal) V c 0 t) (iblk1 (F := Ideal) V c 1 t) (iblk1 (F := Ideal) V c 2 t) Wq' bq') hj).trans ?_
  refine (o_tile H x Kf Vv Wq' bq' (iblk1 (F := Ideal) V c 0 t) (iblk1 (F := Ideal) V c 1 t) (iblk1 (F := Ideal) V c 2 t)
    (blk0_real V c t hx rx) (blk1_real V c t hK rK) rW rb (bat t) (qrow t)
    (fun u p a => blk0_at V c t hx u p a) (fun u k r => blk1_at V c t hK u k r) (fun u k d => blk2_at V c t hV u k d)
    (j 0) (j 1) (j 2)).trans ?_
  refine oAt_congr x Kf Vv Wq' bq' ?_ ?_ ?_
  · show t.val / 4 = win1_5.index t (0 : Fin 3) * 1 + 1 * (j 0).val; omega
  · show 512 * (t.val % 4) + (j 1).val = win1_5.index t (1 : Fin 3) * 512 + 1 * (j 1).val; omega
  · show (j 2).val = win1_5.index t (2 : Fin 3) * 1024 + 1 * (j 2).val; omega

/-- An index of the output array is in tile t iff each coordinate is in the tile's range on its axis. -/
theorem mem_blk5 (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v12).slice (win1_5.rect t)).set ↔ _
  rw [View.set_slice_whole, Rect.mem_set_unit]
  exact Iff.rfl

/-- Index (b, s, d) of the output array lies in the tile of point 4·b + s / 512: the sixteen tiles cover the array. -/
theorem cover5 (i : S4x2048x1024.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 1024 := (i 2).isLt
  have hN : cfg1.N = 16 := N_1
  obtain ⟨t, ht⟩ : ∃ t : Fin cfg1.N, t.val = 4 * (i 0).val + (i 1).val / 512 :=
    ⟨⟨4 * (i 0).val + (i 1).val / 512, by rw [hN]; omega⟩, rfl⟩
  obtain ⟨-, -, -, -, -, -, -, -, -, -, -, -, -, e0, e1, e2⟩ := idx_facts t
  refine ⟨t, flush1_5 t, ?_⟩
  rw [mem_blk5]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 512 ≤ (i 1).val ∧ (i 1).val < win1_5.index t (1 : Fin 3) * 512 + 512
    omega
  | ⟨2, _⟩ =>
    show win1_5.index t (2 : Fin 3) * 1024 ≤ (i 2).val ∧ (i 2).val < win1_5.index t (2 : Fin 3) * 1024 + 1024
    omega

/-- THE OUTPUT ARRAY after the sixteen points, through the whole-array function. -/
theorem o_final_oAt (H : OTileAt) (hx : V c main_arg0 = x) (hK : V c main_v10 = Kf) (hV : V c main_v11 = Vv)
    (hWq : V c main_v1 = Wq') (hbq : V c main_v5 = bq')
    (rx : Cert.Spec.IsReal x) (rW : Cert.Spec.IsReal Wq') (rb : Cert.Spec.IsReal bq') (rK : Cert.Spec.IsReal Kf) :
    (dat1 (F := Ideal) V c).arrAt 5 cfg1.N = fun j : S4x2048x1024.Idx => oAt x Kf Vv Wq' bq' (j 0) (j 1) (j 2) :=
  (dat1 (F := Ideal) V c).arrAt_eq_of_cover 5 (fun j : S4x2048x1024.Idx => oAt x Kf Vv Wq' bq' (j 0) (j 1) (j 2))
    (fun t _ => o_flushed V c H t hx hK hV hWq hbq rx rW rb rK) cover5

/-- THE OUTPUT ARRAY after the sixteen points, written out: softmax of the scores of each query row against its batch's
    keys, then the weighted sum of the batch's values. -/
theorem o_final_of (H : OTileAt) (hx : V c main_arg0 = x) (hK : V c main_v10 = Kf) (hV : V c main_v11 = Vv)
    (hWq : V c main_v1 = Wq') (hbq : V c main_v5 = bq')
    (rx : Cert.Spec.IsReal x) (rW : Cert.Spec.IsReal Wq') (rb : Cert.Spec.IsReal bq') (rK : Cert.Spec.IsReal Kf) :
    (dat1 (F := Ideal) V c).arrAt 5 cfg1.N = fun j : S4x2048x1024.Idx =>
      Cert.Spec.attend
        (fun k : Fin 2048 => ∑ r : Fin 1024, ((∑ a : Fin 1024, x (ix3 (j 0) (j 1) a) * Wq' (ix2 a r)) + bq' (ix2 (0 : Fin 1) r)) * Kf (ix3 (j 0) k r))
        (fun k => Vv (ix3 (j 0) k (j 2))) :=
  o_final_oAt V c H hx hK hV hWq hbq rx rW rb rK

end Arrays

end Cert.KernelIdeal.V1

end
-- ==== Proof.KiPay1.lean ====
/-
  The arithmetic of one grid point of the second kernel (batch b, query tile qi), read at an index over the
  extended reals.

  The body projects the 512 query rows of the tile, Q = x·Wq + bq, and scores them against the 2048 keys of the batch.
  It does so in pieces: Q and the key block K̂ are each split into a leading piece (the value itself, a change of float
  format being the identity on ideal values) and a remainder (the value less itself), and the scores are
  (Q·K̂ᵀ + Q·(K̂ − K̂)ᵀ) + (Q − Q)·K̂ᵀ.  On REAL entries the remainders are zero and the scores are Q·K̂ᵀ; on the extended
  reals that needs the entries real, since ⊤ − ⊤ = ⊥.  Then each row's softmax (row maximum, subtract, exponential, row
  sum, divide) and the weighted sum of the value rows.

  The file reads, in order: two keepdims layout forms and the three matrix products at an index; the body's stages
  and their composition into the printed payloads; the law on real entries; a point's output tile at an index as
  `Cert.Spec.attend` of its row of scores and a column of values, first for the payload term and then for the tile
  the proof data names (every store and load of the body goes through a whole-buffer rectangle).
-/
import proofs.«145122_j68564857914100_2_alg».proof.Proof.KiData
import proofs.«145122_j68564857914100_2_alg».proof.Proof.Spec
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.V1

open Cert.KernelIdeal Cert.KernelIdeal.Gen Cert.KernelIdeal.R
open Idealize.ShloMosaic Idealize.ShloMosaic.ValueIdx

/-! ## Two keepdims layout forms read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three matrix products read at an index -/

theorem mmQ_apply_l (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mmQ_apply_r (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The query projection's product: row `p` of the left factor against column `c` of the right. -/
theorem mmQ_apply (l : FVec Ideal S512x1024 .bf16) (w : FVec Ideal S1024x1024 .bf16) (p : Fin 512) (c : Fin 1024) :
    matmul dot_S512x1024_S1024x1024_S512x1024_1_0_0_1_n_n none l w (constant S512x1024 .f32 0x00000000#32) (ix2 p c)
      = ∑ k : Fin 1024, l (ix2 p k) * w (ix2 k c) := by
  refine (Ideal.matmul_constant_zero_apply dot_S512x1024_S1024x1024_S512x1024_1_0_0_1_n_n none l w (ix2 p c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c) ((contrEquiv1 dot_S512x1024_S1024x1024_S512x1024_1_0_0_1_n_n 1024 rfl rfl).symm k) = ix2 p k := funext fun a => Fin.ext (by
    match a with
    | ⟨0, _⟩ => exact mmQ_apply_l _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p c) ((contrEquiv1 dot_S512x1024_S1024x1024_S512x1024_1_0_0_1_n_n 1024 rfl rfl).symm k) = ix2 k c := funext fun a => Fin.ext (by
    match a with
    | ⟨1, _⟩ => exact mmQ_apply_r _ _
    | ⟨0, _⟩ => exact (dot_S512x1024_S1024x1024_S512x1024_1_0_0_1_n_n.rhsIdx_val_of_single rfl _ _).trans hk)
  rw [el, er]

theorem mmS_apply_l (j : S512x2048.Idx) (q : dot_S512x1024_S2048x1024_S512x2048_1_1_0_0_n_n.contr.Idx) : (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem mmS_apply_r (j : S512x2048.Idx) (q : dot_S512x1024_S2048x1024_S512x2048_1_1_0_0_n_n.contr.Idx) : (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
/-- The scores' product contracts the SECOND axis of both factors: row `p` of the left against row `c` of the right. -/
theorem mmS_apply (l : FVec Ideal S512x1024 .bf16) (w : FVec Ideal S2048x1024 .bf16) (p : Fin 512) (c : Fin 2048) :
    matmul dot_S512x1024_S2048x1024_S512x2048_1_1_0_0_n_n none l w (constant S512x2048 .f32 0x00000000#32) (ix2 p c)
      = ∑ k : Fin 1024, l (ix2 p k) * w (ix2 c k) := by
  refine (Ideal.matmul_constant_zero_apply dot_S512x1024_S2048x1024_S512x2048_1_1_0_0_n_n none l w (ix2 p c)).trans ?_
  rw [← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 p c) ((contrEquiv1 dot_S512x1024_S2048x1024_S512x2048_1_1_0_0_n_n 1024 rfl rfl).symm k) = ix2 p k := funext fun a => Fin.ext (by
    match a with
    | ⟨0, _⟩ => exact mmS_apply_l _ _
    | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p c) ((contrEquiv1 dot_S512x1024_S2048x1024_S512x2048_1_1_0_0_n_n 1024 rfl rfl).symm k) = ix2 c k := funext fun a => Fin.ext (by
    match a with
    | ⟨0, _⟩ => exact mmS_apply_r _ _
    | ⟨1, _⟩ => exact (dot_S512x1024_S2048x1024_S512x2048_1_1_0_0_n_n.rhsIdx_val_of_single rfl _ _).trans hk)
  rw [el, er]

theorem mmO_apply_l (j : S512x1024.Idx) (q : dot_S512x2048_S2048x1024_S512x1024_1_0_0_1_n_n.contr.Idx) : (dot_S512x2048_S2048x1024_S512x1024_1_0_0_1_n_n.lhsIdx j q 0).val = (j 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem mmO_apply_r (j : S512x1024.Idx) (q : dot_S512x2048_S2048x1024_S512x1024_1_0_0_1_n_n.contr.Idx) : (dot_S512x2048_S2048x1024_S512x1024_1_0_0_1_n_n.rhsIdx j q 1).val = (j 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
/-- The weighted sum of the value rows: row `p` of the weights against column `c` of the values. -/
theorem mmO_apply (l : FVec Ideal S512x2048 .bf16) (w : FVec Ideal S2048x1024 .bf16) (p : Fin 512) (c : Fin 1024) :
    matmul dot_S512x2048_S2048x1024_S512x1024_1_0_0_1_n_n none l w (constant S512x1024 .f32 0x00000000#32) (ix2 p c)
      = ∑ k : Fin 2048, l (ix2 p k) * w (ix2 k c) := by
  refine (Ideal.matmul_constant_zero_apply dot_S512x2048_S2048x1024_S512x1024_1_0_0_1_n_n none l w (ix2 p c)).trans ?_
  rw [← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p c) ((contrEquiv1 dot_S512x2048_S2048x1024_S512x1024_1_0_0_1_n_n 2048 rfl rfl).symm k) = ix2 p k := funext fun a => Fin.ext (by
    match a with
    | ⟨0, _⟩ => exact mmO_apply_l _ _
    | ⟨1, _⟩ => exact (dot_S512x2048_S2048x1024_S512x1024_1_0_0_1_n_n.lhsIdx_val_of_single rfl _ _).trans hk)
  have er : dot_S512x2048_S2048x1024_S512x1024_1_0_0_1_n_n.rhsIdx (ix2 p c) ((contrEquiv1 dot_S512x2048_S2048x1024_S512x1024_1_0_0_1_n_n 2048 rfl rfl).symm k) = ix2 k c := funext fun a => Fin.ext (by
    match a with
    | ⟨1, _⟩ => exact mmO_apply_r _ _
    | ⟨0, _⟩ => exact (dot_S512x2048_S2048x1024_S512x1024_1_0_0_1_n_n.rhsIdx_val_of_single rfl _ _).trans hk)
  rw [el, er]

/-! ## The payloads, stage by stage

The point body's arithmetic is cut into four stages, each a function of the values before it: the projected query
tile, the scores, the softmax weights, the weighted sum of value rows.  Their composition IS the printed payloads
(`pay5_eq` by unfolding; `pay1_apply`), and each stage is read at an index by its own lemma. -/

/-- The projected query tile `Q = x·Wq + bq`: 512 rows of 1024 entries. -/
def qv (v3 : FVec Ideal S1x512x1024 .f32) (v6 : FVec Ideal S1024x1024 .bf16) (v9 : FVec Ideal S1x1024 .f32) : FVec Ideal S512x1024 .f32 :=
  addf (matmul dot_S512x1024_S1024x1024_S512x1024_1_0_0_1_n_n none
      (truncf .bf16 (shapeCast S512x1024 v3 shapeCasts_S1x512x1024_S512x1024) bitsLt_bf16_f32)
      (shapeCast S1024x1024 v6 shapeCasts_S1024x1024_S1024x1024) (constant S512x1024 .f32 0x00000000#32))
    (broadcastTo S512x1024 (shapeCast S1x1024 v9 shapeCasts_S1x1024_S1x1024) broadcasts_S1x1024_S512x1024)

theorem qv_apply (v3 : FVec Ideal S1x512x1024 .f32) (v6 : FVec Ideal S1024x1024 .bf16) (v9 : FVec Ideal S1x1024 .f32)
    (p : Fin 512) (r : Fin 1024) :
    qv v3 v6 v9 (ix2 p r) = (∑ a : Fin 1024, v3 (ix3 (0 : Fin 1) p a) * v6 (ix2 a r)) + v9 (ix2 (0 : Fin 1) r) := by
  unfold qv
  rw [addf_apply, mmQ_apply, broadcastTo_1b_ab_apply, shapeCast_self v9]
  refine congrArg (· + v9 (ix2 (0 : Fin 1) r)) (Finset.sum_congr rfl fun a _ => ?_)
  rw [truncf_apply, shapeCast_1ab_ab_apply, shapeCast_self]

/-- The scores of the tile's 512 queries against the 2048 keys, as the body forms them: the query tile `q` is split
    into its leading piece `q` and the remainder `q − q`, the keys arrive as a leading piece `v17 = v22` and a
    remainder `v19`, and three of the four cross products are added. -/
def sv (q : FVec Ideal S512x1024 .f32) (v17 v19 v22 : FVec Ideal S2048x1024 .bf16) : FVec Ideal S512x2048 .f32 :=
  addf (addf
      (matmul dot_S512x1024_S2048x1024_S512x2048_1_1_0_0_n_n none (truncf .bf16 q bitsLt_bf16_f32) v17 (constant S512x2048 .f32 0x00000000#32))
      (matmul dot_S512x1024_S2048x1024_S512x2048_1_1_0_0_n_n none (truncf .bf16 q bitsLt_bf16_f32) v19 (constant S512x2048 .f32 0x00000000#32)))
    (matmul dot_S512x1024_S2048x1024_S512x2048_1_1_0_0_n_n none (truncf .bf16 (subf q q) bitsLt_bf16_f32) v22 (constant S512x2048 .f32 0x00000000#32))

theorem sv_apply (q : FVec Ideal S512x1024 .f32) (v17 v19 v22 : FVec Ideal S2048x1024 .bf16) (p : Fin 512) (k : Fin 2048) :
    sv q v17 v19 v22 (ix2 p k)
      = ((∑ r : Fin 1024, q (ix2 p r) * v17 (ix2 k r)) + ∑ r : Fin 1024, q (ix2 p r) * v19 (ix2 k r))
        + ∑ r : Fin 1024, (q (ix2 p r) - q (ix2 p r)) * v22 (ix2 k r) := by
  unfold sv
  rw [addf_apply, addf_apply, mmS_apply, mmS_apply, mmS_apply]
  rfl

/-- The largest score of each row, repeated along the row. -/
def rmaxv (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- The sum of each row, repeated along the row. -/
def rsumv (e : FVec Ideal S512x2048 .f32) : FVec Ideal S512x2048 .f32 :=
  broadcastTo S512x2048 (shapeCast S512x1 (multiReduction .add [1] S512 e 0x00000000#32 reduces_S512x2048_S512 (.inl rfl) rfl)
    shapeCasts_S512_S512x1) broadcasts_S512x1_S512x2048

/-- The softmax weights of each row of scores. -/
def wv (s : FVec Ideal S512x2048 .f32) : FVec Ideal S512x2048 .bf16 :=
  truncf .bf16 (divf (exp (subf s (rmaxv s))) (rsumv (exp (subf s (rmaxv s))))) bitsLt_bf16_f32

/-- The row index with a column put back: the index a row reduction reads. -/
theorem lift_row (p : Fin 512) (k : Fin 2048) : reduces_S512x2048_S512.lift (ix1 p) k = ix2 p k :=
  funext fun c => Fin.ext (by match c with | ⟨0, _⟩ => rfl | ⟨1, _⟩ => rfl)

/-- The word the row maximum starts from is −∞. -/
theorem ofBits_neg_inf : Ideal.ofBits .f32 0xFF800000#32 = ⊥ := by
  simp [Ideal.ofBits, Ideal.ieee]

theorem rmaxv_apply (s : FVec Ideal S512x2048 .f32) (p : Fin 512) (k : Fin 2048) :
    rmaxv s (ix2 p k) = (Finset.univ : Finset (Fin 2048)).fold max ⊥ (fun k' => s (ix2 p k')) := by
  unfold rmaxv
  rw [broadcastTo_a1_ab_apply, shapeCast_a_a1_apply]
  refine (Ideal.multiReduction_maximumf_single s 0xFF800000#32 reduces_S512x2048_S512 (.inl rfl) rfl (ix1 p)).trans ?_
  show (Finset.univ : Finset (Fin 2048)).fold max (Ideal.ofBits .f32 0xFF800000#32) (fun k' => s (reduces_S512x2048_S512.lift (ix1 p) k')) = _
  rw [ofBits_neg_inf]
  exact congrArg (fun f : Fin 2048 → EReal => (Finset.univ : Finset (Fin 2048)).fold max ⊥ f) (funext fun k' => congrArg s (lift_row p k'))

theorem rsumv_apply (e : FVec Ideal S512x2048 .f32) (p : Fin 512) (k : Fin 2048) :
    rsumv e (ix2 p k) = ∑ k' : Fin 2048, e (ix2 p k') := by
  unfold rsumv
  rw [broadcastTo_a1_ab_apply, shapeCast_a_a1_apply]
  refine (Ideal.multiReduction_add_single e 0x00000000#32 reduces_S512x2048_S512 (.inl rfl) rfl (ix1 p)).trans ?_
  exact Finset.sum_congr rfl fun k' _ => congrArg e (lift_row p k')

theorem wv_apply (s : FVec Ideal S512x2048 .f32) (p : Fin 512) (k : Fin 2048) :
    wv s (ix2 p k)
      = Ideal.div (Ideal.exp (s (ix2 p k) - (Finset.univ : Finset (Fin 2048)).fold max ⊥ (fun k' => s (ix2 p k'))))
          (∑ k' : Fin 2048, Ideal.exp (s (ix2 p k') - (Finset.univ : Finset (Fin 2048)).fold max ⊥ (fun k'' => s (ix2 p k'')))) := by
  unfold wv
  rw [truncf_apply, divf_apply, rsumv_apply]
  have he : ∀ k' : Fin 2048, exp (subf s (rmaxv s)) (ix2 p k')
      = Ideal.exp (s (ix2 p k') - (Finset.univ : Finset (Fin 2048)).fold max ⊥ (fun k'' => s (ix2 p k''))) := fun k' => by
    show Ideal.exp (s (ix2 p k') - rmaxv s (ix2 p k')) = _
    rw [rmaxv_apply]
  rw [he k]
  exact congrArg _ (Finset.sum_congr rfl fun k' _ => he k')

/-- The weights payload is the three stages composed. -/
theorem pay5_eq (v3 : FVec Ideal S1x512x1024 .f32) (v6 : FVec Ideal S1024x1024 .bf16) (v9 : FVec Ideal S1x1024 .f32)
    (v17 v19 v22 : FVec Ideal S2048x1024 .bf16) :
    k1_pay5 (F := Ideal) v3 v6 v9 v17 v19 v22 = wv (sv (qv v3 v6 v9) v17 v19 v22) := rfl

/-- The output payload at an index: the weights' row `p` against column `d` of the value block. -/
theorem pay1_apply (v34 : FVec Ideal S512x2048 .bf16) (v35 : FVec Ideal S1x2048x1024 .bf16) (u : Fin 1) (p : Fin 512) (d : Fin 1024) :
    k1_pay1 (F := Ideal) v34 v35 (ix3 u p d) = ∑ k : Fin 2048, v34 (ix2 p k) * v35 (ix3 (0 : Fin 1) k d) := by
  unfold k1_pay1
  show shapeCast S1x512x1024 (matmul dot_S512x2048_S2048x1024_S512x1024_1_0_0_1_n_n none v34
      (shapeCast S2048x1024 v35 shapeCasts_S1x2048x1024_S2048x1024) (constant S512x1024 .f32 0x00000000#32))
      shapeCasts_S512x1024_S1x512x1024 (ix3 u p d) = _
  rw [shapeCast_ab_1ab_apply, mmO_apply]
  exact Finset.sum_congr rfl fun k _ => by rw [shapeCast_1ab_ab_apply]

/-- The two stored pieces of a K̂ block at an index: the block itself, and the block less itself. -/
theorem pay3_apply (v41 : FVec Ideal S1x2048x1024 .f32) (k : Fin 2048) (r : Fin 1024) :
    k1_pay3 (F := Ideal) v41 (ix2 k r) = v41 (ix3 (0 : Fin 1) k r) := by
  unfold k1_pay3 k1_pay2
  show shapeCast S2048x1024 (truncf .bf16 (shapeCast S2048x1024 v41 shapeCasts_S1x2048x1024_S2048x1024) bitsLt_bf16_f32)
      shapeCasts_S2048x1024_S2048x1024 (ix2 k r) = _
  rw [shapeCast_self, truncf_apply, shapeCast_1ab_ab_apply]

theorem pay4_apply (v41 : FVec Ideal S1x2048x1024 .f32) (k : Fin 2048) (r : Fin 1024) :
    k1_pay4 (F := Ideal) v41 (ix2 k r) = v41 (ix3 (0 : Fin 1) k r) - v41 (ix3 (0 : Fin 1) k r) := by
  unfold k1_pay4 k1_pay2
  show shapeCast S2048x1024 (truncf .bf16 (subf (shapeCast S2048x1024 v41 shapeCasts_S1x2048x1024_S2048x1024)
      (shapeCast S2048x1024 v41 shapeCasts_S1x2048x1024_S2048x1024)) bitsLt_bf16_f32)
      shapeCasts_S2048x1024_S2048x1024 (ix2 k r) = _
  rw [shapeCast_self, truncf_apply, subf_apply, shapeCast_1ab_ab_apply]

/-! ## The law: on real entries the remainder pieces vanish

On the extended reals `a − a = 0` holds for a real `a` only (`⊤ − ⊤ = ⊥`).  A finite sum of products of reals plus a
real is real, so the projected query entries are real when the tile, the weight and the bias are; then the query's
remainder `Q − Q` and the keys' remainder `K̂ − K̂` are zero, the two cross products that carry them are sums of
zeros, and the scores are the plain product `Q·K̂ᵀ`. -/

theorem sub_self_of_real {a : EReal} (h : ∃ r : ℝ, a = (r : EReal)) : a - a = 0 := by
  obtain ⟨r, rfl⟩ := h
  rw [← EReal.coe_sub, sub_self, EReal.coe_zero]

theorem real_mul {a b : EReal} (ha : ∃ r : ℝ, a = (r : EReal)) (hb : ∃ r : ℝ, b = (r : EReal)) : ∃ r : ℝ, a * b = (r : EReal) := by
  obtain ⟨r, rfl⟩ := ha; obtain ⟨t, rfl⟩ := hb; exact ⟨r * t, (EReal.coe_mul r t).symm⟩

theorem real_add {a b : EReal} (ha : ∃ r : ℝ, a = (r : EReal)) (hb : ∃ r : ℝ, b = (r : EReal)) : ∃ r : ℝ, a + b = (r : EReal) := by
  obtain ⟨r, rfl⟩ := ha; obtain ⟨t, rfl⟩ := hb; exact ⟨r + t, (EReal.coe_add r t).symm⟩

theorem real_sum {ι : Type} (s : Finset ι) (f : ι → EReal) (h : ∀ i, ∃ r : ℝ, f i = (r : EReal)) : ∃ r : ℝ, ∑ i ∈ s, f i = (r : EReal) := by
  classical
  induction s using Finset.induction_on with
  | empty => exact ⟨0, by rw [Finset.sum_empty, EReal.coe_zero]⟩
  | insert a s ha ih => rw [Finset.sum_insert ha]; exact real_add (h a) ih

/-- The three cross products the body adds are, on real entries, the one product. -/
theorem scores_of_real (Q K : Fin 1024 → EReal) (hQ : ∀ r, ∃ t : ℝ, Q r = (t : EReal)) (hK : ∀ r, ∃ t : ℝ, K r = (t : EReal)) :
    ((∑ r : Fin 1024, Q r * K r) + ∑ r : Fin 1024, Q r * (K r - K r)) + ∑ r : Fin 1024, (Q r - Q r) * K r
      = ∑ r : Fin 1024, Q r * K r := by
  have h1 : ∀ r, Q r * (K r - K r) = 0 := fun r => by rw [sub_self_of_real (hK r), mul_zero]
  have h2 : ∀ r, (Q r - Q r) * K r = 0 := fun r => by rw [sub_self_of_real (hQ r), zero_mul]
  simp only [h1, h2, Finset.sum_const_zero, add_zero]

/-! ## A point's output tile at an index -/

/-- The output payload of a point, over its five input blocks (the query tile `x0`, the K̂ block `x1` through its two
    stored pieces, the V block `x2`, the weight `x3`, the bias `x4`), at row `p` and column `d`: softmax of the
    row's scores against the 2048 keys, then the weighted sum of column `d` of the values. -/
theorem tile_apply (x0 : FVec Ideal S1x512x1024 .f32) (x1 : FVec Ideal S1x2048x1024 .f32) (x2 : FVec Ideal S1x2048x1024 .bf16)
    (x3 : FVec Ideal S1024x1024 .bf16) (x4 : FVec Ideal S1x1024 .f32)
    (r0 : Cert.Spec.IsReal x0) (r1 : Cert.Spec.IsReal x1) (r3 : Cert.Spec.IsReal x3) (r4 : Cert.Spec.IsReal x4)
    (u : Fin 1) (p : Fin 512) (d : Fin 1024) :
    k1_pay1 (F := Ideal) (k1_pay5 (F := Ideal) x0 x3 x4 (k1_pay3 (F := Ideal) x1) (k1_pay4 (F := Ideal) x1) (k1_pay3 (F := Ideal) x1)) x2 (ix3 u p d)
      = Cert.Spec.attend
          (fun k : Fin 2048 => ∑ r : Fin 1024, ((∑ a : Fin 1024, x0 (ix3 (0 : Fin 1) p a) * x3 (ix2 a r)) + x4 (ix2 (0 : Fin 1) r)) * x1 (ix3 (0 : Fin 1) k r))
          (fun k : Fin 2048 => x2 (ix3 (0 : Fin 1) k d)) := by
  rw [pay1_apply, pay5_eq]
  have hs : ∀ k : Fin 2048, sv (qv x0 x3 x4) (k1_pay3 (F := Ideal) x1) (k1_pay4 (F := Ideal) x1) (k1_pay3 (F := Ideal) x1) (ix2 p k)
      = ∑ r : Fin 1024, ((∑ a : Fin 1024, x0 (ix3 (0 : Fin 1) p a) * x3 (ix2 a r)) + x4 (ix2 (0 : Fin 1) r)) * x1 (ix3 (0 : Fin 1) k r) := fun k => by
    rw [sv_apply]
    simp only [pay3_apply, pay4_apply, qv_apply]
    exact scores_of_real _ _ (fun r => real_add (real_sum _ _ fun a => real_mul (r0 _) (r3 _)) (r4 _)) (fun r => r1 _)
  unfold Cert.Spec.attend Cert.Spec.rowmax
  refine Finset.sum_congr rfl fun k _ => ?_
  rw [wv_apply]
  simp only [hs]

/-! ## The output tile of a point, as the proof data names it -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- The stores and loads of the body all go through whole-buffer rectangles, so the output tile is the output payload
    of the loaded blocks, the two scratch pieces being the two stored payloads of the K̂ block. -/
theorem oTile_eq (x0 : Vec Ideal S1x512x1024 .f32) (x1 : Vec Ideal S1x2048x1024 .f32) (x2 : Vec Ideal S1x2048x1024 .bf16)
    (x3 : Vec Ideal S1024x1024 .bf16) (x4 : Vec Ideal S1x1024 .f32) :
    oTile (F := Ideal) x0 x1 x2 x3 x4
      = k1_pay1 (F := Ideal) (k1_pay5 (F := Ideal) x0 x3 x4 (k1_pay3 (F := Ideal) x1) (k1_pay4 (F := Ideal) x1) (k1_pay3 (F := Ideal) x1)) x2 := by
  unfold oTile scrHi scrLo
  rw [View.canon_unit_zero hz3]
  simp only [View.canon_unit_zero (S := S2048x1024) hz2, View.ld_unit_zero (S := S1x512x1024) hz3, View.ld_unit_zero (S := S1x2048x1024) hz3,
    View.ld_unit_zero (S := S1024x1024) hz2, View.ld_unit_zero (S := S1x1024) hz2, View.ld_unit_zero (S := S2048x1024) hz2]

/-- A point's output tile at row `p`, column `dd`: softmax of the row's scores against the 2048 keys of the K̂ block,
    then the weighted sum of column `dd` of the V block. -/
theorem oTile_at (x0 : Vec Ideal S1x512x1024 .f32) (x1 : Vec Ideal S1x2048x1024 .f32) (x2 : Vec Ideal S1x2048x1024 .bf16) (x3 : Vec Ideal S1024x1024 .bf16) (x4 : Vec Ideal S1x1024 .f32) (r0 : Cert.Spec.IsReal x0) (r1 : Cert.Spec.IsReal x1) (r3 : Cert.Spec.IsReal x3) (r4 : Cert.Spec.IsReal x4) (u : Fin 1) (p : Fin 512) (dd : Fin 1024) : oTile (F := Ideal) x0 x1 x2 x3 x4 (ix3 u p dd) = Cert.Spec.attend (fun k : Fin 2048 => ∑ r : Fin 1024, ((∑ a : Fin 1024, x0 (ix3 (0 : Fin 1) p a) * x3 (ix2 a r)) + x4 (ix2 (0 : Fin 1) r)) * x1 (ix3 (0 : Fin 1) k r)) (fun k => x2 (ix3 (0 : Fin 1) k dd)) := by
  rw [oTile_eq]
  exact tile_apply x0 x1 x2 x3 x4 r0 r1 r3 r4 u p dd

end Cert.KernelIdeal.V1

end
-- ==== Proof.KiFinal.lean ====
/-
  The kernel's result array as the attention output of the launch arguments.  The K̂/V pipeline leaves, row by row
  of the flattened y, the cosine feature map and the value projection; reshaped to batches they are what the
  attention pipeline is entered with; that pipeline leaves softmax(Q·K̂ᵀ)·V tile by tile — with the scores' three
  bf16-piece products collapsing to one because every entry is real —, and re-indexing shows the whole to be
  `Cert.Spec.out` of the ten arguments.
-/
import proofs.«145122_j68564857914100_2_alg».proof.Proof.KiBridge
import proofs.«145122_j68564857914100_2_alg».proof.Proof.KiValue0
import proofs.«145122_j68564857914100_2_alg».proof.Proof.KiValue1
import proofs.«145122_j68564857914100_2_alg».proof.Proof.KiPay1

noncomputable section

namespace Cert.KernelIdeal.R

open Cert.KernelIdeal Cert.KernelIdeal.Gen
open Idealize.ShloMosaic Idealize.ShloMosaic.TcCoe Idealize.ShloMosaic.ValueIdx Idealize.SL.Sem Cert.Spec

variable (m : (ℓ : Loc nD τ sig) → Buf (Elt Ideal) ℓ)

/-- The ten launch arguments of core `c` all real. -/
abbrev ArgsReal (c : Dev nD) : Prop :=
  IsReal (S := S4x2048x1024) (m ((c.tc : Thread nD τ).loc main_arg0)) ∧ IsReal (S := S4x2048x1024) (m ((c.tc : Thread nD τ).loc main_arg1))
  ∧ IsReal (S := S1024x1024) (m ((c.tc : Thread nD τ).loc main_arg2)) ∧ IsReal (S := S1024) (m ((c.tc : Thread nD τ).loc main_arg3))
  ∧ IsReal (S := S1024x1024) (m ((c.tc : Thread nD τ).loc main_arg4)) ∧ IsReal (S := S1024) (m ((c.tc : Thread nD τ).loc main_arg5))
  ∧ IsReal (S := S1024x1024) (m ((c.tc : Thread nD τ).loc main_arg6)) ∧ IsReal (S := S1024) (m ((c.tc : Thread nD τ).loc main_arg7))
  ∧ IsReal (S := S1024x1024) (m ((c.tc : Thread nD τ).loc main_arg8)) ∧ IsReal (S := S1024) (m ((c.tc : Thread nD τ).loc main_arg9))

/-- What the attention pipeline's write-backs leave in the result array. -/
theorem result_value (c : Dev nD) (hr : ArgsReal m c) :
    (dat1 (F := Ideal) (E3 m) c).arrAt 5 cfg1.N
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  obtain ⟨r0, r1, r2, r3, r4, r5, r6, r7, r8, r9⟩ := hr
  have hkf := V0.kf_final (E1 m) c (E1_v0 m c) (E1_v2 m c) (E1_v6 m c) (E1_v4 m c) (E1_v8 m c)
  have hv := V0.v_final (E1 m) c (E1_v0 m c) (E1_v3 m c) (E1_v7 m c)
  have hK := E3_v10 m c
  rw [hkf] at hK
  have hV := E3_v11 m c
  rw [hv] at hV
  rw [V1.o_final_of (E3 m) c V1.oTile_at (E3_arg0 m c) hK hV (E3_v1 m c) (E3_v5 m c) r0 (trunc_isReal _ _ r2) (biasRow_isReal _ r3)
    (kf_isReal _ _ _ _ _ r1 r4 r5 r8 r9)]
  exact bridge _ _ _ _ _ _ _ _ _ _

variable (ρ : Dev nD → PrngReg)

/-- The kernel's run with its result named. -/
theorem value_run (hr : ∀ c, ArgsReal m c) :
    θ_run (defs (F := Ideal)) (onTc (τ := τ) (main (F := Ideal))) ⟨m, fun _ => 0, ρ⟩ (fun r => ∀ c : Dev nD,
      r.2.mem ((c.tc : Thread nD τ).loc main_v12)
        = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v12 (by decide))).trans ((result_eq m c).trans (result_value m c (hr c))),
     (h c _ (mem_uc main_arg0 (by decide))).trans (arg0_kept m c),
     (h c _ (mem_uc main_arg1 (by decide))).trans (arg1_kept m c),
     (h c _ (mem_uc main_arg2 (by decide))).trans (arg2_kept m c),
     (h c _ (mem_uc main_arg3 (by decide))).trans (arg3_kept m c),
     (h c _ (mem_uc main_arg4 (by decide))).trans (arg4_kept m c),
     (h c _ (mem_uc main_arg5 (by decide))).trans (arg5_kept m c),
     (h c _ (mem_uc main_arg6 (by decide))).trans (arg6_kept m c),
     (h c _ (mem_uc main_arg7 (by decide))).trans (arg7_kept m c),
     (h c _ (mem_uc main_arg8 (by decide))).trans (arg8_kept m c),
     (h c _ (mem_uc main_arg9 (by decide))).trans (arg9_kept m c)⟩) (run_all m ρ)

end Cert.KernelIdeal.R

end
-- ==== Proof.RefValue.lean ====
/-
  The reference program computes `Cert.Spec.out`.

  The reference is a chain of array operations: three dense projections Q = x·Wq + bq, K = y·Wk + bk,
  V = y·Wv + bv (a contraction of the last axis of the rows with the first axis of the weight, then the bias
  repeated along the batch and row axes); the feature map K̂ = cos (K·Wr + br); the scores S = Q·K̂ᵀ, batch by
  batch; the row maximum of S (a fold of max from −∞, then once more max with −∞, which changes nothing);
  exp (S − max S); its row sum (a sum started from 0); the quotient; and the product with V, batch by batch.
  Read at one index (i, q, d) each operation is the corresponding line of the specification: the only work is
  to name the index each operation reads its operands at, and the two neutral elements (−∞ for max, 0 for +).
  No law of arithmetic beyond `max ⊥ a = a` and `0 + a = a` is used, so nothing is assumed of the arguments.
-/
import proofs.«145122_j68564857914100_2_alg».proof.Defs
import proofs.«145122_j68564857914100_2_alg».proof.Proof.Gen.ReferenceIdeal.Read
import proofs.«145122_j68564857914100_2_alg».proof.Proof.Gen.Pre_finite_inputs
import proofs.«145122_j68564857914100_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.Spec

/-! ## The two neutral elements -/

/-- The f32 word of −∞ is the bottom of the extended reals. -/
theorem negInf_word : Ideal.ofBits .f32 0xFF800000#32 = (⊥ : EReal) := by simp [Ideal.ofBits, Ideal.ieee]

/-! ## Where each operation reads its operands

  Every index below is written with explicit coordinates: batch `i`, row `s` (or query row `q`, key row `k`),
  column `e`, and the contracted coordinate last. -/

/-- Row (i, s) of the left operand, at the contracted coordinate. -/
theorem lidx_v0 (i : Fin 4) (s : Fin 2048) (e k : Fin 1024) : lidx_main_v0 (ix3 i s e) k = ix3 i s k :=
  funext fun a => by match a with | ⟨0, _⟩ => rfl | ⟨1, _⟩ => rfl | ⟨2, _⟩ => rfl
/-- Column e of the weight, at the contracted coordinate. -/
theorem ridx_v0 (i : Fin 4) (s : Fin 2048) (e k : Fin 1024) : ridx_main_v0 (ix3 i s e) k = ix2 k e :=
  funext fun a => by match a with | ⟨0, _⟩ => rfl | ⟨1, _⟩ => rfl
/-- The bias repeated along batch and row is read at its column. -/
theorem bidx_v2 (i : Fin 4) (s : Fin 2048) (e : Fin 1024) : idx_main_v1 (idx_main_v2 (ix3 i s e)) = ix1 e :=
  funext fun a => by match a with | ⟨0, _⟩ => rfl

theorem lidx_v4 (i : Fin 4) (s : Fin 2048) (e k : Fin 1024) : lidx_main_v4 (ix3 i s e) k = ix3 i s k :=
  funext fun a => by match a with | ⟨0, _⟩ => rfl | ⟨1, _⟩ => rfl | ⟨2, _⟩ => rfl
theorem ridx_v4 (i : Fin 4) (s : Fin 2048) (e k : Fin 1024) : ridx_main_v4 (ix3 i s e) k = ix2 k e :=
  funext fun a => by match a with | ⟨0, _⟩ => rfl | ⟨1, _⟩ => rfl
theorem bidx_v6 (i : Fin 4) (s : Fin 2048) (e : Fin 1024) : idx_main_v5 (idx_main_v6 (ix3 i s e)) = ix1 e :=
  funext fun a => by match a with | ⟨0, _⟩ => rfl

theorem lidx_v8 (i : Fin 4) (s : Fin 2048) (e k : Fin 1024) : lidx_main_v8 (ix3 i s e) k = ix3 i s k :=
  funext fun a => by match a with | ⟨0, _⟩ => rfl | ⟨1, _⟩ => rfl | ⟨2, _⟩ => rfl
theorem ridx_v8 (i : Fin 4) (s : Fin 2048) (e k : Fin 1024) : ridx_main_v8 (ix3 i s e) k = ix2 k e :=
  funext fun a => by match a with | ⟨0, _⟩ => rfl | ⟨1, _⟩ => rfl
theorem bidx_v10 (i : Fin 4) (s : Fin 2048) (e : Fin 1024) : idx_main_v9 (idx_main_v10 (ix3 i s e)) = ix1 e :=
  funext fun a => by match a with | ⟨0, _⟩ => rfl

theorem lidx_v12 (i : Fin 4) (s : Fin 2048) (e k : Fin 1024) : lidx_main_v12 (ix3 i s e) k = ix3 i s k :=
  funext fun a => by match a with | ⟨0, _⟩ => rfl | ⟨1, _⟩ => rfl | ⟨2, _⟩ => rfl
theorem ridx_v12 (i : Fin 4) (s : Fin 2048) (e k : Fin 1024) : ridx_main_v12 (ix3 i s e) k = ix2 k e :=
  funext fun a => by match a with | ⟨0, _⟩ => rfl | ⟨1, _⟩ => rfl
theorem bidx_v14 (i : Fin 4) (s : Fin 2048) (e : Fin 1024) : idx_main_v13 (idx_main_v14 (ix3 i s e)) = ix1 e :=
  funext fun a => by match a with | ⟨0, _⟩ => rfl

/-- The score of query row q against key row k contracts row (i, q) of Q … -/
theorem lidx_v17 (i : Fin 4) (q k : Fin 2048) (r : Fin 1024) : lidx_main_v17 (ix3 i q k) r = ix3 i q r :=
  funext fun a => by match a with | ⟨0, _⟩ => rfl | ⟨1, _⟩ => rfl | ⟨2, _⟩ => rfl
/-- … with row (i, k) of K̂. -/
theorem ridx_v17 (i : Fin 4) (q k : Fin 2048) (r : Fin 1024) : ridx_main_v17 (ix3 i q k) r = ix3 i k r :=
  funext fun a => by match a with | ⟨0, _⟩ => rfl | ⟨1, _⟩ => rfl | ⟨2, _⟩ => rfl

/-- A row statistic repeated along the key axis is read at its row (i, q). -/
theorem ridx_v22 (i : Fin 4) (q k : Fin 2048) : idx_main_v21 (idx_main_v22 (ix3 i q k)) = ix2 i q :=
  funext fun a => by match a with | ⟨0, _⟩ => rfl | ⟨1, _⟩ => rfl
theorem ridx_v27 (i : Fin 4) (q k : Fin 2048) : idx_main_v26 (idx_main_v27 (ix3 i q k)) = ix2 i q :=
  funext fun a => by match a with | ⟨0, _⟩ => rfl | ⟨1, _⟩ => rfl
/-- The row sum of row (i, q) runs over the key coordinate. -/
theorem sidx_v25 (i : Fin 4) (q k : Fin 2048) : idx_main_v25 (ix2 i q) k = ix3 i q k :=
  funext fun a => by match a with | ⟨0, _⟩ => rfl | ⟨1, _⟩ => rfl | ⟨2, _⟩ => rfl

/-- The output at (i, q, d) contracts row (i, q) of the weights … -/
theorem lidx_v29 (i : Fin 4) (q : Fin 2048) (d : Fin 1024) (k : Fin 2048) : lidx_main_v29 (ix3 i q d) k = ix3 i q k :=
  funext fun a => by match a with | ⟨0, _⟩ => rfl | ⟨1, _⟩ => rfl | ⟨2, _⟩ => rfl
/-- … with column d of V in batch i. -/
theorem ridx_v29 (i : Fin 4) (q : Fin 2048) (d : Fin 1024) (k : Fin 2048) : ridx_main_v29 (ix3 i q d) k = ix3 i k d :=
  funext fun a => by match a with | ⟨0, _⟩ => rfl | ⟨1, _⟩ => rfl | ⟨2, _⟩ => rfl

/-! ## The projections, the feature map, the scores -/

theorem projQ (x : T3.Idx → EReal) (W : M2.Idx → EReal) (b : V1.Idx → EReal) (i : Fin 4) (s : Fin 2048) (e : Fin 1024) :
    val_main_v3 (F := Ideal) x W b (ix3 i s e) = proj x W b i s e := by
  rw [val_main_v3_apply, val_main_v0_apply, val_main_v2_apply, val_main_v1_apply]
  simp only [lidx_v0, ridx_v0, bidx_v2, Ideal.addf_def]
  rfl

theorem projK (y : T3.Idx → EReal) (W : M2.Idx → EReal) (b : V1.Idx → EReal) (i : Fin 4) (s : Fin 2048) (e : Fin 1024) :
    val_main_v7 (F := Ideal) y W b (ix3 i s e) = proj y W b i s e := by
  rw [val_main_v7_apply, val_main_v4_apply, val_main_v6_apply, val_main_v5_apply]
  simp only [lidx_v4, ridx_v4, bidx_v6, Ideal.addf_def]
  rfl

theorem projV (y : T3.Idx → EReal) (W : M2.Idx → EReal) (b : V1.Idx → EReal) (i : Fin 4) (s : Fin 2048) (e : Fin 1024) :
    val_main_v11 (F := Ideal) y W b (ix3 i s e) = proj y W b i s e := by
  rw [val_main_v11_apply, val_main_v8_apply, val_main_v10_apply, val_main_v9_apply]
  simp only [lidx_v8, ridx_v8, bidx_v10, Ideal.addf_def]
  rfl

/-- K̂ at (i, s, r): the cosine of row (i, s) of K against column r of Wr, plus the bias. -/
theorem khat_read (y : T3.Idx → EReal) (Wk : M2.Idx → EReal) (bk : V1.Idx → EReal) (Wr : M2.Idx → EReal) (br : V1.Idx → EReal)
    (i : Fin 4) (s : Fin 2048) (r : Fin 1024) :
    val_main_v16 (F := Ideal) y Wk bk Wr br (ix3 i s r) = khat y Wk bk Wr br i s r := by
  rw [val_main_v16_apply, val_main_v15_apply, val_main_v12_apply, val_main_v14_apply, val_main_v13_apply]
  simp only [lidx_v12, ridx_v12, bidx_v14, projK, Ideal.addf_def, Ideal.hostUnary_cos_def]
  rfl

/-- The score array at (i, q, k). -/
theorem score_read (x y : T3.Idx → EReal) (Wq : M2.Idx → EReal) (bq : V1.Idx → EReal) (Wk : M2.Idx → EReal) (bk : V1.Idx → EReal)
    (Wr : M2.Idx → EReal) (br : V1.Idx → EReal) (i : Fin 4) (q k : Fin 2048) :
    val_main_v17 (F := Ideal) x y Wq bq Wk bk Wr br (ix3 i q k) = score x Wq bq y Wk bk Wr br i q k := by
  rw [val_main_v17_apply]
  simp only [lidx_v17, ridx_v17, projQ, khat_read]
  rfl

/-! ## The row maximum

  The one operation read by hand: a reduction with a maximum body over the key axis. At (i, q) it is the fold of
  max, from the initial value −∞, over the key coordinate of row (i, q). -/

/-- Row (i, q) with the key coordinate k put back is (i, q, k). -/
theorem lift_row (h : S4x2048x2048.Reduces [2] S4x2048) (i : Fin 4) (q : Fin 2048) (k : Fin (S4x2048x2048.size 2)) :
    h.lift (ix2 i q) k = ix3 i q (⟨k.val, k.isLt⟩ : Fin 2048) := by
  funext c; apply Fin.ext
  match c with | ⟨0, _⟩ => rfl | ⟨1, _⟩ => rfl | ⟨2, _⟩ => rfl

theorem reduce_max_read (X : S4x2048x2048.Idx → EReal) (i : Fin 4) (q : Fin 2048) :
    Host.reduce (FloatOps.maximumf (F := Ideal) (φ := .f32)) X (val_main_cst (F := Ideal)) reducesTo_S4x2048x2048_S4x2048_d2 h_S_ (ix2 i q)
      = (Finset.univ : Finset (Fin 2048)).fold max ⊥ (fun k => X (ix3 i q k)) := by
  have hred : S4x2048x2048.Reduces [2] S4x2048 := by decide
  refine (Host.reduce_eq_fold_single (FloatOps.maximumf (F := Ideal) (φ := .f32)) X (val_main_cst (F := Ideal))
    reducesTo_S4x2048x2048_S4x2048_d2 hred h_S_ (ix2 i q)).trans ?_
  have hf : (X ∘ hred.lift (ix2 i q)) = fun k : Fin 2048 => X (ix3 i q k) := funext fun k => congrArg X (lift_row hred i q k)
  have hb : val_main_cst (F := Ideal) (Shape.Idx.first h_S_) = (⊥ : EReal) := negInf_word
  rw [hb]
  exact congrArg (fun f => Finset.fold max (⊥ : EReal) f (Finset.univ : Finset (Fin 2048))) hf

/-- The row maximum at (i, q): the second max with −∞ changes nothing. -/
theorem rowmax_read (x y : T3.Idx → EReal) (Wq : M2.Idx → EReal) (bq : V1.Idx → EReal) (Wk : M2.Idx → EReal) (bk : V1.Idx → EReal)
    (Wr : M2.Idx → EReal) (br : V1.Idx → EReal) (i : Fin 4) (q : Fin 2048) :
    val_main_v20 (F := Ideal) x y Wq bq Wk bk Wr br (ix2 i q) = rowmax (fun k => score x Wq bq y Wk bk Wr br i q k) := by
  rw [val_main_v20_apply, val_main_v19_apply, val_main_cst_0_apply]
  unfold val_main_v18
  rw [reduce_max_read]
  simp only [score_read, Ideal.maximumf_def, Ideal.ofBits_def, negInf_word, max_bot_left]
  rfl

/-! ## Softmax and the weighted sum -/

/-- exp (S − max S) at (i, q, k). -/
theorem expshift_read (x y : T3.Idx → EReal) (Wq : M2.Idx → EReal) (bq : V1.Idx → EReal) (Wk : M2.Idx → EReal) (bk : V1.Idx → EReal)
    (Wr : M2.Idx → EReal) (br : V1.Idx → EReal) (i : Fin 4) (q k : Fin 2048) :
    val_main_v24 (F := Ideal) x y Wq bq Wk bk Wr br (ix3 i q k)
      = Ideal.exp (score x Wq bq y Wk bk Wr br i q k - rowmax (fun k' => score x Wq bq y Wk bk Wr br i q k')) := by
  rw [val_main_v24_apply, val_main_v23_apply, val_main_v22_apply, val_main_v21_apply]
  simp only [ridx_v22, score_read, rowmax_read, Ideal.subf_def, Ideal.hostUnary_exp_def]

/-- The row sum of exp (S − max S) at (i, q): the sum starts from 0. -/
theorem rowsum_read (x y : T3.Idx → EReal) (Wq : M2.Idx → EReal) (bq : V1.Idx → EReal) (Wk : M2.Idx → EReal) (bk : V1.Idx → EReal)
    (Wr : M2.Idx → EReal) (br : V1.Idx → EReal) (i : Fin 4) (q : Fin 2048) :
    val_main_v25 (F := Ideal) x y Wq bq Wk bk Wr br (ix2 i q)
      = ∑ k : Fin 2048, Ideal.exp (score x Wq bq y Wk bk Wr br i q k - rowmax (fun k' => score x Wq bq y Wk bk Wr br i q k')) := by
  rw [val_main_v25_apply, val_main_cst_1_apply]
  simp only [sidx_v25, expshift_read, Ideal.ofBits_def, Ideal.ofBits_zero_f32, zero_add]

/-- The softmax weight at (i, q, k). -/
theorem prob_read (x y : T3.Idx → EReal) (Wq : M2.Idx → EReal) (bq : V1.Idx → EReal) (Wk : M2.Idx → EReal) (bk : V1.Idx → EReal)
    (Wr : M2.Idx → EReal) (br : V1.Idx → EReal) (i : Fin 4) (q k : Fin 2048) :
    val_main_v28 (F := Ideal) x y Wq bq Wk bk Wr br (ix3 i q k)
      = Ideal.div (Ideal.exp (score x Wq bq y Wk bk Wr br i q k - rowmax (fun k' => score x Wq bq y Wk bk Wr br i q k')))
          (∑ k'' : Fin 2048, Ideal.exp (score x Wq bq y Wk bk Wr br i q k'' - rowmax (fun k' => score x Wq bq y Wk bk Wr br i q k'))) := by
  rw [val_main_v28_apply, val_main_v27_apply, val_main_v26_apply]
  simp only [ridx_v27, expshift_read, rowsum_read, Ideal.hostDivf_def]

/-- The result at (i, q, d). -/
theorem out_read (x y : T3.Idx → EReal) (Wq : M2.Idx → EReal) (bq : V1.Idx → EReal) (Wk : M2.Idx → EReal) (bk : V1.Idx → EReal)
    (Wv : M2.Idx → EReal) (bv : V1.Idx → EReal) (Wr : M2.Idx → EReal) (br : V1.Idx → EReal) (i : Fin 4) (q : Fin 2048) (d : Fin 1024) :
    val_main_v29 (F := Ideal) x y Wq bq Wk bk Wv bv Wr br (ix3 i q d) = outAt x y Wq bq Wk bk Wv bv Wr br i q d := by
  rw [val_main_v29_apply]
  simp only [lidx_v29, ridx_v29, prob_read, projV]
  rfl

/-- The reference's result, as a function of its ten arguments, is the specification. -/
theorem ref_eq_spec (x y : T3.Idx → EReal) (Wq : M2.Idx → EReal) (bq : V1.Idx → EReal) (Wk : M2.Idx → EReal) (bk : V1.Idx → EReal)
    (Wv : M2.Idx → EReal) (bv : V1.Idx → EReal) (Wr : M2.Idx → EReal) (br : V1.Idx → EReal) :
    val_main_v29 (F := Ideal) x y Wq bq Wk bk Wv bv Wr br = Cert.Spec.out x y Wq bq Wk bk Wv bv Wr br := by
  funext j
  obtain ⟨i, q, d, rfl⟩ : ∃ (i : Fin 4) (q : Fin 2048) (d : Fin 1024), j = ix3 i q d := ⟨j 0, j 1, j 2, eq_ix3 j⟩
  exact out_read x y Wq bq Wk bk Wv bv Wr br i q d

/-! ## The run -/

/-- Every fair execution of the reference from memory `m'` ends with its result buffer at the specification of the
    ten argument buffers of `m'`, and the arguments unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v29) = Cert.Spec.out (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9) :=
  (θ_run defs _ _).mono
    (fun _ h c => ⟨(h c).1.trans ((val_main_v29_eq (F := Ideal) m' c).trans (ref_eq_spec _ _ _ _ _ _ _ _ _ _)), (h c).2⟩)
    (Cert.ReferenceIdeal.Value.run (F := Ideal) m' ρ')

/-- The reference runs and leaves its arguments unchanged: the run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.PreReal.lean ====
/-
  The precondition read back: every entry of each of the ten argument arrays is a real number.

  The precondition is the conjunction of ten tests, one per argument array a, each of the form
  "for every index j, |a j| < +∞", folded over all indices by "and" from the constant 1.  Over the extended reals
  |a| is max a (−a), and +∞ is the value the pattern 0x7F800000 denotes.  A fold by "and" that came out 1 met only
  1s, so every entry satisfies max (a j) (−a j) < ⊤; of the three kinds of extended real (⊥, a real, ⊤) only a real
  does, because max ⊥ (−⊥) = ⊤ = max ⊤ (−⊤).
-/
import proofs.«145122_j68564857914100_2_alg».proof.Defs
import proofs.«145122_j68564857914100_2_alg».proof.Proof.Gen.Pre_finite_inputs
import proofs.«145122_j68564857914100_2_alg».proof.Proof.Spec
import Idealize.ShloMosaic.Lib.ReduceAll
import Idealize.ShloMosaic.Lib.ValueIdx

noncomputable section

namespace Cert.PreReal

open Idealize.ShloMosaic Idealize.SL.Sem Cert.Pre_finite_inputs

/-- The shape with no axes has one index. -/
instance subsingleton_S_ : Subsingleton S_.Idx := ⟨fun a b => funext fun d => d.elim0⟩

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 denotes +∞. -/
theorem ofBits_inf : Ideal.ofBits .f32 0x7F800000#32 = ⊤ := by simp [Ideal.ofBits, Ideal.ieee]

/-- One entry: the test |x| < +∞ came out 1, so x is a real number. -/
theorem real_of_test (x : EReal) (h : Ideal.cmp .olt (max x (-x)) (Ideal.ofBits .f32 0x7F800000#32) = 1#1) :
    ∃ r : ℝ, x = (r : EReal) := by
  rw [ofBits_inf] at h
  refine real_of_abs_lt_top x ?_
  unfold Ideal.cmp at h
  by_contra hn
  simp [hn] at h

/-- One conjunct of the precondition, at any shape: if the fold by "and" of the tests |a j| < +∞ over every index is 1,
    every entry of a is a real number. -/
theorem isReal_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
          (cmpf .olt (Host.absf a) (broadcastInDim S ![] hb (constant (F := Ideal) S_ .f32 0x7F800000#32)))
          (constantI S_ 1 1#1) hr hu ValueIdx.ix0 = 1#1) :
    Cert.Spec.IsReal a := by
  intro j
  have ej := Host.reduce_andi_all _ _ hr hu ValueIdx.ix0 e j
  exact real_of_test (a j) ej

/-- THE PRECONDITION DECODED: where `finite_inputs` of the ten arrays is 1, each of them holds only real numbers. -/
theorem reals_of_pre [hPre_finite_inputs : Cert.Pre_finite_inputs.Facts]
    (a0 a1 : FVec Ideal S4x2048x1024 .f32) (a2 : FVec Ideal S1024x1024 .f32) (a3 : FVec Ideal S1024 .f32)
    (a4 : FVec Ideal S1024x1024 .f32) (a5 : FVec Ideal S1024 .f32) (a6 : FVec Ideal S1024x1024 .f32)
    (a7 : FVec Ideal S1024 .f32) (a8 : FVec Ideal S1024x1024 .f32) (a9 : FVec Ideal S1024 .f32)
    (h : Cert.Pre_finite_inputs.fn (F := Ideal) a0 a1 a2 a3 a4 a5 a6 a7 a8 a9 = fun _ => 1#1) :
    Cert.Spec.IsReal a0 ∧ Cert.Spec.IsReal a1 ∧ Cert.Spec.IsReal a2 ∧ Cert.Spec.IsReal a3 ∧ Cert.Spec.IsReal a4
      ∧ Cert.Spec.IsReal a5 ∧ Cert.Spec.IsReal a6 ∧ Cert.Spec.IsReal a7 ∧ Cert.Spec.IsReal a8 ∧ Cert.Spec.IsReal a9 := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨e0, e1⟩, e2⟩, e3⟩, e4⟩, e5⟩, e6⟩, e7⟩, e8⟩, e9⟩ := e
  exact ⟨isReal_of_all a0 _ _ _ e0, isReal_of_all a1 _ _ _ e1, isReal_of_all a2 _ _ _ e2, isReal_of_all a3 _ _ _ e3,
    isReal_of_all a4 _ _ _ e4, isReal_of_all a5 _ _ _ e5, isReal_of_all a6 _ _ _ e6, isReal_of_all a7 _ _ _ e7,
    isReal_of_all a8 _ _ _ e8, isReal_of_all a9 _ _ _ e9⟩

/-- The same at the launch memory of the idealized kernel: on every core, each of the ten argument buffers holds only
    real numbers. -/
theorem reals_of_pre_kernelIdeal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.IsReal (S := S4x2048x1024) (m ((c.tc : Thread Cert.KernelIdeal.nD Cert.KernelIdeal.τ).loc Cert.KernelIdeal.main_arg0))
    ∧ Cert.Spec.IsReal (S := S4x2048x1024) (m ((c.tc : Thread Cert.KernelIdeal.nD Cert.KernelIdeal.τ).loc Cert.KernelIdeal.main_arg1))
    ∧ Cert.Spec.IsReal (S := S1024x1024) (m ((c.tc : Thread Cert.KernelIdeal.nD Cert.KernelIdeal.τ).loc Cert.KernelIdeal.main_arg2))
    ∧ Cert.Spec.IsReal (S := S1024) (m ((c.tc : Thread Cert.KernelIdeal.nD Cert.KernelIdeal.τ).loc Cert.KernelIdeal.main_arg3))
    ∧ Cert.Spec.IsReal (S := S1024x1024) (m ((c.tc : Thread Cert.KernelIdeal.nD Cert.KernelIdeal.τ).loc Cert.KernelIdeal.main_arg4))
    ∧ Cert.Spec.IsReal (S := S1024) (m ((c.tc : Thread Cert.KernelIdeal.nD Cert.KernelIdeal.τ).loc Cert.KernelIdeal.main_arg5))
    ∧ Cert.Spec.IsReal (S := S1024x1024) (m ((c.tc : Thread Cert.KernelIdeal.nD Cert.KernelIdeal.τ).loc Cert.KernelIdeal.main_arg6))
    ∧ Cert.Spec.IsReal (S := S1024) (m ((c.tc : Thread Cert.KernelIdeal.nD Cert.KernelIdeal.τ).loc Cert.KernelIdeal.main_arg7))
    ∧ Cert.Spec.IsReal (S := S1024x1024) (m ((c.tc : Thread Cert.KernelIdeal.nD Cert.KernelIdeal.τ).loc Cert.KernelIdeal.main_arg8))
    ∧ Cert.Spec.IsReal (S := S1024) (m ((c.tc : Thread Cert.KernelIdeal.nD Cert.KernelIdeal.τ).loc Cert.KernelIdeal.main_arg9)) :=
  reals_of_pre _ _ _ _ _ _ _ _ _ _ (h c)

end Cert.PreReal

end
-- ==== Proof.lean ====
/-
  The claim: a two-pipeline Pallas attention kernel with a learned cosine feature map on the keys equals its jnp
  reference over the extended reals.

  The kernel first computes, row tile by row tile, K̂ = cos((y·Wk + bk)·Wr + br) and V = y·Wv + bv; then, per batch
  and query tile, Q = x·Wq + bq, the scores Q·K̂ᵀ as three products of bf16 pieces (Q and K̂ each split into a leading
  piece and a remainder, the remainder·remainder term dropped), a row softmax and the product with V.  Over the
  extended reals a change of float format is the identity, so each remainder is a − a, which is 0 because every
  entry is a real number (the inputs are finite, and sums, products and cosines of reals are real); the two extra
  products vanish and the scores are Q·K̂ᵀ, the reference's.  The softmax and the last product are the same
  operations on both sides.

  Frames: @main is run as four segments (host operations, pipeline, host operations, pipeline); each pipeline's
  body is run once symbolically per control case; the second pipeline's invariant carries its two scratch buffers
  between grid points.  The reference's frame is its run with the result dropped.
-/
import proofs.«145122_j68564857914100_2_alg».proof.Defs
import proofs.«145122_j68564857914100_2_alg».proof.Proof.Gen.Kernel
import proofs.«145122_j68564857914100_2_alg».proof.Proof.Gen.KernelIdeal
import proofs.«145122_j68564857914100_2_alg».proof.Proof.Gen.ReferenceIdeal
import proofs.«145122_j68564857914100_2_alg».proof.Proof.Gen.Pre_finite_inputs
import proofs.«145122_j68564857914100_2_alg».proof.Proof.KEnds
import proofs.«145122_j68564857914100_2_alg».proof.Proof.KiFinal
import proofs.«145122_j68564857914100_2_alg».proof.Proof.RefValue
import proofs.«145122_j68564857914100_2_alg».proof.Proof.PreReal
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs to the end, faults nowhere and leaves its ten arguments as launched. -/
theorem frame_k : Cert.frame_Kernel := fun m ρ _ => Cert.Kernel.R.frame_run (F := Bits) m ρ

/-- The same program read over the extended reals. -/
theorem frame_ki : Cert.frame_KernelIdeal := fun m ρ _ => Cert.KernelIdeal.R.frame_run (F := Ideal) m ρ

/-- The reference's run with the result dropped. -/
theorem frame_ri : Cert.frame_ReferenceIdeal := Cert.ReferenceIdeal.RefValue.frame_ri

/-- The two round trips through bf16 that the idealization removed (K̂'s and Q's leading pieces read back as f32)
    are the identity over the extended reals. -/
theorem preserves : Cert.preserves_Kernel_KernelIdeal :=
  ⟨IdealRules.truncf_extf.statement _ .f32 .bf16, IdealRules.truncf_extf.statement _ .f32 .bf16⟩

/-- Both programs end with the attention output `Cert.Spec.out` of the ten arguments: the kernel's result array is
    what its second pipeline's write-backs leave, which is that function when every input is real; the reference's
    run term is that function by re-indexing alone. -/
theorem algebraic : Cert.algebraic_KernelIdeal_ReferenceIdeal := by
  intro m ρ m' ρ' hpre hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.R.value_run m ρ (fun c => Cert.PreReal.reals_of_pre_kernelIdeal m hpre c), ?_⟩
  refine (θ_run Cert.ReferenceIdeal.defs _ _).mono (fun _ h c => ⟨(h c).1.trans ?_, (h c).2⟩)
    (Cert.ReferenceIdeal.RefValue.run_spec m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
